-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "early_bound" .f32 0x443B8000#32 ((25165824375 / 33554432 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v75)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v75) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536x4 : Shape := ⟨3, ![64, 65536, 4]⟩
abbrev S_ : Shape := ⟨0, ![]⟩

class Facts : Prop where
  bcast_S_S64x65536x4 : S_.BroadcastsInDim S64x65536x4 (![] : Fin 0 → Fin S64x65536x4.rank)
  reducesTo_S64x65536x4_S_d0_1_2 : S64x65536x4.ReducesTo [0, 1, 2] S_
  h_S_ : 0 < S_.numel

variable [Facts]

def fn {F : FTy → Type} [FloatOps F] (main_arg0 : FVec F S64x65536x4 .f32) (main_arg1 : FVec F S64x65536x4 .f32) : IVec S_ 1 :=
  let main_v0 : FVec F S64x65536x4 .f32 := Host.absf main_arg0
  let main_cst : FVec F S_ .f32 := constant S_ .f32 0x7F800000#32
  let main_v1 : FVec F S64x65536x4 .f32 := broadcastInDim S64x65536x4 ![] bcast_S_S64x65536x4 main_cst
  let main_v2 : IVec S64x65536x4 1 := cmpf .olt main_v0 main_v1
  let main_c : IVec S_ 1 := constantI S_ 1 1#1
  let main_v3 : IVec S_ 1 := (fun x v => Host.reduce IntOp.andi x v reducesTo_S64x65536x4_S_d0_1_2 h_S_) main_v2 main_c
  let main_v4 : FVec F S64x65536x4 .f32 := Host.absf main_arg1
  let main_cst_0 : FVec F S_ .f32 := constant S_ .f32 0x7F800000#32
  let main_v5 : FVec F S64x65536x4 .f32 := broadcastInDim S64x65536x4 ![] bcast_S_S64x65536x4 main_cst_0
  let main_v6 : IVec S64x65536x4 1 := cmpf .olt main_v4 main_v5
  let main_c_1 : IVec S_ 1 := constantI S_ 1 1#1
  let main_v7 : IVec S_ 1 := (fun x v => Host.reduce IntOp.andi x v reducesTo_S64x65536x4_S_d0_1_2 h_S_) main_v6 main_c_1
  let main_v8 : IVec S_ 1 := andi main_v3 main_v7
  main_v8
-- ==== Kernel.lean ====
abbrev S64x65536x4 : Shape := ⟨3, ![64, 65536, 4]⟩
abbrev S64x4x8 : Shape := ⟨3, ![64, 4, 8]⟩
abbrev S32x4096x4 : Shape := ⟨3, ![32, 4096, 4]⟩
abbrev S32x4x8 : Shape := ⟨3, ![32, 4, 8]⟩
abbrev S32x4x4096 : Shape := ⟨3, ![32, 4, 4096]⟩
abbrev S32x4 : Shape := ⟨2, ![32, 4]⟩
abbrev S32x4x1 : Shape := ⟨3, ![32, 4, 1]⟩
abbrev S64x4x1 : Shape := ⟨3, ![64, 4, 1]⟩
abbrev S64x4 : Shape := ⟨2, ![64, 4]⟩
abbrev S_ : Shape := ⟨0, ![]⟩

abbrev nBuf : Space → Nat
  | .hbm => 169
  | .vmem => 7
  | .smem => 0
  | _ => 0

abbrev hbmTy0_0 (i : Nat) : BufTy := match i % 128 with
  | 0 => ⟨S64x65536x4, .f32⟩
  | 1 => ⟨S64x65536x4, .f32⟩
  | 2 => ⟨S64x4x8, .f32⟩
  | 3 => ⟨S64x4x1, .f32⟩
  | 4 => ⟨S64x4, .f32⟩
  | 5 => ⟨S64x4x1, .f32⟩
  | 6 => ⟨S64x4, .f32⟩
  | 7 => ⟨S64x4x1, .f32⟩
  | 8 => ⟨S64x4, .f32⟩
  | 9 => ⟨S64x4x1, .f32⟩
  | 10 => ⟨S64x4, .f32⟩
  | 11 => ⟨S64x4x1, .f32⟩
  | 12 => ⟨S64x4, .f32⟩
  | 13 => ⟨S64x4x1, .f32⟩
  | 14 => ⟨S64x4, .f32⟩
  | 15 => ⟨S64x4x1, .f32⟩
  | 16 => ⟨S64x4, .f32⟩
  | 17 => ⟨S64x4x1, .f32⟩
  | 18 => ⟨S64x4, .f32⟩
  | 19 => ⟨S_, .f32⟩
  | 20 => ⟨S64x4, .f32⟩
  | 21 => ⟨S64x4, .i1⟩
  | 22 => ⟨S_, .f32⟩
  | 23 => ⟨S64x4, .f32⟩
  | 24 => ⟨S64x4, .f32⟩
  | 25 => ⟨S64x4, .f32⟩
  | 26 => ⟨S_, .f32⟩
  | 27 => ⟨S_, .f32⟩
  | 28 => ⟨S64x4, .f32⟩
  | 29 => ⟨S64x4, .f32⟩
  | 30 => ⟨S_, .f32⟩
  | 31 => ⟨S64x4, .f32⟩
  | 32 => ⟨S64x4, .i1⟩
  | 33 => ⟨S_, .f32⟩
  | 34 => ⟨S64x4, .f32⟩
  | 35 => ⟨S64x4, .f32⟩
  | 36 => ⟨S64x4, .f32⟩
  | 37 => ⟨S_, .f32⟩
  | 38 => ⟨S_, .f32⟩
  | 39 => ⟨S64x4, .f32⟩
  | 40 => ⟨S64x4, .f32⟩
  | 41 => ⟨S_, .f32⟩
  | 42 => ⟨S64x4, .f32⟩
  | 43 => ⟨S64x4, .i1⟩
  | 44 => ⟨S_, .f32⟩
  | 45 => ⟨S64x4, .f32⟩
  | 46 => ⟨S64x4, .f32⟩
  | 47 => ⟨S64x4, .f32⟩
  | 48 => ⟨S_, .f32⟩
  | 49 => ⟨S_, .f32⟩
  | 50 => ⟨S64x4, .f32⟩
  | 51 => ⟨S64x4, .f32⟩
  | 52 => ⟨S_, .f32⟩
  | 53 => ⟨S64x4, .f32⟩
  | 54 => ⟨S64x4, .i1⟩
  | 55 => ⟨S_, .f32⟩
  | 56 => ⟨S64x4, .f32⟩
  | 57 => ⟨S64x4, .f32⟩
  | 58 => ⟨S64x4, .f32⟩
  | 59 => ⟨S_, .f32⟩
  | 60 => ⟨S_, .f32⟩
  | 61 => ⟨S64x4, .f32⟩
  | 62 => ⟨S64x4, .f32⟩
  | 63 => ⟨S64x4, .i1⟩
  | 64 => ⟨S64x4, .i1⟩
  | 65 => ⟨S64x4, .i1⟩
  | 66 => ⟨S64x4, .i1⟩
  | 67 => ⟨S_, .f32⟩
  | 68 => ⟨S_, .f32⟩
  | 69 => ⟨S64x4, .f32⟩
  | 70 => ⟨S64x4, .f32⟩
  | 71 => ⟨S_, .f32⟩
  | 72 => ⟨S_, .f32⟩
  | 73 => ⟨S64x4, .f32⟩
  | 74 => ⟨S64x4, .f32⟩
  | 75 => ⟨S64x4, .f32⟩
  | 76 => ⟨S64x4, .f32⟩
  | 77 => ⟨S64x4, .f32⟩
  | 78 => ⟨S64x4, .f32⟩
  | 79 => ⟨S_, .f32⟩
  | 80 => ⟨S64x4, .f32⟩
  | 81 => ⟨S64x4, .i1⟩
  | 82 => ⟨S_, .f32⟩
  | 83 => ⟨S64x4, .f32⟩
  | 84 => ⟨S64x4, .f32⟩
  | 85 => ⟨S64x4, .f32⟩
  | 86 => ⟨S_, .f32⟩
  | 87 => ⟨S_, .f32⟩
  | 88 => ⟨S64x4, .f32⟩
  | 89 => ⟨S64x4, .f32⟩
  | 90 => ⟨S64x4, .i1⟩
  | 91 => ⟨S64x4, .i1⟩
  | 92 => ⟨S64x4, .i1⟩
  | 93 => ⟨S64x4, .i1⟩
  | 94 => ⟨S_, .f32⟩
  | 95 => ⟨S_, .f32⟩
  | 96 => ⟨S64x4, .f32⟩
  | 97 => ⟨S64x4, .f32⟩
  | 98 => ⟨S_, .f32⟩
  | 99 => ⟨S_, .f32⟩
  | 100 => ⟨S64x4, .f32⟩
  | 101 => ⟨S64x4, .f32⟩
  | 102 => ⟨S64x4, .f32⟩
  | 103 => ⟨S64x4, .f32⟩
  | 104 => ⟨S64x4, .f32⟩
  | 105 => ⟨S64x4, .f32⟩
  | 106 => ⟨S_, .f32⟩
  | 107 => ⟨S64x4, .f32⟩
  | 108 => ⟨S64x4, .i1⟩
  | 109 => ⟨S_, .f32⟩
  | 110 => ⟨S64x4, .f32⟩
  | 111 => ⟨S64x4, .f32⟩
  | 112 => ⟨S64x4, .f32⟩
  | 113 => ⟨S_, .f32⟩
  | 114 => ⟨S_, .f32⟩
  | 115 => ⟨S64x4, .f32⟩
  | 116 => ⟨S64x4, .f32⟩
  | 117 => ⟨S64x4, .i1⟩
  | 118 => ⟨S64x4, .i1⟩
  | 119 => ⟨S64x4, .i32⟩
  | 120 => ⟨S64x4, .f32⟩
  | 121 => ⟨S_, .f32⟩
  | 122 => ⟨S_, .f32⟩
  | 123 => ⟨S64x4, .i1⟩
  | 124 => ⟨S_, .f32⟩
  | 125 => ⟨S64x4, .f32⟩
  | 126 => ⟨S64x4, .f32⟩
  | 127 => ⟨S_, .f32⟩
  | _ => ⟨S64x65536x4, .f32⟩

abbrev hbmTy0_1 (i : Nat) : BufTy := match i % 128 with
  | 0 => ⟨S_, .f32⟩
  | 1 => ⟨S_, .f32⟩
  | 2 => ⟨S64x4, .i1⟩
  | 3 => ⟨S64x4, .i1⟩
  | 4 => ⟨S64x4, .i32⟩
  | 5 => ⟨S64x4, .f32⟩
  | 6 => ⟨S_, .f32⟩
  | 7 => ⟨S_, .f32⟩
  | 8 => ⟨S64x4, .i1⟩
  | 9 => ⟨S_, .f32⟩
  | 10 => ⟨S64x4, .f32⟩
  | 11 => ⟨S64x4, .f32⟩
  | 12 => ⟨S_, .f32⟩
  | 13 => ⟨S_, .f32⟩
  | 14 => ⟨S_, .f32⟩
  | 15 => ⟨S64x4, .i1⟩
  | 16 => ⟨S64x4, .i1⟩
  | 17 => ⟨S64x4, .i32⟩
  | 18 => ⟨S64x4, .f32⟩
  | 19 => ⟨S_, .f32⟩
  | 20 => ⟨S_, .f32⟩
  | 21 => ⟨S64x4, .i1⟩
  | 22 => ⟨S_, .f32⟩
  | 23 => ⟨S64x4, .f32⟩
  | 24 => ⟨S64x4, .f32⟩
  | 25 => ⟨S_, .f32⟩
  | 26 => ⟨S_, .f32⟩
  | 27 => ⟨S_, .f32⟩
  | 28 => ⟨S64x4, .i1⟩
  | 29 => ⟨S64x4, .i1⟩
  | 30 => ⟨S64x4, .i32⟩
  | 31 => ⟨S64x4, .f32⟩
  | 32 => ⟨S_, .f32⟩
  | 33 => ⟨S_, .f32⟩
  | 34 => ⟨S64x4, .i1⟩
  | 35 => ⟨S_, .f32⟩
  | 36 => ⟨S64x4, .f32⟩
  | 37 => ⟨S64x4, .f32⟩
  | 38 => ⟨S_, .f32⟩
  | 39 => ⟨S_, .f32⟩
  | 40 => ⟨S_, .f32⟩
  | _ => ⟨S64x65536x4, .f32⟩

abbrev hbmTy (i : Nat) : BufTy := match i / 128 with
  | 0 => hbmTy0_0 i
  | 1 => hbmTy0_1 i
  | _ => ⟨S64x65536x4, .f32⟩

abbrev bufTy : (tb : Table) → Fin (tcTables nBuf tb) → BufTy
  | .hbm, ⟨i, _⟩ => hbmTy i
  | .local _ .vmem, ⟨0, _⟩ => ⟨S32x4096x4, .f32⟩
  | .local _ .vmem, ⟨1, _⟩ => ⟨S32x4096x4, .f32⟩
  | .local _ .vmem, ⟨2, _⟩ => ⟨S32x4096x4, .f32⟩
  | .local _ .vmem, ⟨3, _⟩ => ⟨S32x4096x4, .f32⟩
  | .local _ .vmem, ⟨4, _⟩ => ⟨S32x4x8, .f32⟩
  | .local _ .vmem, ⟨5, _⟩ => ⟨S32x4x8, .f32⟩
  | .local _ .vmem, ⟨6, _⟩ => ⟨S32x4x8, .f32⟩
  | _, _ => ⟨S64x65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_call3_v0 : Ref sig .tc := ⟨.hbm, 60, rfl⟩
abbrev main_call3_v1 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_call4_v0 : Ref sig .tc := ⟨.hbm, 68, rfl⟩
abbrev main_call4_v1 : Ref sig .tc := ⟨.hbm, 69, rfl⟩
abbrev main_v45 : Ref sig .tc := ⟨.hbm, 70, rfl⟩
abbrev main_cst_12 : Ref sig .tc := ⟨.hbm, 71, rfl⟩
abbrev main_call5_v0 : Ref sig .tc := ⟨.hbm, 72, rfl⟩
abbrev main_call5_v1 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_15 : Ref sig .tc := ⟨.hbm, 86, rfl⟩
abbrev main_call6_v0 : Ref sig .tc := ⟨.hbm, 87, rfl⟩
abbrev main_call6_v1 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_16 : Ref sig .tc := ⟨.hbm, 94, rfl⟩
abbrev main_call7_v0 : Ref sig .tc := ⟨.hbm, 95, rfl⟩
abbrev main_call7_v1 : Ref sig .tc := ⟨.hbm, 96, rfl⟩
abbrev main_v61 : Ref sig .tc := ⟨.hbm, 97, rfl⟩
abbrev main_cst_17 : Ref sig .tc := ⟨.hbm, 98, rfl⟩
abbrev main_call8_v0 : Ref sig .tc := ⟨.hbm, 99, rfl⟩
abbrev main_call8_v1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_18 : Ref sig .tc := ⟨.hbm, 106, rfl⟩
abbrev main_v67 : Ref sig .tc := ⟨.hbm, 107, rfl⟩
abbrev main_v68 : Ref sig .tc := ⟨.hbm, 108, rfl⟩
abbrev main_cst_19 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_20 : Ref sig .tc := ⟨.hbm, 113, rfl⟩
abbrev main_call9_v0 : Ref sig .tc := ⟨.hbm, 114, rfl⟩
abbrev main_call9_v1 : Ref sig .tc := ⟨.hbm, 115, rfl⟩
abbrev main_v72 : Ref sig .tc := ⟨.hbm, 116, rfl⟩
abbrev main_call10_v0 : Ref sig .tc := ⟨.hbm, 117, rfl⟩
abbrev main_call10_v1 : Ref sig .tc := ⟨.hbm, 118, rfl⟩
abbrev main_call10_v2 : Ref sig .tc := ⟨.hbm, 119, rfl⟩
abbrev main_call10_v3 : Ref sig .tc := ⟨.hbm, 120, rfl⟩
abbrev main_call10_cst : Ref sig .tc := ⟨.hbm, 121, rfl⟩
abbrev main_call10_v4 : Ref sig .tc := ⟨.hbm, 122, rfl⟩
abbrev main_call10_call0_v0 : Ref sig .tc := ⟨.hbm, 123, rfl⟩
abbrev main_call10_call0_cst : Ref sig .tc := ⟨.hbm, 124, rfl⟩
abbrev main_call10_call0_call0_v0 : Ref sig .tc := ⟨.hbm, 125, rfl⟩
abbrev main_call10_call0_v1 : Ref sig .tc := ⟨.hbm, 126, rfl⟩
abbrev main_call10_call0_cst_0 : Ref sig .tc := ⟨.hbm, 127, rfl⟩
abbrev main_call10_v5 : Ref sig .tc := ⟨.hbm, 128, rfl⟩
abbrev main_v73 : Ref sig .tc := ⟨.hbm, 129, rfl⟩
abbrev main_call11_v0 : Ref sig .tc := ⟨.hbm, 130, rfl⟩
abbrev main_call11_v1 : Ref sig .tc := ⟨.hbm, 131, rfl⟩
abbrev main_call11_v2 : Ref sig .tc := ⟨.hbm, 132, rfl⟩
abbrev main_call11_v3 : Ref sig .tc := ⟨.hbm, 133, rfl⟩
abbrev main_call11_cst : Ref sig .tc := ⟨.hbm, 134, rfl⟩
abbrev main_call11_v4 : Ref sig .tc := ⟨.hbm, 135, rfl⟩
abbrev main_call11_call0_v0 : Ref sig .tc := ⟨.hbm, 136, rfl⟩
abbrev main_call11_call0_cst : Ref sig .tc := ⟨.hbm, 137, rfl⟩
abbrev main_call11_call0_call0_v0 : Ref sig .tc := ⟨.hbm, 138, rfl⟩
abbrev main_call11_call0_v1 : Ref sig .tc := ⟨.hbm, 139, rfl⟩
abbrev main_call11_call0_cst_0 : Ref sig .tc := ⟨.hbm, 140, rfl⟩
abbrev main_call11_v5 : Ref sig .tc := ⟨.hbm, 141, rfl⟩
abbrev main_v74 : Ref sig .tc := ⟨.hbm, 142, rfl⟩
abbrev main_call12_v0 : Ref sig .tc := ⟨.hbm, 143, rfl⟩
abbrev main_call12_v1 : Ref sig .tc := ⟨.hbm, 144, rfl⟩
abbrev main_call12_v2 : Ref sig .tc := ⟨.hbm, 145, rfl⟩
abbrev main_call12_v3 : Ref sig .tc := ⟨.hbm, 146, rfl⟩
abbrev main_call12_cst : Ref sig .tc := ⟨.hbm, 147, rfl⟩
abbrev main_call12_v4 : Ref sig .tc := ⟨.hbm, 148, rfl⟩
abbrev main_call12_call0_v0 : Ref sig .tc := ⟨.hbm, 149, rfl⟩
abbrev main_call12_call0_cst : Ref sig .tc := ⟨.hbm, 150, rfl⟩
abbrev main_call12_call0_call0_v0 : Ref sig .tc := ⟨.hbm, 151, rfl⟩
abbrev main_call12_call0_v1 : Ref sig .tc := ⟨.hbm, 152, rfl⟩
abbrev main_call12_call0_cst_0 : Ref sig .tc := ⟨.hbm, 153, rfl⟩
abbrev main_call12_v5 : Ref sig .tc := ⟨.hbm, 154, rfl⟩
abbrev main_v75 : Ref sig .tc := ⟨.hbm, 155, rfl⟩
abbrev main_call13_v0 : Ref sig .tc := ⟨.hbm, 156, rfl⟩
abbrev main_call13_v1 : Ref sig .tc := ⟨.hbm, 157, rfl⟩
abbrev main_call13_v2 : Ref sig .tc := ⟨.hbm, 158, rfl⟩
abbrev main_call13_v3 : Ref sig .tc := ⟨.hbm, 159, rfl⟩
abbrev main_call13_cst : Ref sig .tc := ⟨.hbm, 160, rfl⟩
abbrev main_call13_v4 : Ref sig .tc := ⟨.hbm, 161, rfl⟩
abbrev main_call13_call0_v0 : Ref sig .tc := ⟨.hbm, 162, rfl⟩
abbrev main_call13_call0_cst : Ref sig .tc := ⟨.hbm, 163, rfl⟩
abbrev main_call13_call0_call0_v0 : Ref sig .tc := ⟨.hbm, 164, rfl⟩
abbrev main_call13_call0_v1 : Ref sig .tc := ⟨.hbm, 165, rfl⟩
abbrev main_call13_call0_cst_0 : Ref sig .tc := ⟨.hbm, 166, rfl⟩
abbrev main_call13_v5 : Ref sig .tc := ⟨.hbm, 167, rfl⟩
abbrev main_v76 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_27 : BitVec 32 := 0#32
  let v64 : BitVec 1 := Scalar.cmpi .ne v63 c0_i32_27
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x4x8_S32x4x8_0_0_0 : ∀ a, (![0, 0, 0] : Fin 3 → Nat) a + S32x4x8.size a ≤ S32x4x8.size a
  h_S32x4x8 : 0 < S32x4x8.numel
  shapeCasts_S32x4x8_S32x4x8 : S32x4x8.ShapeCasts S32x4x8
  inb_S32x4096x4_S32x4096x4_0_0_0 : ∀ a, (![0, 0, 0] : Fin 3 → Nat) a + S32x4096x4.size a ≤ S32x4096x4.size a
  h_S32x4096x4 : 0 < S32x4096x4.numel
  transposes_S32x4096x4_p0_2_1_S32x4x4096 : S32x4096x4.Transposes [0, 2, 1] S32x4x4096
  natLt_1_32 : 1 < 32
  reduces_S32x4x4096_S32x4 : S32x4x4096.Reduces [2] S32x4
  shapeCasts_S32x4_S32x4x1 : S32x4.ShapeCasts S32x4x1
  concatenates_S32x4x1_S32x4x1_S32x4x1_S32x4x1_S32x4x1_S32x4x1_S32x4x1_S32x4x1_S32x4x8_d2 : Shape.Concatenates [S32x4x1, S32x4x1, S32x4x1, S32x4x1, S32x4x1, S32x4x1, S32x4x1, S32x4x1] S32x4x8 2
  slices_S64x4x8_S64x4x1_0_0_0 : S64x4x8.Slices ![0, 0, 0] S64x4x1
  shapeCasts_S64x4x1_S64x4 : S64x4x1.ShapeCasts S64x4
  slices_S64x4x8_S64x4x1_0_0_1 : S64x4x8.Slices ![0, 0, 1] S64x4x1
  slices_S64x4x8_S64x4x1_0_0_2 : S64x4x8.Slices ![0, 0, 2] S64x4x1
  slices_S64x4x8_S64x4x1_0_0_3 : S64x4x8.Slices ![0, 0, 3] S64x4x1
  slices_S64x4x8_S64x4x1_0_0_4 : S64x4x8.Slices ![0, 0, 4] S64x4x1
  slices_S64x4x8_S64x4x1_0_0_5 : S64x4x8.Slices ![0, 0, 5] S64x4x1
  slices_S64x4x8_S64x4x1_0_0_6 : S64x4x8.Slices ![0, 0, 6] S64x4x1
  slices_S64x4x8_S64x4x1_0_0_7 : S64x4x8.Slices ![0, 0, 7] S64x4x1
  bcast_S_S64x4 : S_.BroadcastsInDim S64x4 (![] : Fin 0 → Fin S64x4.rank)
  reducesTo_S64x4_S_d0_1 : S64x4.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096x4.size a ≤ S64x65536x4.size a
  hwx0_0 : ∀ i : grid0.Coords, EltTy.bits .f32 = 32 ∨ (Rect.block (s := S64x65536x4) S32x4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096x4.size a ≤ S64x65536x4.size a
  hwx0_1 : ∀ i : grid0.Coords, EltTy.bits .f32 = 32 ∨ (Rect.block (s := S64x65536x4) S32x4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4x8.size a ≤ S64x4x8.size a
  hwx0_2 : ∀ i : grid0.Coords, EltTy.bits .f32 = 32 ∨ (Rect.block (s := S64x4x8) S32x4x8.size (cc0_transform_2 i) (hinb0_2 i)).WholeWords (EltTy.packing .f32)

variable [Facts₀]

abbrev win0_0 : Pipeline.Window sig grid0 :=
  Pipeline.Window.ofSpec (Memref.whole main_arg0) S32x4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x4x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x65536x4 : Shape := ⟨3, ![64, 65536, 4]⟩
abbrev S_ : Shape := ⟨0, ![]⟩
abbrev S64x4 : Shape := ⟨2, ![64, 4]⟩

abbrev nBuf : Space → Nat
  | .hbm => 210
  | .vmem => 0
  | .smem => 0
  | _ => 0

abbrev hbmTy0_0 (i : Nat) : BufTy := match i % 128 with
  | 0 => ⟨S64x65536x4, .f32⟩
  | 1 => ⟨S64x65536x4, .f32⟩
  | 2 => ⟨S_, .f32⟩
  | 3 => ⟨S64x65536x4, .f32⟩
  | 4 => ⟨S64x65536x4, .i1⟩
  | 5 => ⟨S_, .f32⟩
  | 6 => ⟨S64x65536x4, .f32⟩
  | 7 => ⟨S64x65536x4, .i1⟩
  | 8 => ⟨S64x65536x4, .i1⟩
  | 9 => ⟨S_, .f32⟩
  | 10 => ⟨S64x65536x4, .f32⟩
  | 11 => ⟨S64x65536x4, .f32⟩
  | 12 => ⟨S64x65536x4, .f32⟩
  | 13 => ⟨S64x65536x4, .f32⟩
  | 14 => ⟨S_, .f32⟩
  | 15 => ⟨S64x65536x4, .f32⟩
  | 16 => ⟨S64x65536x4, .i1⟩
  | 17 => ⟨S64x65536x4, .f32⟩
  | 18 => ⟨S_, .f32⟩
  | 19 => ⟨S64x4, .f32⟩
  | 20 => ⟨S64x65536x4, .f32⟩
  | 21 => ⟨S_, .f32⟩
  | 22 => ⟨S64x4, .f32⟩
  | 23 => ⟨S_, .f32⟩
  | 24 => ⟨S64x4, .f32⟩
  | 25 => ⟨S64x4, .i1⟩
  | 26 => ⟨S_, .f32⟩
  | 27 => ⟨S64x4, .f32⟩
  | 28 => ⟨S64x4, .f32⟩
  | 29 => ⟨S64x4, .f32⟩
  | 30 => ⟨S_, .f32⟩
  | 31 => ⟨S_, .f32⟩
  | 32 => ⟨S64x4, .f32⟩
  | 33 => ⟨S64x4, .f32⟩
  | 34 => ⟨S_, .f32⟩
  | 35 => ⟨S64x65536x4, .f32⟩
  | 36 => ⟨S64x65536x4, .i1⟩
  | 37 => ⟨S_, .f32⟩
  | 38 => ⟨S64x65536x4, .f32⟩
  | 39 => ⟨S64x65536x4, .i1⟩
  | 40 => ⟨S64x65536x4, .i1⟩
  | 41 => ⟨S64x65536x4, .f32⟩
  | 42 => ⟨S_, .f32⟩
  | 43 => ⟨S64x4, .f32⟩
  | 44 => ⟨S64x65536x4, .f32⟩
  | 45 => ⟨S_, .f32⟩
  | 46 => ⟨S64x4, .f32⟩
  | 47 => ⟨S_, .f32⟩
  | 48 => ⟨S64x4, .f32⟩
  | 49 => ⟨S64x4, .i1⟩
  | 50 => ⟨S_, .f32⟩
  | 51 => ⟨S64x4, .f32⟩
  | 52 => ⟨S64x4, .f32⟩
  | 53 => ⟨S64x4, .f32⟩
  | 54 => ⟨S_, .f32⟩
  | 55 => ⟨S_, .f32⟩
  | 56 => ⟨S64x4, .f32⟩
  | 57 => ⟨S64x4, .f32⟩
  | 58 => ⟨S_, .f32⟩
  | 59 => ⟨S64x65536x4, .f32⟩
  | 60 => ⟨S64x65536x4, .i1⟩
  | 61 => ⟨S64x65536x4, .f32⟩
  | 62 => ⟨S_, .f32⟩
  | 63 => ⟨S64x4, .f32⟩
  | 64 => ⟨S64x65536x4, .f32⟩
  | 65 => ⟨S_, .f32⟩
  | 66 => ⟨S64x4, .f32⟩
  | 67 => ⟨S_, .f32⟩
  | 68 => ⟨S64x4, .f32⟩
  | 69 => ⟨S64x4, .i1⟩
  | 70 => ⟨S_, .f32⟩
  | 71 => ⟨S64x4, .f32⟩
  | 72 => ⟨S64x4, .f32⟩
  | 73 => ⟨S64x4, .f32⟩
  | 74 => ⟨S_, .f32⟩
  | 75 => ⟨S_, .f32⟩
  | 76 => ⟨S64x4, .f32⟩
  | 77 => ⟨S64x4, .f32⟩
  | 78 => ⟨S_, .f32⟩
  | 79 => ⟨S_, .f32⟩
  | 80 => ⟨S_, .f32⟩
  | 81 => ⟨S64x65536x4, .f32⟩
  | 82 => ⟨S64x65536x4, .i1⟩
  | 83 => ⟨S_, .f32⟩
  | 84 => ⟨S64x65536x4, .f32⟩
  | 85 => ⟨S64x65536x4, .i1⟩
  | 86 => ⟨S64x65536x4, .i1⟩
  | 87 => ⟨S64x65536x4, .f32⟩
  | 88 => ⟨S_, .f32⟩
  | 89 => ⟨S64x4, .f32⟩
  | 90 => ⟨S64x65536x4, .f32⟩
  | 91 => ⟨S_, .f32⟩
  | 92 => ⟨S64x4, .f32⟩
  | 93 => ⟨S_, .f32⟩
  | 94 => ⟨S64x4, .f32⟩
  | 95 => ⟨S64x4, .i1⟩
  | 96 => ⟨S_, .f32⟩
  | 97 => ⟨S64x4, .f32⟩
  | 98 => ⟨S64x4, .f32⟩
  | 99 => ⟨S64x4, .f32⟩
  | 100 => ⟨S_, .f32⟩
  | 101 => ⟨S_, .f32⟩
  | 102 => ⟨S64x4, .f32⟩
  | 103 => ⟨S64x4, .f32⟩
  | 104 => ⟨S64x4, .i1⟩
  | 105 => ⟨S64x4, .i1⟩
  | 106 => ⟨S64x4, .i1⟩
  | 107 => ⟨S64x4, .i1⟩
  | 108 => ⟨S_, .f32⟩
  | 109 => ⟨S_, .f32⟩
  | 110 => ⟨S64x4, .f32⟩
  | 111 => ⟨S64x4, .f32⟩
  | 112 => ⟨S_, .f32⟩
  | 113 => ⟨S_, .f32⟩
  | 114 => ⟨S64x4, .f32⟩
  | 115 => ⟨S64x4, .f32⟩
  | 116 => ⟨S64x4, .f32⟩
  | 117 => ⟨S64x4, .f32⟩
  | 118 => ⟨S64x4, .f32⟩
  | 119 => ⟨S64x4, .f32⟩
  | 120 => ⟨S_, .f32⟩
  | 121 => ⟨S64x4, .f32⟩
  | 122 => ⟨S64x4, .i1⟩
  | 123 => ⟨S_, .f32⟩
  | 124 => ⟨S64x4, .f32⟩
  | 125 => ⟨S64x4, .f32⟩
  | 126 => ⟨S64x4, .f32⟩
  | 127 => ⟨S_, .f32⟩
  | _ => ⟨S64x65536x4, .f32⟩

abbrev hbmTy0_1 (i : Nat) : BufTy := match i % 128 with
  | 0 => ⟨S_, .f32⟩
  | 1 => ⟨S64x4, .f32⟩
  | 2 => ⟨S64x4, .f32⟩
  | 3 => ⟨S64x4, .i1⟩
  | 4 => ⟨S64x4, .i1⟩
  | 5 => ⟨S64x4, .i1⟩
  | 6 => ⟨S64x4, .i1⟩
  | 7 => ⟨S_, .f32⟩
  | 8 => ⟨S_, .f32⟩
  | 9 => ⟨S64x4, .f32⟩
  | 10 => ⟨S64x4, .f32⟩
  | 11 => ⟨S_, .f32⟩
  | 12 => ⟨S_, .f32⟩
  | 13 => ⟨S64x4, .f32⟩
  | 14 => ⟨S64x4, .f32⟩
  | 15 => ⟨S64x4, .f32⟩
  | 16 => ⟨S64x4, .f32⟩
  | 17 => ⟨S64x4, .f32⟩
  | 18 => ⟨S64x4, .f32⟩
  | 19 => ⟨S_, .f32⟩
  | 20 => ⟨S64x4, .f32⟩
  | 21 => ⟨S64x4, .i1⟩
  | 22 => ⟨S_, .f32⟩
  | 23 => ⟨S64x4, .f32⟩
  | 24 => ⟨S64x4, .f32⟩
  | 25 => ⟨S64x4, .f32⟩
  | 26 => ⟨S_, .f32⟩
  | 27 => ⟨S_, .f32⟩
  | 28 => ⟨S64x4, .f32⟩
  | 29 => ⟨S64x4, .f32⟩
  | 30 => ⟨S64x4, .i1⟩
  | 31 => ⟨S64x4, .i1⟩
  | 32 => ⟨S64x4, .i32⟩
  | 33 => ⟨S64x4, .f32⟩
  | 34 => ⟨S_, .f32⟩
  | 35 => ⟨S_, .f32⟩
  | 36 => ⟨S64x4, .i1⟩
  | 37 => ⟨S_, .f32⟩
  | 38 => ⟨S64x4, .f32⟩
  | 39 => ⟨S64x4, .f32⟩
  | 40 => ⟨S_, .f32⟩
  | 41 => ⟨S_, .f32⟩
  | 42 => ⟨S_, .f32⟩
  | 43 => ⟨S64x4, .i1⟩
  | 44 => ⟨S64x4, .i1⟩
  | 45 => ⟨S64x4, .i32⟩
  | 46 => ⟨S64x4, .f32⟩
  | 47 => ⟨S_, .f32⟩
  | 48 => ⟨S_, .f32⟩
  | 49 => ⟨S64x4, .i1⟩
  | 50 => ⟨S_, .f32⟩
  | 51 => ⟨S64x4, .f32⟩
  | 52 => ⟨S64x4, .f32⟩
  | 53 => ⟨S_, .f32⟩
  | 54 => ⟨S_, .f32⟩
  | 55 => ⟨S_, .f32⟩
  | 56 => ⟨S64x4, .i1⟩
  | 57 => ⟨S64x4, .i1⟩
  | 58 => ⟨S64x4, .i32⟩
  | 59 => ⟨S64x4, .f32⟩
  | 60 => ⟨S_, .f32⟩
  | 61 => ⟨S_, .f32⟩
  | 62 => ⟨S64x4, .i1⟩
  | 63 => ⟨S_, .f32⟩
  | 64 => ⟨S64x4, .f32⟩
  | 65 => ⟨S64x4, .f32⟩
  | 66 => ⟨S_, .f32⟩
  | 67 => ⟨S_, .f32⟩
  | 68 => ⟨S_, .f32⟩
  | 69 => ⟨S64x4, .i1⟩
  | 70 => ⟨S64x4, .i1⟩
  | 71 => ⟨S64x4, .i32⟩
  | 72 => ⟨S64x4, .f32⟩
  | 73 => ⟨S_, .f32⟩
  | 74 => ⟨S_, .f32⟩
  | 75 => ⟨S64x4, .i1⟩
  | 76 => ⟨S_, .f32⟩
  | 77 => ⟨S64x4, .f32⟩
  | 78 => ⟨S64x4, .f32⟩
  | 79 => ⟨S_, .f32⟩
  | 80 => ⟨S_, .f32⟩
  | 81 => ⟨S_, .f32⟩
  | _ => ⟨S64x65536x4, .f32⟩

abbrev hbmTy (i : Nat) : BufTy := match i / 128 with
  | 0 => hbmTy0_0 i
  | 1 => hbmTy0_1 i
  | _ => ⟨S64x65536x4, .f32⟩

abbrev bufTy : (tb : Table) → Fin (tcTables nBuf tb) → BufTy
  | .hbm, ⟨i, _⟩ => hbmTy i
  | _, _ => ⟨S64x65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_cst_8 : Ref sig .tc := ⟨.hbm, 34, rfl⟩
abbrev main_v20 : Ref sig .tc := ⟨.hbm, 35, rfl⟩
abbrev main_v21 : Ref sig .tc := ⟨.hbm, 36, rfl⟩
abbrev main_cst_9 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_cst_12 : Ref sig .tc := ⟨.hbm, 47, rfl⟩
abbrev main_v29 : Ref sig .tc := ⟨.hbm, 48, rfl⟩
abbrev main_v30 : Ref sig .tc := ⟨.hbm, 49, rfl⟩
abbrev main_cst_13 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_14 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_cst_15 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_16 : Ref sig .tc := ⟨.hbm, 62, rfl⟩
abbrev main_v38 : Ref sig .tc := ⟨.hbm, 63, rfl⟩
abbrev main_v39 : Ref sig .tc := ⟨.hbm, 64, rfl⟩
abbrev main_cst_17 : Ref sig .tc := ⟨.hbm, 65, rfl⟩
abbrev main_v40 : Ref sig .tc := ⟨.hbm, 66, rfl⟩
abbrev main_cst_18 : Ref sig .tc := ⟨.hbm, 67, rfl⟩
abbrev main_v41 : Ref sig .tc := ⟨.hbm, 68, rfl⟩
abbrev main_v42 : Ref sig .tc := ⟨.hbm, 69, rfl⟩
abbrev main_cst_19 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_20 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_cst_21 : Ref sig .tc := ⟨.hbm, 78, rfl⟩
abbrev main_cst_22 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_23 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_24 : Ref sig .tc := ⟨.hbm, 88, rfl⟩
abbrev main_v54 : Ref sig .tc := ⟨.hbm, 89, rfl⟩
abbrev main_v55 : Ref sig .tc := ⟨.hbm, 90, rfl⟩
abbrev main_cst_25 : Ref sig .tc := ⟨.hbm, 91, rfl⟩
abbrev main_v56 : Ref sig .tc := ⟨.hbm, 92, rfl⟩
abbrev main_cst_26 : Ref sig .tc := ⟨.hbm, 93, rfl⟩
abbrev main_v57 : Ref sig .tc := ⟨.hbm, 94, rfl⟩
abbrev main_v58 : Ref sig .tc := ⟨.hbm, 95, rfl⟩
abbrev main_cst_27 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_28 : Ref sig .tc := ⟨.hbm, 100, rfl⟩
abbrev main_call4_v0 : Ref sig .tc := ⟨.hbm, 101, rfl⟩
abbrev main_call4_v1 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_29 : Ref sig .tc := ⟨.hbm, 108, rfl⟩
abbrev main_call5_v0 : Ref sig .tc := ⟨.hbm, 109, rfl⟩
abbrev main_call5_v1 : Ref sig .tc := ⟨.hbm, 110, rfl⟩
abbrev main_v67 : Ref sig .tc := ⟨.hbm, 111, rfl⟩
abbrev main_cst_30 : Ref sig .tc := ⟨.hbm, 112, rfl⟩
abbrev main_call6_v0 : Ref sig .tc := ⟨.hbm, 113, rfl⟩
abbrev main_call6_v1 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_31 : Ref sig .tc := ⟨.hbm, 120, rfl⟩
abbrev main_v73 : Ref sig .tc := ⟨.hbm, 121, rfl⟩
abbrev main_v74 : Ref sig .tc := ⟨.hbm, 122, rfl⟩
abbrev main_cst_32 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_cst_33 : Ref sig .tc := ⟨.hbm, 127, rfl⟩
abbrev main_call7_v0 : Ref sig .tc := ⟨.hbm, 128, rfl⟩
abbrev main_call7_v1 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_34 : Ref sig .tc := ⟨.hbm, 135, rfl⟩
abbrev main_call8_v0 : Ref sig .tc := ⟨.hbm, 136, rfl⟩
abbrev main_call8_v1 : Ref sig .tc := ⟨.hbm, 137, rfl⟩
abbrev main_v83 : Ref sig .tc := ⟨.hbm, 138, rfl⟩
abbrev main_cst_35 : Ref sig .tc := ⟨.hbm, 139, rfl⟩
abbrev main_call9_v0 : Ref sig .tc := ⟨.hbm, 140, rfl⟩
abbrev main_call9_v1 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_36 : Ref sig .tc := ⟨.hbm, 147, rfl⟩
abbrev main_v89 : Ref sig .tc := ⟨.hbm, 148, rfl⟩
abbrev main_v90 : Ref sig .tc := ⟨.hbm, 149, rfl⟩
abbrev main_cst_37 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_38 : Ref sig .tc := ⟨.hbm, 154, rfl⟩
abbrev main_call10_v0 : Ref sig .tc := ⟨.hbm, 155, rfl⟩
abbrev main_call10_v1 : Ref sig .tc := ⟨.hbm, 156, rfl⟩
abbrev main_v94 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_call11_v3 : Ref sig .tc := ⟨.hbm, 161, rfl⟩
abbrev main_call11_cst : Ref sig .tc := ⟨.hbm, 162, rfl⟩
abbrev main_call11_v4 : Ref sig .tc := ⟨.hbm, 163, rfl⟩
abbrev main_call11_call0_v0 : Ref sig .tc := ⟨.hbm, 164, rfl⟩
abbrev main_call11_call0_cst : Ref sig .tc := ⟨.hbm, 165, rfl⟩
abbrev main_call11_call0_call0_v0 : Ref sig .tc := ⟨.hbm, 166, rfl⟩
abbrev main_call11_call0_v1 : Ref sig .tc := ⟨.hbm, 167, rfl⟩
abbrev main_call11_call0_cst_0 : Ref sig .tc := ⟨.hbm, 168, rfl⟩
abbrev main_call11_v5 : Ref sig .tc := ⟨.hbm, 169, rfl⟩
abbrev main_v95 : Ref sig .tc := ⟨.hbm, 170, rfl⟩
abbrev main_call12_v0 : Ref sig .tc := ⟨.hbm, 171, rfl⟩
abbrev main_call12_v1 : Ref sig .tc := ⟨.hbm, 172, rfl⟩
abbrev main_call12_v2 : Ref sig .tc := ⟨.hbm, 173, rfl⟩
abbrev main_call12_v3 : Ref sig .tc := ⟨.hbm, 174, rfl⟩
abbrev main_call12_cst : Ref sig .tc := ⟨.hbm, 175, rfl⟩
abbrev main_call12_v4 : Ref sig .tc := ⟨.hbm, 176, rfl⟩
abbrev main_call12_call0_v0 : Ref sig .tc := ⟨.hbm, 177, rfl⟩
abbrev main_call12_call0_cst : Ref sig .tc := ⟨.hbm, 178, rfl⟩
abbrev main_call12_call0_call0_v0 : Ref sig .tc := ⟨.hbm, 179, rfl⟩
abbrev main_call12_call0_v1 : Ref sig .tc := ⟨.hbm, 180, rfl⟩
abbrev main_call12_call0_cst_0 : Ref sig .tc := ⟨.hbm, 181, rfl⟩
abbrev main_call12_v5 : Ref sig .tc := ⟨.hbm, 182, rfl⟩
abbrev main_v96 : Ref sig .tc := ⟨.hbm, 183, rfl⟩
abbrev main_call13_v0 : Ref sig .tc := ⟨.hbm, 184, rfl⟩
abbrev main_call13_v1 : Ref sig .tc := ⟨.hbm, 185, rfl⟩
abbrev main_call13_v2 : Ref sig .tc := ⟨.hbm, 186, rfl⟩
abbrev main_call13_v3 : Ref sig .tc := ⟨.hbm, 187, rfl⟩
abbrev main_call13_cst : Ref sig .tc := ⟨.hbm, 188, rfl⟩
abbrev main_call13_v4 : Ref sig .tc := ⟨.hbm, 189, rfl⟩
abbrev main_call13_call0_v0 : Ref sig .tc := ⟨.hbm, 190, rfl⟩
abbrev main_call13_call0_cst : Ref sig .tc := ⟨.hbm, 191, rfl⟩
abbrev main_call13_call0_call0_v0 : Ref sig .tc := ⟨.hbm, 192, rfl⟩
abbrev main_call13_call0_v1 : Ref sig .tc := ⟨.hbm, 193, rfl⟩
abbrev main_call13_call0_cst_0 : Ref sig .tc := ⟨.hbm, 194, rfl⟩
abbrev main_call13_v5 : Ref sig .tc := ⟨.hbm, 195, rfl⟩
abbrev main_v97 : Ref sig .tc := ⟨.hbm, 196, rfl⟩
abbrev main_call14_v0 : Ref sig .tc := ⟨.hbm, 197, rfl⟩
abbrev main_call14_v1 : Ref sig .tc := ⟨.hbm, 198, rfl⟩
abbrev main_call14_v2 : Ref sig .tc := ⟨.hbm, 199, rfl⟩
abbrev main_call14_v3 : Ref sig .tc := ⟨.hbm, 200, rfl⟩
abbrev main_call14_cst : Ref sig .tc := ⟨.hbm, 201, rfl⟩
abbrev main_call14_v4 : Ref sig .tc := ⟨.hbm, 202, rfl⟩
abbrev main_call14_call0_v0 : Ref sig .tc := ⟨.hbm, 203, rfl⟩
abbrev main_call14_call0_cst : Ref sig .tc := ⟨.hbm, 204, rfl⟩
abbrev main_call14_call0_call0_v0 : Ref sig .tc := ⟨.hbm, 205, rfl⟩
abbrev main_call14_call0_v1 : Ref sig .tc := ⟨.hbm, 206, rfl⟩
abbrev main_call14_call0_cst_0 : Ref sig .tc := ⟨.hbm, 207, rfl⟩
abbrev main_call14_v5 : Ref sig .tc := ⟨.hbm, 208, rfl⟩
abbrev main_v98 : Ref sig .tc := ⟨.hbm, 209, rfl⟩

abbrev nD : Nat := 1
abbrev τ : Topo := Topo.v7x

variable {F : FTy → Type} [FloatOps F]

class Facts₀ : Prop where
  bcast_S_S64x65536x4 : S_.BroadcastsInDim S64x65536x4 (![] : Fin 0 → Fin S64x65536x4.rank)
  reducesTo_S64x65536x4_S64x4_d1 : S64x65536x4.ReducesTo [1] S64x4
  h_S_ : 0 < S_.numel
  bcast_S_S64x4 : S_.BroadcastsInDim S64x4 (![] : Fin 0 → Fin S64x4.rank)
  natLt_1_32 : 1 < 32
  reducesTo_S64x4_S_d0_1 : S64x4.ReducesTo [0, 1] S_

variable [Facts₀]

class Facts : Prop extends Facts₀ where

variable [Facts]
-- ==== Proof.KBase.lean ====
/-
  The frame of `Kernel`'s one pipelined region followed by its host lines: what the proofs of the three control
  cases of the body share.

  The region's grid is 2 × 16: the first coordinate picks a block of 32 rows, the second a block of 4096 times.
  The body zeroes its accumulator at the first time block (second coordinate 0), adds the block's eight partial
  totals at every point, and copies the accumulator to the output block at the last time block (second coordinate
  15); elsewhere the output window is idle. After the region come host lines that read the output array and write
  only buffers of their own: they touch no scoped buffer, allocate nothing, and write no array of the pipeline.
-/
import proofs.«101840_j35605278884350_1_alg».proof.Proof.Gen.Kernel.Launch
import proofs.«101840_j35605278884350_1_alg».proof.Proof.Gen.Kernel.Skeleton
import proofs.«101840_j35605278884350_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Split a right-nested conjunction ending in `True` into its conjuncts. -/
local macro "refine_conj" : tactic => `(tactic| repeat' (first | exact trivial | refine And.intro ?_ ?_))

variable (m : (ℓ : Loc nD τ sig) → Buf (Elt F) ℓ) (ρ : Dev nD → PrngReg)

/-! ## @main around the region -/

/-- Core `c`'s buffers when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

/-! Each stretch allocates nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor

/-! Each stretch writes only result buffers of its own: no array of the pipeline. -/
theorem hostOps1_keeps : (hostOps1 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_17_keeps : (hostOps1_17 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_18_keeps : (hostOps1_18 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_19_keeps : (hostOps1_19 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_20_keeps : (hostOps1_20 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_21_keeps : (hostOps1_21 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_22_keeps : (hostOps1_22 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_23_keeps : (hostOps1_23 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop

/-- And they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run's post read at the two argument
    arrays (staged inputs: their final contents are their entry contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two branch conditions -/

/-- The first `scf.if`: the time-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if`: the time-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last time block the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last time block it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S32x4x8 .f32 := (Memref.whole cc0_stg2_0 : Memref sig .tc .vmem S32x4x8 .f32).view
abbrev ms0_0 (t : Fin cfg0.N) : Memref sig .tc .vmem S32x4096x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x4096x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4x8 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S32x4x8 .f32 := Memref.whole cc0_scratch0
abbrev VS0_0 : View sig .tc .vmem S32x4x8 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.HF

end
-- ==== Proof.KRunA.lean ====
/-
  One control case of `Kernel`'s kernel body, run whole on any whole staging memrefs.
-/
import proofs.«101840_j35605278884350_1_alg».proof.Proof.KBase

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first time block (the first branch taken, the second not): the accumulator, found at any
    contents, is zeroed and then takes the block's partial totals; the output's buffer is handed back untouched.
    The pieces the accumulator ends with are the run's witness. -/
noncomputable def kernelRun0_A (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) :
    Σ' (L2 : List (View.Piece (Elt F) S32x4x8 .f32)), { LS0 : List (View.Piece (Elt F) S32x4x8 .f32) //
      ∀ (xi2 : Vec F S32x4x8 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.HF

end
-- ==== Proof.KRunB.lean ====
/-
  One control case of `Kernel`'s kernel body, run whole on any whole staging memrefs.
-/
import proofs.«101840_j35605278884350_1_alg».proof.Proof.KBase

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle time block (neither branch taken): the accumulator, at what the point before left,
    takes the block's partial totals; the output's buffer is handed back untouched. -/
noncomputable def kernelRun0_B (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) :
    Σ' (L2 : List (View.Piece (Elt F) S32x4x8 .f32)), { LS0 : List (View.Piece (Elt F) S32x4x8 .f32) //
      ∀ (xi2 : Vec F S32x4x8 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.HF

end
-- ==== Proof.KRunC.lean ====
/-
  One control case of `Kernel`'s kernel body, run whole on any whole staging memrefs.
-/
import proofs.«101840_j35605278884350_1_alg».proof.Proof.KBase

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last time block (the first branch not taken, the second taken): the accumulator takes the
    block's partial totals and is then copied whole into the output's buffer, found at any contents. -/
noncomputable def kernelRun0_C (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) :
    Σ' (L2 : List (View.Piece (Elt F) S32x4x8 .f32)), { LS0 : List (View.Piece (Elt F) S32x4x8 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.HF

end
-- ==== Proof.KFrame.lean ====
/-
  The frame of `Kernel`: what the accumulator and the output block hold after each grid point, the proof data of
  the pipeline, the body's obligation at every point, the run of @main and the frame claim.

  After point t the accumulator holds the sum of the partial totals of the time blocks 0 … (t mod 16) of row
  block t / 16, computed by the case the point is in: zeroed first at a first time block, added to what the point
  before left otherwise; at a last time block the output block receives the accumulator.
-/
import proofs.«101840_j35605278884350_1_alg».proof.Proof.KRunA
import proofs.«101840_j35605278884350_1_alg».proof.Proof.KRunB
import proofs.«101840_j35605278884350_1_alg».proof.Proof.KRunC

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output (the window is idle there and not written back): a placeholder nothing consults. -/
def out0_A_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) : Vec F S32x4x8 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) (y : S32x4x8.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S32x4x8.size (by sl_kernel_rfl) y

/-- What case A leaves in the accumulator: its pieces read back. -/
def sout0_A_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) : Vec F S32x4x8 .f32 :=
  VS0_0.read (Elt F) (VS0_0.writes (Elt F) VS0_0.junk (kernelRun0_A c i arg2 harg2 arg3 harg3 arg4 harg4 arg5 harg5 hc0 hc1 x0 x1).2.1)

/-- Case B stores nothing into the output (the window is idle there and not written back): a placeholder nothing consults. -/
def out0_B_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) : Vec F S32x4x8 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) (y : S32x4x8.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S32x4x8.size (by sl_kernel_rfl) y

/-- What case B leaves in the accumulator: its pieces read back. -/
def sout0_B_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) : Vec F S32x4x8 .f32 :=
  VS0_0.read (Elt F) (VS0_0.writes (Elt F) VS0_0.junk (kernelRun0_B c i arg2 harg2 arg3 harg3 arg4 harg4 arg5 harg5 hc0 hc1 x0 x1 xs0).2.1)

/-- Case C's one store into the output's buffer covers it. -/
theorem cover0_C_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) (y : S32x4x8.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S32x4x8.size (by sl_kernel_rfl) y

/-- What case C leaves in the output's staging buffer: its pieces read back. -/
def out0_C_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) : Vec F S32x4x8 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) (y : S32x4x8.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S32x4x8.size (by sl_kernel_rfl) y

/-- What case C leaves in the accumulator: its pieces read back. -/
def sout0_C_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) : Vec F S32x4x8 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- After the body at position `n`: (the output's staging buffer, the accumulator), by the case the position is in;
    cases B and C start from what position `n - 1` left in the accumulator. -/
def outsAt0 (c : Dev nD) : (n : ℕ) → n < cfg0.N → Vec F S32x4x8 .f32 × Vec F S32x4x8 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms of the two conditions say which
    case the point is in; the invariant hands the body the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates; every final state has each array of the pipeline at what the
    proof data gives and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.HF

end
-- ==== Proof.KIBase.lean ====
/-
  The frame of `KernelIdeal`'s one pipelined region followed by its host lines: what the proofs of the three control
  cases of the body share.

  The region's grid is 2 × 16: the first coordinate picks a block of 32 rows, the second a block of 4096 times.
  The body zeroes its accumulator at the first time block (second coordinate 0), adds the block's eight partial
  totals at every point, and copies the accumulator to the output block at the last time block (second coordinate
  15); elsewhere the output window is idle. After the region come host lines that read the output array and write
  only buffers of their own: they touch no scoped buffer, allocate nothing, and write no array of the pipeline.
-/
import proofs.«101840_j35605278884350_1_alg».proof.Proof.Gen.KernelIdeal.Launch
import proofs.«101840_j35605278884350_1_alg».proof.Proof.Gen.KernelIdeal.Skeleton
import proofs.«101840_j35605278884350_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Split a right-nested conjunction ending in `True` into its conjuncts. -/
local macro "refine_conj" : tactic => `(tactic| repeat' (first | exact trivial | refine And.intro ?_ ?_))

variable (m : (ℓ : Loc nD τ sig) → Buf (Elt F) ℓ) (ρ : Dev nD → PrngReg)

/-! ## @main around the region -/

/-- Core `c`'s buffers when the region is entered: as launched (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23]

/-! Each stretch allocates nothing. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor

/-! Each stretch writes only result buffers of its own: no array of the pipeline. -/
theorem hostOps1_keeps : (hostOps1 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_3_keeps : (hostOps1_3 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_4_keeps : (hostOps1_4 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_5_keeps : (hostOps1_5 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_6_keeps : (hostOps1_6 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_7_keeps : (hostOps1_7 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_8_keeps : (hostOps1_8 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_9_keeps : (hostOps1_9 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_10_keeps : (hostOps1_10 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_11_keeps : (hostOps1_11 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_12_keeps : (hostOps1_12 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_13_keeps : (hostOps1_13 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_14_keeps : (hostOps1_14 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_15_keeps : (hostOps1_15 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_16_keeps : (hostOps1_16 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_17_keeps : (hostOps1_17 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_18_keeps : (hostOps1_18 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_19_keeps : (hostOps1_19 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_20_keeps : (hostOps1_20 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_21_keeps : (hostOps1_21 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_22_keeps : (hostOps1_22 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))
theorem hostOps1_23_keeps : (hostOps1_23 : List (HloOp τ sig (Elt F))).Forall fun op => ∀ w, Proc.devRef .tc (Pipeline.arrRef spec0 w) ∉ op.writes := by
  simp only [List.Forall]
  refine_conj
  all_goals (intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)
  · exact Pipeline.sub_ucRefs op ((List.forall_iff_forall_mem.mp hostOps1_18_sub) op hop)
  · exact Pipeline.sub_ucRefs op ((List.forall_iff_forall_mem.mp hostOps1_19_sub) op hop)
  · exact Pipeline.sub_ucRefs op ((List.forall_iff_forall_mem.mp hostOps1_20_sub) op hop)
  · exact Pipeline.sub_ucRefs op ((List.forall_iff_forall_mem.mp hostOps1_21_sub) op hop)
  · exact Pipeline.sub_ucRefs op ((List.forall_iff_forall_mem.mp hostOps1_22_sub) op hop)
  · exact Pipeline.sub_ucRefs op ((List.forall_iff_forall_mem.mp hostOps1_23_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop
  · exact (List.forall_iff_forall_mem.mp hostOps1_18_fresh) op hop
  · exact (List.forall_iff_forall_mem.mp hostOps1_19_fresh) op hop
  · exact (List.forall_iff_forall_mem.mp hostOps1_20_fresh) op hop
  · exact (List.forall_iff_forall_mem.mp hostOps1_21_fresh) op hop
  · exact (List.forall_iff_forall_mem.mp hostOps1_22_fresh) op hop
  · exact (List.forall_iff_forall_mem.mp hostOps1_23_fresh) op hop

/-- And they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop
  · exact (List.forall_iff_forall_mem.mp hostOps1_15_keeps) op hop
  · exact (List.forall_iff_forall_mem.mp hostOps1_16_keeps) op hop
  · exact (List.forall_iff_forall_mem.mp hostOps1_17_keeps) op hop
  · exact (List.forall_iff_forall_mem.mp hostOps1_18_keeps) op hop
  · exact (List.forall_iff_forall_mem.mp hostOps1_19_keeps) op hop
  · exact (List.forall_iff_forall_mem.mp hostOps1_20_keeps) op hop
  · exact (List.forall_iff_forall_mem.mp hostOps1_21_keeps) op hop
  · exact (List.forall_iff_forall_mem.mp hostOps1_22_keeps) op hop
  · exact (List.forall_iff_forall_mem.mp hostOps1_23_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a frame run's post read at the two argument
    arrays (staged inputs: their final contents are their entry contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's two branch conditions -/

/-- The first `scf.if`: the time-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second `scf.if`: the time-block coordinate is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last time block the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last time block it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S32x4x8 .f32 := (Memref.whole cc0_stg2_0 : Memref sig .tc .vmem S32x4x8 .f32).view
abbrev ms0_0 (t : Fin cfg0.N) : Memref sig .tc .vmem S32x4096x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x4096x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x4x8 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S32x4x8 .f32 := Memref.whole cc0_scratch0
abbrev VS0_0 : View sig .tc .vmem S32x4x8 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.HF

end
-- ==== Proof.KIRunA.lean ====
/-
  One control case of `KernelIdeal`'s kernel body, run whole on any whole staging memrefs.
-/
import proofs.«101840_j35605278884350_1_alg».proof.Proof.KIBase

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a first time block (the first branch taken, the second not): the accumulator, found at any
    contents, is zeroed and then takes the block's partial totals; the output's buffer is handed back untouched.
    The pieces the accumulator ends with are the run's witness. -/
noncomputable def kernelRun0_A (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) :
    Σ' (L2 : List (View.Piece (Elt F) S32x4x8 .f32)), { LS0 : List (View.Piece (Elt F) S32x4x8 .f32) //
      ∀ (xi2 : Vec F S32x4x8 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.HF

end
-- ==== Proof.KIRunB.lean ====
/-
  One control case of `KernelIdeal`'s kernel body, run whole on any whole staging memrefs.
-/
import proofs.«101840_j35605278884350_1_alg».proof.Proof.KIBase

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a middle time block (neither branch taken): the accumulator, at what the point before left,
    takes the block's partial totals; the output's buffer is handed back untouched. -/
noncomputable def kernelRun0_B (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) :
    Σ' (L2 : List (View.Piece (Elt F) S32x4x8 .f32)), { LS0 : List (View.Piece (Elt F) S32x4x8 .f32) //
      ∀ (xi2 : Vec F S32x4x8 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨[], ?_, fun xi2 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.HF

end
-- ==== Proof.KIRunC.lean ====
/-
  One control case of `KernelIdeal`'s kernel body, run whole on any whole staging memrefs.
-/
import proofs.«101840_j35605278884350_1_alg».proof.Proof.KIBase

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the last time block (the first branch not taken, the second taken): the accumulator takes the
    block's partial totals and is then copied whole into the output's buffer, found at any contents. -/
noncomputable def kernelRun0_C (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) :
    Σ' (L2 : List (View.Piece (Elt F) S32x4x8 .f32)), { LS0 : List (View.Piece (Elt F) S32x4x8 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.HF

end
-- ==== Proof.KIFrame.lean ====
/-
  The frame of `KernelIdeal`: what the accumulator and the output block hold after each grid point, the proof data of
  the pipeline, the body's obligation at every point, the run of @main and the frame claim.

  After point t the accumulator holds the sum of the partial totals of the time blocks 0 … (t mod 16) of row
  block t / 16, computed by the case the point is in: zeroed first at a first time block, added to what the point
  before left otherwise; at a last time block the output block receives the accumulator.
-/
import proofs.«101840_j35605278884350_1_alg».proof.Proof.KIRunA
import proofs.«101840_j35605278884350_1_alg».proof.Proof.KIRunB
import proofs.«101840_j35605278884350_1_alg».proof.Proof.KIRunC

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Case A stores nothing into the output (the window is idle there and not written back): a placeholder nothing consults. -/
def out0_A_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) : Vec F S32x4x8 .f32 :=
  VO0_2.read (Elt F) (VO0_2.writes (Elt F) VO0_2.junk (kernelRun0_A c i arg2 harg2 arg3 harg3 arg4 harg4 arg5 harg5 hc0 hc1 x0 x1).1)

/-- Case A's stores into the accumulator cover it. -/
theorem scover0_A_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) (y : S32x4x8.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S32x4x8.size (by sl_kernel_rfl) y

/-- What case A leaves in the accumulator: its pieces read back. -/
def sout0_A_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : cond0_0 i) (hc1 : ¬cond0_1 i)
    (x0 x1 : Vec F S32x4096x4 .f32) : Vec F S32x4x8 .f32 :=
  VS0_0.read (Elt F) (VS0_0.writes (Elt F) VS0_0.junk (kernelRun0_A c i arg2 harg2 arg3 harg3 arg4 harg4 arg5 harg5 hc0 hc1 x0 x1).2.1)

/-- Case B stores nothing into the output (the window is idle there and not written back): a placeholder nothing consults. -/
def out0_B_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) : Vec F S32x4x8 .f32 :=
  VO0_2.read (Elt F) (VO0_2.writes (Elt F) VO0_2.junk (kernelRun0_B c i arg2 harg2 arg3 harg3 arg4 harg4 arg5 harg5 hc0 hc1 x0 x1 xs0).1)

/-- Case B's stores into the accumulator cover it. -/
theorem scover0_B_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) (y : S32x4x8.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S32x4x8.size (by sl_kernel_rfl) y

/-- What case B leaves in the accumulator: its pieces read back. -/
def sout0_B_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : ¬cond0_1 i)
    (x0 x1 : Vec F S32x4096x4 .f32) (xs0 : Vec F S32x4x8 .f32) : Vec F S32x4x8 .f32 :=
  VS0_0.read (Elt F) (VS0_0.writes (Elt F) VS0_0.junk (kernelRun0_B c i arg2 harg2 arg3 harg3 arg4 harg4 arg5 harg5 hc0 hc1 x0 x1 xs0).2.1)

/-- Case C's one store into the output's buffer covers it. -/
theorem cover0_C_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) (y : S32x4x8.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S32x4x8.size (by sl_kernel_rfl) y

/-- What case C leaves in the output's staging buffer: its pieces read back. -/
def out0_C_2 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) : Vec F S32x4x8 .f32 :=
  VO0_2.read (Elt F) (VO0_2.writes (Elt F) VO0_2.junk (kernelRun0_C c i arg2 harg2 arg3 harg3 arg4 harg4 arg5 harg5 hc0 hc1 x0 x1 xs0).1)

/-- Case C's stores into the accumulator cover it. -/
theorem scover0_C_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) (y : S32x4x8.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S32x4x8.size (by sl_kernel_rfl) y

/-- What case C leaves in the accumulator: its pieces read back. -/
def sout0_C_0 (c : Dev nD) (i : grid0.Coords) (arg2 : Memref sig .tc .vmem S32x4096x4 .f32) (harg2 : arg2.IsWhole) (arg3 : Memref sig .tc .vmem S32x4096x4 .f32) (harg3 : arg3.IsWhole) (arg4 : Memref sig .tc .vmem S32x4x8 .f32) (harg4 : arg4.IsWhole) (arg5 : Memref sig .tc .vmem S32x4x8 .f32) (harg5 : arg5.IsWhole) (hc0 : ¬cond0_0 i) (hc1 : cond0_1 i)
    (x0 x1 : Vec F S32x4096x4 .f32) (xs0 : Vec F S32x4x8 .f32) : Vec F S32x4x8 .f32 :=
  VS0_0.read (Elt F) (VS0_0.writes (Elt F) VS0_0.junk (kernelRun0_C c i arg2 harg2 arg3 harg3 arg4 harg4 arg5 harg5 hc0 hc1 x0 x1 xs0).2.1)

/-! ## What the output block and the accumulator hold after each point -/

/-- After the body at position `n`: (the output's staging buffer, the accumulator), by the case the position is in;
    cases B and C start from what position `n - 1` left in the accumulator. -/
def outsAt0 (c : Dev nD) : (n : ℕ) → n < cfg0.N → Vec F S32x4x8 .f32 × Vec F S32x4x8 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms of the two conditions say which
    case the point is in; the invariant hands the body the accumulator (at anything before the first point, at what
    the point before left afterwards) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates; every final state has each array of the pipeline at what the
    proof data gives and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: @main runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.HF

end
-- ==== Proof.KIValue.lean ====
/-
  The values the region of `KernelIdeal` computes, read off its frame run: after each grid point the accumulator
  holds the running sum of the partial totals of the row block's time blocks so far, so after a row block's last
  time block the output block holds the eight totals of its 32 rows; the output array is those blocks side by side.
-/
import proofs.«101840_j35605278884350_1_alg».proof.Proof.KIFrame
import Idealize.ShloMosaic.Lib.Pipeline.Value
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F] [Named F]
variable (m : (ℓ : Loc nD τ sig) → Buf (Elt F) ℓ) (ρ : Dev nD → PrngReg)

theorem hz3 : (![0, 0, 0] : Fin 3 → Nat) = fun _ => 0 := funext fun a => by fin_cases a <;> rfl

/-- One point's update of the accumulator: the block's eight partial totals added to it. -/
def step (x0 x1 : Vec F S32x4096x4 .f32) (acc : Vec F S32x4x8 .f32) : Vec F S32x4x8 .f32 :=
  k0_pay1 (k0_pay4 x0 x1) (k0_pay7 x1) (k0_pay8 x1) (k0_pay9 x1) (k0_pay10 x1) (k0_pay11 x0 x1) acc

/-! ## What each case leaves, as values -/

/-- A middle time block: the accumulator, holding `xs0`, ends at one step from it. -/
theorem sout_B (c : Dev nD) (i : grid0.Coords) (a2 : Memref sig .tc .vmem S32x4096x4 .f32) (h2 : a2.IsWhole) (a3 : Memref sig .tc .vmem S32x4096x4 .f32) (h3 : a3.IsWhole) (a4 : Memref sig .tc .vmem S32x4x8 .f32) (h4 : a4.IsWhole) (a5 : Memref sig .tc .vmem S32x4x8 .f32) (h5 : a5.IsWhole) (hc0 : ¬cond0_0 i) (hc1 : ¬cond0_1 i)
    (x0 x1 : Vec F S32x4096x4 .f32) (xs0 : Vec F S32x4x8 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz3]
  simp only [View.readAt_eq_ld, h2.read_unread, h3.read_unread, h5.read_unread, View.ld_unit_zero (S := S32x4096x4) hz3, View.ld_unit_zero (S := S32x4x8) hz3]
  rfl

/-- A last time block: the same for the accumulator, -/
theorem sout_C (c : Dev nD) (i : grid0.Coords) (a2 : Memref sig .tc .vmem S32x4096x4 .f32) (h2 : a2.IsWhole) (a3 : Memref sig .tc .vmem S32x4096x4 .f32) (h3 : a3.IsWhole) (a4 : Memref sig .tc .vmem S32x4x8 .f32) (h4 : a4.IsWhole) (a5 : Memref sig .tc .vmem S32x4x8 .f32) (h5 : a5.IsWhole) (hc0 : ¬cond0_0 i) (hc1 : cond0_1 i)
    (x0 x1 : Vec F S32x4096x4 .f32) (xs0 : Vec F S32x4x8 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S32x4096x4) hz3, View.ld_unit_zero (S := S32x4x8) hz3]
  rfl

/-- and the output block receives that same value (the accumulator read back after its store). -/
theorem out_C (c : Dev nD) (i : grid0.Coords) (a2 : Memref sig .tc .vmem S32x4096x4 .f32) (h2 : a2.IsWhole) (a3 : Memref sig .tc .vmem S32x4096x4 .f32) (h3 : a3.IsWhole) (a4 : Memref sig .tc .vmem S32x4x8 .f32) (h4 : a4.IsWhole) (a5 : Memref sig .tc .vmem S32x4x8 .f32) (h5 : a5.IsWhole) (hc0 : ¬cond0_0 i) (hc1 : cond0_1 i)
    (x0 x1 : Vec F S32x4096x4 .f32) (xs0 : Vec F S32x4x8 .f32) :
    out0_C_2 c i a2 h2 a3 h3 a4 h4 a5 h5 hc0 hc1 x0 x1 xs0 = step x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S32x4x8) _ hz3]
  simp only [View.readAt_eq_ld, h2.read_unread, h3.read_unread, h5.read_unread, View.ld_unit_zero (S := S32x4096x4) hz3, View.ld_unit_zero (S := S32x4x8) hz3]
  rfl

/-- A first time block: the accumulator is zeroed, read back, and ends at one step from the zero block. -/
theorem sout_A (c : Dev nD) (i : grid0.Coords) (a2 : Memref sig .tc .vmem S32x4096x4 .f32) (h2 : a2.IsWhole) (a3 : Memref sig .tc .vmem S32x4096x4 .f32) (h3 : a3.IsWhole) (a4 : Memref sig .tc .vmem S32x4x8 .f32) (h4 : a4.IsWhole) (a5 : Memref sig .tc .vmem S32x4x8 .f32) (h5 : a5.IsWhole) (hc0 : cond0_0 i) (hc1 : ¬cond0_1 i)
    (x0 x1 : Vec F S32x4096x4 .f32) :
    sout0_A_0 c i a2 h2 a3 h3 a4 h4 a5 h5 hc0 hc1 x0 x1 = step x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S32x4x8) hz3, View.readCov_unit_zero (S := S32x4x8) _ hz3]
  simp only [View.readAt_eq_ld, h2.read_unread, h3.read_unread, h5.read_unread, View.ld_unit_zero (S := S32x4096x4) hz3, View.ld_unit_zero (S := S32x4x8) hz3]
  rfl

/-! ## The running sum -/

/-- The accumulator after position `n`: one step from the zero block at a first time block, one step from the
    position before otherwise. -/
def accAt (c : Dev nD) : (n : ℕ) → n < cfg0.N → Vec F S32x4x8 .f32
  | 0, h => step (iblk m c 0 ⟨0, h⟩) (iblk m c 1 ⟨0, h⟩) (k0_pay2 (F := F))
  | n + 1, h =>
    if (n + 1) % 16 = 0 then step (iblk m c 0 ⟨n + 1, h⟩) (iblk m c 1 ⟨n + 1, h⟩) (k0_pay2 (F := F))
    else step (iblk m c 0 ⟨n + 1, h⟩) (iblk m c 1 ⟨n + 1, h⟩) (accAt c n (Nat.lt_of_succ_lt h))

/-- What the frame's recursion leaves in the accumulator is the running sum, and at a last time block the output
    block holds it too. -/
theorem outsAt_eq (c : Dev nD) : ∀ (n : ℕ) (h : n < cfg0.N),
    (outsAt0 m c n h).2 = accAt m c n h ∧ (n % 16 = 15 → (outsAt0 m c n h).1 = accAt m c n h)
  | 0, h => by
    have h1 : ¬(⟨0, h⟩ : Fin cfg0.N).val % 16 = 15 := by show ¬(0 % 16 = 15); decide
    refine ⟨?_, fun h15 => absurd h15 (by decide)⟩
    rw [outsAt0_A m c ⟨0, h⟩ rfl h1]
    dsimp only
    rw [sout_A]
    simp only [accAt]
  | n + 1, h => by
    have ih := outsAt_eq c n (Nat.lt_of_succ_lt h)
    by_cases h0 : (n + 1) % 16 = 0
    · have h1 : ¬(n + 1) % 16 = 15 := by omega
      refine ⟨?_, fun h15 => absurd h15 h1⟩
      rw [outsAt0_A m c ⟨n + 1, h⟩ h0 h1]
      dsimp only
      rw [sout_A]
      simp only [accAt, if_pos h0]
    · by_cases h1 : (n + 1) % 16 = 15
      · rw [outsAt0_C m c ⟨n + 1, h⟩ h0 h1]
        refine ⟨?_, fun _ => ?_⟩
        · dsimp only
          rw [sout_C]
          simp only [accAt, if_neg h0]
          exact congrArg _ ih.1
        · dsimp only
          rw [out_C]
          simp only [accAt, if_neg h0]
          exact congrArg _ ih.1
      · refine ⟨?_, fun h15 => absurd h15 h1⟩
        rw [outsAt0_B m c ⟨n + 1, h⟩ h0 h1]
        dsimp only
        rw [sout_B]
        simp only [accAt, if_neg h0]
        exact congrArg _ ih.1

end Cert.KernelIdeal.HF

end
-- ==== Proof.Spec.lean ====
/-
  The mathematics both programs compute, stated once over two arrays of extended reals indexed by
  (row n < 64, time t < 65536, channel c < 4): predictions `O` and targets `T`.

  A target outside [0, 7500] is replaced by the horizon 7500 (`clampT`); the error is `|o - clampT t|`.
  Four bins of the clamped target: equal to the horizon, strictly inside (0, 7500), equal to zero, and
  strictly inside (0, early) where `early` is the product of the two binary words 0.1 and 7500 read exactly.
  For each (n, c) and each bin: the number of times t in the bin, and the sum of the errors over those
  times — eight totals `tot k O T n c`, k = 2·bin (count) and 2·bin + 1 (error sum), each a sum over all t.
-/
import Idealize.ShloMosaic.PureOps.Ideal
import Idealize.ShloMosaic.Lib.ValueIdx

noncomputable section

namespace Cert.Spec

open Idealize.ShloMosaic Idealize.ShloMosaic.ValueIdx

/-- The horizon 7500 and zero, as the f32 words both programs carry, read exactly. -/
def hor : EReal := Ideal.ofBits .f32 0x45EA6000#32
def zer : EReal := Ideal.ofBits .f32 0x00000000#32
/-- The early bound: the exact product of the words of 0.1 and of 7500. -/
def early : EReal := Ideal.ofBits .f32 0x3DCCCCCD#32 * Ideal.ofBits .f32 0x45EA6000#32

/-- A target above the horizon or below zero counts as the horizon. -/
def clampT (x : EReal) : EReal :=
  Scalar.select (IntOp.ori (Ideal.cmp .ogt x hor) (Ideal.cmp .olt x zer)) hor x

/-- The four bins, as truth-value bits of the clamped target `y`. -/
def binBit : Fin 4 → EReal → BitVec 1
  | 0, y => Ideal.cmp .oeq y hor
  | 1, y => IntOp.andi (Ideal.cmp .olt y hor) (Ideal.cmp .ogt y zer)
  | 2, y => Ideal.cmp .oeq y zer
  | 3, y => IntOp.andi (Ideal.cmp .olt y early) (Ideal.cmp .ogt y zer)

/-- A bit as the extended real 1 or 0. -/
def bitVal (b : BitVec 1) : EReal := FloatOps.uitofp (F := Ideal) .f32 b

/-- The absolute error against the clamped target. -/
def err (o t : EReal) : EReal := FloatOps.absf (F := Ideal) (φ := .f32) (o - clampT t)

/-- One time step's contribution to total `k`: the bin's indicator (even k) or the error times it (odd k). -/
def term (k : Fin 8) (o t : EReal) : EReal :=
  let b : Fin 4 := ⟨k.val / 2, by omega⟩
  if k.val % 2 = 0 then bitVal (binBit b (clampT t)) else err o t * bitVal (binBit b (clampT t))

/-- Total `k` for row n and channel c: the sum over all 65536 times. -/
def tot (k : Fin 8) (O T : (⟨3, ![64, 65536, 4]⟩ : Shape).Idx → EReal) (n : Fin 64) (c : Fin 4) : EReal :=
  ∑ t : Fin 65536, term k (O (ix3 n t c)) (T (ix3 n t c))

end Cert.Spec

end
-- ==== Proof.LibSignedBit.lean ====
/-
  A test bit as a float, read signed or unsigned, over the extended reals.

  A bit widened with zeros to 32 bits and read as a signed integer is the bit read unsigned, `0` or `1`; so a mask
  spelt "widen the bit, convert the signed integer to a float" is the mask spelt "convert the bit, unsigned, to a float".
  And the f32 constant `1.0` (the word `0x3F800000`) is the real `1`.
-/
import Idealize.ShloMosaic.PureOps.Ideal
import Idealize.ShloMosaic.PureOps.Ideal.Laws

noncomputable section

namespace Cert.LibSignedBit

open Idealize.ShloMosaic

/-- A bit widened to 32 bits and read as a signed integer is the bit read unsigned: `0` or `1`. -/
theorem bit_signed_eq_unsigned : ∀ b : BitVec 1, (b.setWidth 32).toInt = (b.toNat : Int) := by decide

/-- The signed conversion of the widened bit is the unsigned conversion of the bit. -/
theorem sitofp_setWidth_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [bit_signed_eq_unsigned b]
  simp

/-- The f32 constant one is the real `1`. -/
theorem ofBits_one_f32 : Ideal.ofBits .f32 0x3F800000#32 = (1 : EReal) := by
  simp [Ideal.ofBits, Ideal.ieee, -EReal.coe_mul]
  norm_num

end Cert.LibSignedBit

end
-- ==== Proof.LibSumRuns.lean ====
/-
  Sums taken in runs.

  A sum of `a · b` consecutive terms `f 0, f 1, …` is the sum of its `a` runs of `b` terms, run `d` being
  `f (b · d), …, f (b · d + b − 1)` — in any commutative monoid, so also on the extended reals, where it says that a
  contraction accumulated block by block is the whole contraction. Stated over `Finset.range` and, for a contraction
  index that is a `Fin`, with the inner and the whole sum over `Fin b` and `Fin (a · b)`.
-/
import Idealize.ShloMosaic.PureOps.Ideal

namespace Cert.LibSumRuns

/-- A sum over `a · b` consecutive naturals, taken in `a` runs of `b`. -/
theorem sum_range_mul {M : Type*} [AddCommMonoid M] (f : ℕ → M) (a b : ℕ) :
    ∑ d ∈ Finset.range a, ∑ l ∈ Finset.range b, f (b * d + l) = ∑ k ∈ Finset.range (a * b), f k := by
  induction a with
  | zero => simp
  | succ a ih =>
    rw [Finset.sum_range_succ, ih, Nat.succ_mul, Finset.sum_range_add, Nat.mul_comm b a]

/-- The same with each run indexed by `Fin b` and the whole sum by `Fin (a · b)`. -/
theorem sum_fin_runs {M : Type*} [AddCommMonoid M] (f : ℕ → M) (a b : ℕ) :
    ∑ d ∈ Finset.range a, ∑ l : Fin b, f (b * d + l.val) = ∑ k : Fin (a * b), f k.val := by
  rw [Fin.sum_univ_eq_sum_range (fun k => f k) (a * b), ← sum_range_mul f a b]
  refine Finset.sum_congr rfl fun d _ => ?_
  exact Fin.sum_univ_eq_sum_range (fun l => f (b * d + l)) b

end Cert.LibSumRuns
-- ==== Proof.SpecLemmas.lean ====
/-
  Facts about the shared specification's constants and sums.

  * The early bound: the product of the binary words of 0.1 and of 7500, read exactly, is the rational
    25165824375 / 33554432 — the value the kernel's named constant carries.
  * A truth-value bit widened with zeros to 32 bits and converted as a signed integer is the bit's value 0 or 1.
  * A sum over 65536 consecutive times is the sum of its 16 runs of 4096 times.
-/
import proofs.«101840_j35605278884350_1_alg».proof.Proof.Spec
import proofs.«101840_j35605278884350_1_alg».proof.Proof.LibSignedBit
import proofs.«101840_j35605278884350_1_alg».proof.Proof.LibSumRuns
import proofs.«101840_j35605278884350_1_alg».proof.KernelIdeal

noncomputable section

namespace Cert.SpecLemmas

open Idealize.ShloMosaic

/-- The f32 word of 0.1 denotes the dyadic rational 13421773 / 2^27. -/
theorem ofBits_tenth : Ideal.ofBits .f32 0x3DCCCCCD#32 = ((13421773 / 134217728 : ℝ) : EReal) := by
  simp [Ideal.ofBits, Ideal.ieee, -EReal.coe_mul]; norm_num

/-- The f32 word of 7500 denotes the real 7500. -/
theorem ofBits_hor : Ideal.ofBits .f32 0x45EA6000#32 = ((7500 : ℝ) : EReal) := by
  simp [Ideal.ofBits, Ideal.ieee, -EReal.coe_mul]; norm_num

/-- The zero word denotes 0. -/
theorem ofBits_zer : Ideal.ofBits .f32 0x00000000#32 = 0 := by
  simp [Ideal.ofBits, Ideal.ieee]

/-- The kernel's named early bound is the specification's: the exact product of the words of 0.1 and 7500. -/
theorem early_eq :
    Named.named (F := Ideal) Cert.KernelIdeal.κ "early_bound" (φ := .f32) 0x443B8000#32 = Cert.Spec.early := by
  have h : Named.named (F := Ideal) Cert.KernelIdeal.κ "early_bound" (φ := .f32) 0x443B8000#32
      = ((25165824375 / 33554432 : ℝ) : EReal) :=
    IdealRules.named_const.ideal_named_scalar _ _ _ _ rfl
  rw [h, Cert.Spec.early, ofBits_tenth, ofBits_hor, ← EReal.coe_mul]
  norm_num

/-- A bit widened to 32 bits and converted as a signed integer is the bit's value, 0 or 1. -/
theorem signed_bit (b : BitVec 1) :
    FloatOps.sitofp (F := Ideal) .f32 (b.setWidth 32) = Cert.Spec.bitVal b :=
  Cert.LibSignedBit.sitofp_setWidth_bit b

/-- A sum over the 65536 times is the sum over the 16 blocks of 4096 consecutive times. -/
theorem sum_blocks (f : Fin 65536 → EReal) :
    ∑ t : Fin 65536, f t = ∑ b : Fin 16, ∑ q : Fin 4096, f ⟨b.val * 4096 + q.val, by omega⟩ := by
  let g : ℕ → EReal := fun n => if h : n < 65536 then f ⟨n, h⟩ else 0
  have hL : ∑ t : Fin 65536, f t = ∑ k : Fin (16 * 4096), g k.val := by
    refine Finset.sum_congr rfl fun t _ => ?_
    show f t = g t.val
    simp only [g, t.isLt, dite_true]
  rw [hL, ← Cert.LibSumRuns.sum_fin_runs g 16 4096, ← Fin.sum_univ_eq_sum_range (fun d => ∑ l : Fin 4096, g (4096 * d + l.val)) 16]
  refine Finset.sum_congr rfl fun b _ => Finset.sum_congr rfl fun q _ => ?_
  have hlt : 4096 * b.val + q.val < 65536 := by omega
  simp only [g, hlt, dite_true]
  exact congrArg f (Fin.ext (by show 4096 * b.val + q.val = b.val * 4096 + q.val; omega))

end Cert.SpecLemmas

end
-- ==== Proof.LibTrailingUnit.lean ====
/-
  Rank-3 forms with a trailing unit axis, and a sum over the middle axis, read at an index of literal coordinates.

  A pairwise computation between the rows of two matrices spreads one matrix's entries along a new LAST axis: an
  `a × b` array is given a trailing unit axis (`[a, b] → [a, b, 1]`) and broadcast along it (`[a, b, 1] → [a, b, c]`);
  the rank-3 result is then summed over its MIDDLE axis. Read at an index:

  * `shapeCast_ab_ab1_apply`: the cast of `x : [a, b]` to `[a, b, 1]` at `(p, k, u)` is `x (p, k)`, whatever the
    unit coordinate `u`;
  * `broadcastTo_ab1_abc_apply`: the broadcast of `v : [a, b, 1]` to `[a, b, c]` at `(p, k, q)` is `v (p, k, 0)`;
  * `lift_mid`: over the kept index `(p, q)`, the source index with middle coordinate `k` put back is `(p, k, q)`;
  * `multiReduction_add_mid`: at the extended reals the sum of `x : [a, b, c]` over its middle axis, at `(p, q)`, is
    `∑ k, x (p, k, q)`.
  Each is the library's general lemma with the per-axis arithmetic discharged, generic in the extents.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.TrailingUnit

open Idealize.ShloMosaic Idealize.ShloMosaic.ValueIdx

variable {α : Type}

/-- An `[a, b]` array cast to `[a, b, 1]` reads, at `(p, k, u)`, the operand at `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- An `[a, b, 1]` array broadcast to `[a, b, c]` reads, at `(p, k, q)`, the operand at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Over the kept index `(p, q)`, the source index whose middle coordinate is `k` is `(p, k, q)`. -/
theorem lift_mid {a b c : ℕ} (h : (⟨3, ![a, b, c]⟩ : Shape).Reduces [(1 : Fin 3)] ⟨2, ![a, c]⟩)
    (p : Fin a) (q : Fin c) (k : Fin b) : h.lift (ix2 p q) k = ix3 p k q := by
  funext d
  refine Fin.ext ?_
  match d with
  | ⟨0, _⟩ => rfl
  | ⟨1, _⟩ => rfl
  | ⟨2, _⟩ => rfl

/-- A float sum over the middle axis of an `a × b × c` array, at the extended reals and at `(p, q)`, is
    `∑ k, x (p, k, q)`. The accumulator fact is taken in the form a printed program carries it. -/
theorem multiReduction_add_mid {a b c : ℕ} {φ : FTy} (x : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (p : Fin a) (q : Fin c) :
    multiReduction .add [(1 : Fin 3)] ⟨2, ![a, c]⟩ x acc h hφ hacc (ix2 p q) = ∑ k : Fin b, x (ix3 p k q) := by
  refine (Ideal.multiReduction_add_single x acc h hφ hacc (ix2 p q)).trans ?_
  exact Finset.sum_congr rfl fun k _ => congrArg x (lift_mid h p q k)

end Cert.Proof.TrailingUnit

end
-- ==== Proof.KPayload.lean ====
/-
  The kernel body's arithmetic at the extended reals, read at an index.

  The body takes a block `x0` of predictions and a block `x1` of targets, both indexed (row p < 32, time q < 4096,
  channel r < 4), moves the time axis last, clamps the target, takes the absolute error and the four bin indicators
  (each a truth-value bit widened to 32 bits and converted as a signed integer), sums indicators and
  error-times-indicator over the 4096 times, lays the eight sums side by side along a new last axis and adds them to
  the accumulator block. Read at (p, r, k) the result is the accumulator there plus the sum over the block's times
  of the specification's term k.
-/
import proofs.«101840_j35605278884350_1_alg».proof.Proof.Spec
import proofs.«101840_j35605278884350_1_alg».proof.Proof.SpecLemmas
import proofs.«101840_j35605278884350_1_alg».proof.Proof.LibTrailingUnit
import proofs.«101840_j35605278884350_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPayload

open Idealize.ShloMosaic Idealize.ShloMosaic.ValueIdx Cert.KernelIdeal Cert.KernelIdeal.Gen

/-! ## The pointwise part: clamp, error, bins -/

/-- The clamped target block, time axis last, at (p, r, q): the clamp of the target at (p, q, r). -/
theorem pay3_apply (x1 : Vec Ideal S32x4096x4 .f32) (p : Fin 32) (r : Fin 4) (q : Fin 4096) :
    k0_pay3 (F := Ideal) x1 (ix3 p r q) = Cert.Spec.clampT (x1 (ix3 p q r)) := by
  have h : k0_pay3 (F := Ideal) x1 (ix3 p r q)
      = Cert.Spec.clampT (transpose S32x4x4096 [0, 2, 1] x1 transposes_S32x4096x4_p0_2_1_S32x4x4096 (ix3 p r q)) := rfl
  rw [h, transpose_ix3_021_apply]

/-- The error block at (p, r, q): the absolute error of prediction and target at (p, q, r). -/
theorem pay4_apply (x0 x1 : Vec Ideal S32x4096x4 .f32) (p : Fin 32) (r : Fin 4) (q : Fin 4096) :
    k0_pay4 (F := Ideal) x0 x1 (ix3 p r q) = Cert.Spec.err (x0 (ix3 p q r)) (x1 (ix3 p q r)) := by
  have h : k0_pay4 (F := Ideal) x0 x1 (ix3 p r q)
      = FloatOps.absf (F := Ideal) (φ := .f32)
          (transpose S32x4x4096 [0, 2, 1] x0 transposes_S32x4096x4_p0_2_1_S32x4x4096 (ix3 p r q)
            - k0_pay3 (F := Ideal) x1 (ix3 p r q)) := rfl
  rw [h, transpose_ix3_021_apply, pay3_apply]
  rfl

/-- The "above zero" bit of the clamped target. -/
theorem pay5_apply (x1 : Vec Ideal S32x4096x4 .f32) (p : Fin 32) (r : Fin 4) (q : Fin 4096) :
    k0_pay5 (F := Ideal) x1 (ix3 p r q) = Ideal.cmp .ogt (Cert.Spec.clampT (x1 (ix3 p q r))) Cert.Spec.zer := by
  have h : k0_pay5 (F := Ideal) x1 (ix3 p r q) = Ideal.cmp .ogt (k0_pay3 (F := Ideal) x1 (ix3 p r q)) Cert.Spec.zer := rfl
  rw [h, pay3_apply]

/-- Bin 0's indicator block (target at the horizon). -/
theorem pay6_apply (x1 : Vec Ideal S32x4096x4 .f32) (p : Fin 32) (r : Fin 4) (q : Fin 4096) :
    k0_pay6 (F := Ideal) x1 (ix3 p r q) = Cert.Spec.bitVal (Cert.Spec.binBit 0 (Cert.Spec.clampT (x1 (ix3 p q r)))) := by
  have h : k0_pay6 (F := Ideal) x1 (ix3 p r q)
      = FloatOps.sitofp (F := Ideal) .f32
          ((Ideal.cmp .oeq (k0_pay3 (F := Ideal) x1 (ix3 p r q)) Cert.Spec.hor).setWidth 32) := rfl
  rw [h, Cert.SpecLemmas.signed_bit, pay3_apply]
  rfl

/-- Bin 1's indicator block (target strictly between zero and the horizon). -/
theorem pay7_apply (x1 : Vec Ideal S32x4096x4 .f32) (p : Fin 32) (r : Fin 4) (q : Fin 4096) :
    k0_pay7 (F := Ideal) x1 (ix3 p r q) = Cert.Spec.bitVal (Cert.Spec.binBit 1 (Cert.Spec.clampT (x1 (ix3 p q r)))) := by
  have h : k0_pay7 (F := Ideal) x1 (ix3 p r q)
      = FloatOps.sitofp (F := Ideal) .f32
          ((IntOp.andi (Ideal.cmp .olt (k0_pay3 (F := Ideal) x1 (ix3 p r q)) Cert.Spec.hor)
            (k0_pay5 (F := Ideal) x1 (ix3 p r q))).setWidth 32) := rfl
  rw [h, Cert.SpecLemmas.signed_bit, pay5_apply, pay3_apply]
  rfl

/-- Bin 2's indicator block (target at zero). -/
theorem pay8_apply (x1 : Vec Ideal S32x4096x4 .f32) (p : Fin 32) (r : Fin 4) (q : Fin 4096) :
    k0_pay8 (F := Ideal) x1 (ix3 p r q) = Cert.Spec.bitVal (Cert.Spec.binBit 2 (Cert.Spec.clampT (x1 (ix3 p q r)))) := by
  have h : k0_pay8 (F := Ideal) x1 (ix3 p r q)
      = FloatOps.sitofp (F := Ideal) .f32
          ((Ideal.cmp .oeq (k0_pay3 (F := Ideal) x1 (ix3 p r q)) Cert.Spec.zer).setWidth 32) := rfl
  rw [h, Cert.SpecLemmas.signed_bit, pay3_apply]
  rfl

/-- Bin 3's indicator block (target strictly between zero and the early bound). -/
theorem pay9_apply (x1 : Vec Ideal S32x4096x4 .f32) (p : Fin 32) (r : Fin 4) (q : Fin 4096) :
    k0_pay9 (F := Ideal) x1 (ix3 p r q) = Cert.Spec.bitVal (Cert.Spec.binBit 3 (Cert.Spec.clampT (x1 (ix3 p q r)))) := by
  have h : k0_pay9 (F := Ideal) x1 (ix3 p r q)
      = FloatOps.sitofp (F := Ideal) .f32
          ((IntOp.andi (Ideal.cmp .olt (k0_pay3 (F := Ideal) x1 (ix3 p r q))
              (Named.named (F := Ideal) Cert.KernelIdeal.κ "early_bound" (φ := .f32) 0x443B8000#32))
            (k0_pay5 (F := Ideal) x1 (ix3 p r q))).setWidth 32) := rfl
  rw [h, Cert.SpecLemmas.signed_bit, Cert.SpecLemmas.early_eq, pay5_apply, pay3_apply]
  rfl

/-! ## The layout part: lane sums, the trailing unit axis, the eight columns side by side -/

/-- Over the kept index (p, r), the source index with the time coordinate q put back is (p, r, q). -/
theorem lift_last (h : S32x4x4096.Reduces [(2 : Fin 3)] S32x4) (p : Fin 32) (r : Fin 4) (q : Fin 4096) :
    h.lift (ix2 p r) q = ix3 p r q := by
  funext d
  refine Fin.ext ?_
  match d with
  | ⟨0, _⟩ => rfl
  | ⟨1, _⟩ => rfl
  | ⟨2, _⟩ => rfl

/-- A sum over the time axis of a 32 × 4 × 4096 block, at (p, r), is the sum over q of the block at (p, r, q). -/
theorem lane_sum (v : FVec Ideal S32x4x4096 .f32) (acc : BitVec 32) (h : S32x4x4096.Reduces [(2 : Fin 3)] S32x4)
    (hφ : FKind.Formats .f32) (hacc : acc = FKind.add.neutral .f32 hφ) (p : Fin 32) (r : Fin 4) :
    multiReduction .add [(2 : Fin 3)] S32x4 v acc h hφ hacc (ix2 p r) = ∑ q : Fin 4096, v (ix3 p r q) := by
  refine (Ideal.multiReduction_add_single v acc h hφ hacc (ix2 p r)).trans ?_
  exact Finset.sum_congr rfl fun q _ => congrArg v (lift_last h p r q)

/-- Eight 32 × 4 × 1 pieces laid side by side along the last axis, read at (p, r, k): piece k at (p, r, 0). -/
theorem concat8_apply {α : Type} (v0 v1 v2 v3 v4 v5 v6 v7 : S32x4x1.Idx → α)
    (h : Shape.Concatenates [S32x4x1, S32x4x1, S32x4x1, S32x4x1, S32x4x1, S32x4x1, S32x4x1, S32x4x1] S32x4x8 2)
    (p : Fin 32) (r : Fin 4) (k : Fin 8) (x₁ : S32x4x1.Idx → α)
    (hxk : ([⟨S32x4x1, v0⟩, ⟨S32x4x1, v1⟩, ⟨S32x4x1, v2⟩, ⟨S32x4x1, v3⟩, ⟨S32x4x1, v4⟩, ⟨S32x4x1, v5⟩, ⟨S32x4x1, v6⟩,
        ⟨S32x4x1, v7⟩] : List ((s : Shape) × (s.Idx → α)))[k.val]'k.isLt = ⟨S32x4x1, x₁⟩) :
    concatenate S32x4x8 2 [⟨S32x4x1, v0⟩, ⟨S32x4x1, v1⟩, ⟨S32x4x1, v2⟩, ⟨S32x4x1, v3⟩, ⟨S32x4x1, v4⟩, ⟨S32x4x1, v5⟩,
        ⟨S32x4x1, v6⟩, ⟨S32x4x1, v7⟩] h (ix3 p r k) = x₁ (ix3 p r (0 : Fin 1)) := by
  refine concatenate_apply_piece (t := S32x4x8) (2 : Fin 3)
    [⟨S32x4x1, v0⟩, ⟨S32x4x1, v1⟩, ⟨S32x4x1, v2⟩, ⟨S32x4x1, v3⟩, ⟨S32x4x1, v4⟩, ⟨S32x4x1, v5⟩, ⟨S32x4x1, v6⟩, ⟨S32x4x1, v7⟩]
    h (ix3 p r k) k.val k.isLt S32x4x1 x₁ hxk rfl k.val ?_
    (ix3 p r (0 : Fin 1)) ?_ rfl
  · fin_cases k <;> rfl
  · intro b hb
    match b with
    | ⟨0, _⟩ => rfl
    | ⟨1, _⟩ => rfl
    | ⟨2, _⟩ => exact absurd rfl hb

section Columns

variable (v15 v26 v30 v35 : FVec Ideal S32x4x4096 .f32) (v36 v38 : FVec Ideal S32x4 .f32) (v57 : Vec Ideal S32x4x8 .f32)
  (p : Fin 32) (r : Fin 4)

/-- Column 0 of the updated accumulator: the accumulator plus the first count. -/
theorem pay1_col0 :
    k0_pay1 (F := Ideal) v15 v26 v30 v35 v36 v38 v57 (ix3 p r (0 : Fin 8)) = v57 (ix3 p r (0 : Fin 8)) + v36 (ix2 p r) := by
  unfold k0_pay1
  refine (shapeCast_apply _ _ _ (ix3 p r (0 : Fin 8)) rfl).trans ?_
  refine (addf_apply _ _ _).trans ?_
  refine congrArg (v57 (ix3 p r (0 : Fin 8)) + ·) ?_
  refine (concat8_apply _ _ _ _ _ _ _ _ _ p r 0 _ rfl).trans ?_
  exact Cert.Proof.TrailingUnit.shapeCast_ab_ab1_apply _ _ p r 0

/-- Column 1: the accumulator plus the first error sum. -/
theorem pay1_col1 :
    k0_pay1 (F := Ideal) v15 v26 v30 v35 v36 v38 v57 (ix3 p r (1 : Fin 8)) = v57 (ix3 p r (1 : Fin 8)) + v38 (ix2 p r) := by
  unfold k0_pay1
  refine (shapeCast_apply _ _ _ (ix3 p r (1 : Fin 8)) rfl).trans ?_
  refine (addf_apply _ _ _).trans ?_
  refine congrArg (v57 (ix3 p r (1 : Fin 8)) + ·) ?_
  refine (concat8_apply _ _ _ _ _ _ _ _ _ p r 1 _ rfl).trans ?_
  exact Cert.Proof.TrailingUnit.shapeCast_ab_ab1_apply _ _ p r 0

/-- Column 2: the accumulator plus the sum of the second indicator over the times. -/
theorem pay1_col2 :
    k0_pay1 (F := Ideal) v15 v26 v30 v35 v36 v38 v57 (ix3 p r (2 : Fin 8))
      = v57 (ix3 p r (2 : Fin 8)) + ∑ q : Fin 4096, v26 (ix3 p r q) := by
  unfold k0_pay1
  refine (shapeCast_apply _ _ _ (ix3 p r (2 : Fin 8)) rfl).trans ?_
  refine (addf_apply _ _ _).trans ?_
  refine congrArg (v57 (ix3 p r (2 : Fin 8)) + ·) ?_
  refine (concat8_apply _ _ _ _ _ _ _ _ _ p r 2 _ rfl).trans ?_
  refine (Cert.Proof.TrailingUnit.shapeCast_ab_ab1_apply _ _ p r 0).trans ?_
  exact lane_sum _ _ _ _ _ p r

/-- Column 3: the accumulator plus the sum of the error times the second indicator. -/
theorem pay1_col3 :
    k0_pay1 (F := Ideal) v15 v26 v30 v35 v36 v38 v57 (ix3 p r (3 : Fin 8))
      = v57 (ix3 p r (3 : Fin 8)) + ∑ q : Fin 4096, v15 (ix3 p r q) * v26 (ix3 p r q) := by
  unfold k0_pay1
  refine (shapeCast_apply _ _ _ (ix3 p r (3 : Fin 8)) rfl).trans ?_
  refine (addf_apply _ _ _).trans ?_
  refine congrArg (v57 (ix3 p r (3 : Fin 8)) + ·) ?_
  refine (concat8_apply _ _ _ _ _ _ _ _ _ p r 3 _ rfl).trans ?_
  refine (Cert.Proof.TrailingUnit.shapeCast_ab_ab1_apply _ _ p r 0).trans ?_
  exact lane_sum _ _ _ _ _ p r

/-- Column 4: the accumulator plus the sum of the third indicator. -/
theorem pay1_col4 :
    k0_pay1 (F := Ideal) v15 v26 v30 v35 v36 v38 v57 (ix3 p r (4 : Fin 8))
      = v57 (ix3 p r (4 : Fin 8)) + ∑ q : Fin 4096, v30 (ix3 p r q) := by
  unfold k0_pay1
  refine (shapeCast_apply _ _ _ (ix3 p r (4 : Fin 8)) rfl).trans ?_
  refine (addf_apply _ _ _).trans ?_
  refine congrArg (v57 (ix3 p r (4 : Fin 8)) + ·) ?_
  refine (concat8_apply _ _ _ _ _ _ _ _ _ p r 4 _ rfl).trans ?_
  refine (Cert.Proof.TrailingUnit.shapeCast_ab_ab1_apply _ _ p r 0).trans ?_
  exact lane_sum _ _ _ _ _ p r

/-- Column 5: the accumulator plus the sum of the error times the third indicator. -/
theorem pay1_col5 :
    k0_pay1 (F := Ideal) v15 v26 v30 v35 v36 v38 v57 (ix3 p r (5 : Fin 8))
      = v57 (ix3 p r (5 : Fin 8)) + ∑ q : Fin 4096, v15 (ix3 p r q) * v30 (ix3 p r q) := by
  unfold k0_pay1
  refine (shapeCast_apply _ _ _ (ix3 p r (5 : Fin 8)) rfl).trans ?_
  refine (addf_apply _ _ _).trans ?_
  refine congrArg (v57 (ix3 p r (5 : Fin 8)) + ·) ?_
  refine (concat8_apply _ _ _ _ _ _ _ _ _ p r 5 _ rfl).trans ?_
  refine (Cert.Proof.TrailingUnit.shapeCast_ab_ab1_apply _ _ p r 0).trans ?_
  exact lane_sum _ _ _ _ _ p r

/-- Column 6: the accumulator plus the sum of the fourth indicator. -/
theorem pay1_col6 :
    k0_pay1 (F := Ideal) v15 v26 v30 v35 v36 v38 v57 (ix3 p r (6 : Fin 8))
      = v57 (ix3 p r (6 : Fin 8)) + ∑ q : Fin 4096, v35 (ix3 p r q) := by
  unfold k0_pay1
  refine (shapeCast_apply _ _ _ (ix3 p r (6 : Fin 8)) rfl).trans ?_
  refine (addf_apply _ _ _).trans ?_
  refine congrArg (v57 (ix3 p r (6 : Fin 8)) + ·) ?_
  refine (concat8_apply _ _ _ _ _ _ _ _ _ p r 6 _ rfl).trans ?_
  refine (Cert.Proof.TrailingUnit.shapeCast_ab_ab1_apply _ _ p r 0).trans ?_
  exact lane_sum _ _ _ _ _ p r

/-- Column 7: the accumulator plus the sum of the error times the fourth indicator. -/
theorem pay1_col7 :
    k0_pay1 (F := Ideal) v15 v26 v30 v35 v36 v38 v57 (ix3 p r (7 : Fin 8))
      = v57 (ix3 p r (7 : Fin 8)) + ∑ q : Fin 4096, v15 (ix3 p r q) * v35 (ix3 p r q) := by
  unfold k0_pay1
  refine (shapeCast_apply _ _ _ (ix3 p r (7 : Fin 8)) rfl).trans ?_
  refine (addf_apply _ _ _).trans ?_
  refine congrArg (v57 (ix3 p r (7 : Fin 8)) + ·) ?_
  refine (concat8_apply _ _ _ _ _ _ _ _ _ p r 7 _ rfl).trans ?_
  refine (Cert.Proof.TrailingUnit.shapeCast_ab_ab1_apply _ _ p r 0).trans ?_
  exact lane_sum _ _ _ _ _ p r

end Columns

/-! ## The specification's terms, column by column -/

theorem term0 (o t : EReal) : Cert.Spec.term 0 o t = Cert.Spec.bitVal (Cert.Spec.binBit 0 (Cert.Spec.clampT t)) := rfl
theorem term1 (o t : EReal) :
    Cert.Spec.term 1 o t = Cert.Spec.err o t * Cert.Spec.bitVal (Cert.Spec.binBit 0 (Cert.Spec.clampT t)) := rfl
theorem term2 (o t : EReal) : Cert.Spec.term 2 o t = Cert.Spec.bitVal (Cert.Spec.binBit 1 (Cert.Spec.clampT t)) := rfl
theorem term3 (o t : EReal) :
    Cert.Spec.term 3 o t = Cert.Spec.err o t * Cert.Spec.bitVal (Cert.Spec.binBit 1 (Cert.Spec.clampT t)) := rfl
theorem term4 (o t : EReal) : Cert.Spec.term 4 o t = Cert.Spec.bitVal (Cert.Spec.binBit 2 (Cert.Spec.clampT t)) := rfl
theorem term5 (o t : EReal) :
    Cert.Spec.term 5 o t = Cert.Spec.err o t * Cert.Spec.bitVal (Cert.Spec.binBit 2 (Cert.Spec.clampT t)) := rfl
theorem term6 (o t : EReal) : Cert.Spec.term 6 o t = Cert.Spec.bitVal (Cert.Spec.binBit 3 (Cert.Spec.clampT t)) := rfl
theorem term7 (o t : EReal) :
    Cert.Spec.term 7 o t = Cert.Spec.err o t * Cert.Spec.bitVal (Cert.Spec.binBit 3 (Cert.Spec.clampT t)) := rfl

/-! ## The two payloads the body stores -/

/-- The block the first time step stores into the accumulator is zero everywhere. -/
theorem pay2_apply (p : Fin 32) (r : Fin 4) (k : Fin 8) : k0_pay2 (F := Ideal) (ix3 p r k) = 0 := by
  unfold k0_pay2
  refine (shapeCast_apply _ _ _ (ix3 p r k) rfl).trans ?_
  exact Ideal.ofBits_zero_f32

/-- The first count of the block: the sum over its times of bin 0's indicator. -/
theorem pay10_apply (x0 x1 : Vec Ideal S32x4096x4 .f32) (p : Fin 32) (r : Fin 4) :
    k0_pay10 (F := Ideal) x1 (ix2 p r)
      = ∑ q : Fin 4096, Cert.Spec.term 0 (x0 (ix3 p q r)) (x1 (ix3 p q r)) := by
  unfold k0_pay10
  refine (lane_sum _ _ _ _ _ p r).trans ?_
  exact Finset.sum_congr rfl fun q _ => pay6_apply x1 p r q

/-- The first error sum of the block. -/
theorem pay11_apply (x0 x1 : Vec Ideal S32x4096x4 .f32) (p : Fin 32) (r : Fin 4) :
    k0_pay11 (F := Ideal) x0 x1 (ix2 p r)
      = ∑ q : Fin 4096, Cert.Spec.term 1 (x0 (ix3 p q r)) (x1 (ix3 p q r)) := by
  unfold k0_pay11
  refine (lane_sum _ _ _ _ _ p r).trans ?_
  exact Finset.sum_congr rfl fun q _ => congrArg₂ (· * ·) (pay4_apply x0 x1 p r q) (pay6_apply x1 p r q)

/-- The block the body stores back: at (p, r, k), the accumulator there plus the sum over the block's 4096 times of
    the specification's term k of prediction and target at (p, q, r). -/
theorem pay1_apply (x0 x1 : Vec Ideal S32x4096x4 .f32) (acc : Vec Ideal S32x4x8 .f32) (p : Fin 32) (r : Fin 4) (k : Fin 8) :
    k0_pay1 (F := Ideal) (k0_pay4 x0 x1) (k0_pay7 x1) (k0_pay8 x1) (k0_pay9 x1) (k0_pay10 x1) (k0_pay11 x0 x1) acc (ix3 p r k)
      = acc (ix3 p r k) + ∑ q : Fin 4096, Cert.Spec.term k (x0 (ix3 p q r)) (x1 (ix3 p q r)) := by
  fin_cases k
  · refine (pay1_col0 _ _ _ _ _ _ _ p r).trans ?_
    exact congrArg (acc (ix3 p r (0 : Fin 8)) + ·) (pay10_apply x0 x1 p r)
  · refine (pay1_col1 _ _ _ _ _ _ _ p r).trans ?_
    exact congrArg (acc (ix3 p r (1 : Fin 8)) + ·) (pay11_apply x0 x1 p r)
  · refine (pay1_col2 _ _ _ _ _ _ _ p r).trans ?_
    refine congrArg (acc (ix3 p r (2 : Fin 8)) + ·) ?_
    exact Finset.sum_congr rfl fun q _ => pay7_apply x1 p r q
  · refine (pay1_col3 _ _ _ _ _ _ _ p r).trans ?_
    refine congrArg (acc (ix3 p r (3 : Fin 8)) + ·) ?_
    exact Finset.sum_congr rfl fun q _ => congrArg₂ (· * ·) (pay4_apply x0 x1 p r q) (pay7_apply x1 p r q)
  · refine (pay1_col4 _ _ _ _ _ _ _ p r).trans ?_
    refine congrArg (acc (ix3 p r (4 : Fin 8)) + ·) ?_
    exact Finset.sum_congr rfl fun q _ => pay8_apply x1 p r q
  · refine (pay1_col5 _ _ _ _ _ _ _ p r).trans ?_
    refine congrArg (acc (ix3 p r (5 : Fin 8)) + ·) ?_
    exact Finset.sum_congr rfl fun q _ => congrArg₂ (· * ·) (pay4_apply x0 x1 p r q) (pay8_apply x1 p r q)
  · refine (pay1_col6 _ _ _ _ _ _ _ p r).trans ?_
    refine congrArg (acc (ix3 p r (6 : Fin 8)) + ·) ?_
    exact Finset.sum_congr rfl fun q _ => pay9_apply x1 p r q
  · refine (pay1_col7 _ _ _ _ _ _ _ p r).trans ?_
    refine congrArg (acc (ix3 p r (7 : Fin 8)) + ·) ?_
    exact Finset.sum_congr rfl fun q _ => congrArg₂ (· * ·) (pay4_apply x0 x1 p r q) (pay9_apply x1 p r q)

end Cert.KPayload

end
-- ==== Proof.KIFinal.lean ====
/-
  The kernel's output array as the eight totals.

  The region's grid is 2 × 16, row-major: position t has row block t / 16 and time block t % 16. An input window's
  block at t is rows (t/16)·32 … +31 and times (t%16)·4096 … +4095 of its array; the output window's block is rows
  (t/16)·32 … +31 of the 64 × 4 × 8 output. After position n the accumulator holds, at (p, r, k), the sum over the
  time blocks 0 … n % 16 of the row block and over their 4096 times of the specification's term k; at a row block's
  last time block that is the total over all 65536 times, and the output block written back there holds it. The two
  written blocks cover the output array.
-/
import proofs.«101840_j35605278884350_1_alg».proof.Proof.KIValue
import proofs.«101840_j35605278884350_1_alg».proof.Proof.KPayload
import proofs.«101840_j35605278884350_1_alg».proof.Proof.SpecLemmas
import Idealize.ShloMosaic.Lib.Pipeline.Value
import Idealize.ShloMosaic.Lib.ValueIdx

set_option maxRecDepth 16384

noncomputable section

open scoped BigOperators

namespace Cert.KernelIdeal.HF

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The printed index maps, decided once over the grid -/

theorem idx_in0 : ∀ t : Fin cfg0.N, win0_0.index t (0 : Fin 3) = t.val / 16 ∧ win0_0.index t (1 : Fin 3) = t.val % 16
    ∧ win0_0.index t (2 : Fin 3) = 0 :=
  (by decide +kernel : ∀ t : Fin grid0.N, win0_0.index t (0 : Fin 3) = t.val / 16 ∧ win0_0.index t (1 : Fin 3) = t.val % 16
    ∧ win0_0.index t (2 : Fin 3) = 0)

theorem idx_in1 : ∀ t : Fin cfg0.N, win0_1.index t (0 : Fin 3) = t.val / 16 ∧ win0_1.index t (1 : Fin 3) = t.val % 16
    ∧ win0_1.index t (2 : Fin 3) = 0 :=
  (by decide +kernel : ∀ t : Fin grid0.N, win0_1.index t (0 : Fin 3) = t.val / 16 ∧ win0_1.index t (1 : Fin 3) = t.val % 16
    ∧ win0_1.index t (2 : Fin 3) = 0)

theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-! ## The input blocks read off the argument arrays -/

/-- The prediction block at position t, at (p, q, r): the prediction array at row (t/16)·32 + p, time (t%16)·4096 + q,
    channel r. -/
theorem iblk0_apply (c : Dev nD) (t : Fin cfg0.N) (p : Fin 32) (q : Fin 4096) (r : Fin 4) (i : S64x65536x4.Idx)
    (h0 : (i 0).val = t.val / 16 * 32 + p.val) (h1 : (i 1).val = t.val % 16 * 4096 + q.val) (h2 : (i 2).val = r.val) :
    (iblk m c 0 t : Vec Ideal S32x4096x4 .f32) (ix3 p q r)
      = (m ((c.tc : Thread nD τ).loc main_arg0) : S64x65536x4.Idx → EReal) i := by
  obtain ⟨e0, e1, e2⟩ := idx_in0 t
  unfold iblk
  rw [View.read_apply]
  show V m c main_arg0 _ = m (c.tc.loc main_arg0) _
  unfold V
  congr 1
  funext a
  apply Fin.ext
  match a with
  | ⟨0, _⟩ => show win0_0.index t (0 : Fin 3) * 32 + 1 * p.val = (i 0).val; rw [e0, h0]; omega
  | ⟨1, _⟩ => show win0_0.index t (1 : Fin 3) * 4096 + 1 * q.val = (i 1).val; rw [e1, h1]; omega
  | ⟨2, _⟩ => show win0_0.index t (2 : Fin 3) * 4 + 1 * r.val = (i 2).val; rw [e2, h2]; omega

/-- The target block likewise. -/
theorem iblk1_apply (c : Dev nD) (t : Fin cfg0.N) (p : Fin 32) (q : Fin 4096) (r : Fin 4) (i : S64x65536x4.Idx)
    (h0 : (i 0).val = t.val / 16 * 32 + p.val) (h1 : (i 1).val = t.val % 16 * 4096 + q.val) (h2 : (i 2).val = r.val) :
    (iblk m c 1 t : Vec Ideal S32x4096x4 .f32) (ix3 p q r)
      = (m ((c.tc : Thread nD τ).loc main_arg1) : S64x65536x4.Idx → EReal) i := by
  obtain ⟨e0, e1, e2⟩ := idx_in1 t
  unfold iblk
  rw [View.read_apply]
  show V m c main_arg1 _ = m (c.tc.loc main_arg1) _
  unfold V
  congr 1
  funext a
  apply Fin.ext
  match a with
  | ⟨0, _⟩ => show win0_1.index t (0 : Fin 3) * 32 + 1 * p.val = (i 0).val; rw [e0, h0]; omega
  | ⟨1, _⟩ => show win0_1.index t (1 : Fin 3) * 4096 + 1 * q.val = (i 1).val; rw [e1, h1]; omega
  | ⟨2, _⟩ => show win0_1.index t (2 : Fin 3) * 4 + 1 * r.val = (i 2).val; rw [e2, h2]; omega

/-! ## The output blocks cover the output array -/

/-- An index of the output array is in position t's block iff each coordinate is in the block's range on its axis. -/
theorem mem_blk_out (t : Fin cfg0.N) (i : S64x4x8.Idx) :
    i ∈ ((cfg0.win 2).blk t).view.set ↔ ∀ a : Fin 3, win0_2.index t a * S32x4x8.size a ≤ (i a).val
      ∧ (i a).val < win0_2.index t a * S32x4x8.size a + S32x4x8.size a := by
  show i ∈ ((View.whole main_v0).slice (win0_2.rect t)).set ↔ _
  rw [View.set_slice_whole, Rect.mem_set_unit]
  exact Iff.rfl

/-- Every index of the output array lies in the block some row block's last position writes back. -/
theorem cover_out (i : S64x4x8.Idx) :
    ∃ t : Fin cfg0.N, (cfg0.win 2).flush t = true ∧ i ∈ ((cfg0.win 2).blk t).view.set := by
  have hN : cfg0.N = 32 := N_0
  have hi0 : (i 0).val < 64 := (i 0).isLt
  have hi1 : (i 1).val < 4 := (i 1).isLt
  have hi2 : (i 2).val < 8 := (i 2).isLt
  let t : Fin cfg0.N := ⟨(i 0).val / 32 * 16 + 15, by omega⟩
  have ht : t.val = (i 0).val / 32 * 16 + 15 := rfl
  obtain ⟨e0, e1, e2⟩ := idx_out t
  refine ⟨t, (flush0_2 t).mpr (by rw [ht]; omega), ?_⟩
  rw [mem_blk_out]
  intro a
  match a with
  | ⟨0, _⟩ => show win0_2.index t (0 : Fin 3) * 32 ≤ (i 0).val ∧ (i 0).val < win0_2.index t (0 : Fin 3) * 32 + 32
              rw [e0, ht]; omega
  | ⟨1, _⟩ => show win0_2.index t (1 : Fin 3) * 4 ≤ (i 1).val ∧ (i 1).val < win0_2.index t (1 : Fin 3) * 4 + 4
              rw [e1]; omega
  | ⟨2, _⟩ => show win0_2.index t (2 : Fin 3) * 8 ≤ (i 2).val ∧ (i 2).val < win0_2.index t (2 : Fin 3) * 8 + 8
              rw [e2]; omega

/-! ## The running sum in closed form -/

/-- The argument arrays' index of row g·32 + p, time b·4096 + q, channel r (each reduced into its range, so that the
    index is total in g and b). -/
def cell (g b : ℕ) (p : Fin 32) (q : Fin 4096) (r : Fin 4) : S64x65536x4.Idx :=
  ix3 (⟨(g * 32 + p.val) % 64, Nat.mod_lt _ (by decide)⟩ : Fin 64)
    (⟨(b * 4096 + q.val) % 65536, Nat.mod_lt _ (by decide)⟩ : Fin 65536) r

/-- The sum of the specification's term k over the first B time blocks of row block g, at row p and channel r. -/
def part (O T : S64x65536x4.Idx → EReal) (g B : ℕ) (p : Fin 32) (r : Fin 4) (k : Fin 8) : EReal :=
  ∑ b ∈ Finset.range B, ∑ q : Fin 4096, Cert.Spec.term k (O (cell g b p q r)) (T (cell g b p q r))

/-- One position's update of an accumulator block, at (p, r, k): the position's time block of terms added. -/
theorem step_apply (c : Dev nD) (n : ℕ) (h : n < cfg0.N) (acc : Vec Ideal S32x4x8 .f32) (p : Fin 32) (r : Fin 4) (k : Fin 8) :
    step (iblk m c 0 ⟨n, h⟩) (iblk m c 1 ⟨n, h⟩) acc (ix3 p r k)
      = acc (ix3 p r k) + ∑ q : Fin 4096,
          Cert.Spec.term k ((m ((c.tc : Thread nD τ).loc main_arg0) : S64x65536x4.Idx → EReal) (cell (n / 16) (n % 16) p q r))
            ((m ((c.tc : Thread nD τ).loc main_arg1) : S64x65536x4.Idx → EReal) (cell (n / 16) (n % 16) p q r)) := by
  have hN : cfg0.N = 32 := N_0
  unfold step
  refine (Cert.KPayload.pay1_apply _ _ acc p r k).trans ?_
  refine congrArg (acc (ix3 p r k) + ·) (Finset.sum_congr rfl fun q _ => ?_)
  have hp : p.val < 32 := p.isLt
  have hq : q.val < 4096 := q.isLt
  have h0 : ((cell (n / 16) (n % 16) p q r) 0).val = (⟨n, h⟩ : Fin cfg0.N).val / 16 * 32 + p.val := by
    show (n / 16 * 32 + p.val) % 64 = n / 16 * 32 + p.val
    omega
  have h1 : ((cell (n / 16) (n % 16) p q r) 1).val = (⟨n, h⟩ : Fin cfg0.N).val % 16 * 4096 + q.val := by
    show (n % 16 * 4096 + q.val) % 65536 = n % 16 * 4096 + q.val
    omega
  have h2 : ((cell (n / 16) (n % 16) p q r) 2).val = r.val := rfl
  exact congrArg₂ (Cert.Spec.term k) (iblk0_apply m c ⟨n, h⟩ p q r _ h0 h1 h2) (iblk1_apply m c ⟨n, h⟩ p q r _ h0 h1 h2)

/-- After position n the accumulator holds, at (p, r, k), the terms of the row block's time blocks 0 … n % 16. -/
theorem acc_closed (c : Dev nD) : ∀ (n : ℕ) (h : n < cfg0.N) (p : Fin 32) (r : Fin 4) (k : Fin 8),
    accAt m c n h (ix3 p r k)
      = part (m ((c.tc : Thread nD τ).loc main_arg0)) (m ((c.tc : Thread nD τ).loc main_arg1)) (n / 16) (n % 16 + 1) p r k
  | 0, h, p, r, k => by
    have e : accAt m c 0 h = step (iblk m c 0 ⟨0, h⟩) (iblk m c 1 ⟨0, h⟩) (k0_pay2 (F := Ideal)) := by simp only [accAt]
    rw [e, step_apply, Cert.KPayload.pay2_apply, zero_add]
    unfold part
    rw [show 0 % 16 + 1 = 1 from rfl, Finset.sum_range_one]
  | n + 1, h, p, r, k => by
    have ih := acc_closed c n (Nat.lt_of_succ_lt h) p r k
    by_cases h0 : (n + 1) % 16 = 0
    · have e : accAt m c (n + 1) h = step (iblk m c 0 ⟨n + 1, h⟩) (iblk m c 1 ⟨n + 1, h⟩) (k0_pay2 (F := Ideal)) := by
        simp only [accAt, if_pos h0]
      rw [e, step_apply, Cert.KPayload.pay2_apply, zero_add]
      unfold part
      rw [h0, show 0 + 1 = 1 from rfl, Finset.sum_range_one]
    · have e : accAt m c (n + 1) h = step (iblk m c 0 ⟨n + 1, h⟩) (iblk m c 1 ⟨n + 1, h⟩) (accAt m c n (Nat.lt_of_succ_lt h)) := by
        simp only [accAt, if_neg h0]
      rw [e, step_apply, ih]
      unfold part
      have hd : (n + 1) / 16 = n / 16 := by omega
      have hm : (n + 1) % 16 = n % 16 + 1 := by omega
      rw [hd, hm, Finset.sum_range_succ (n := n % 16 + 1)]

/-- The same at any index of the block. -/
theorem acc_closed' (c : Dev nD) (n : ℕ) (h : n < cfg0.N) (j : S32x4x8.Idx) :
    accAt m c n h j
      = part (m ((c.tc : Thread nD τ).loc main_arg0)) (m ((c.tc : Thread nD τ).loc main_arg1)) (n / 16) (n % 16 + 1) (j 0) (j 1) (j 2) :=
  (congrArg (accAt m c n h) (eq_ix3 j)).trans (acc_closed m c n h (j 0) (j 1) (j 2))

/-- All sixteen time blocks of a row block: the specification's total. -/
theorem part_full (O T : S64x65536x4.Idx → EReal) (g : ℕ) (hg : g < 2) (p : Fin 32) (r : Fin 4) (k : Fin 8) :
    part O T g 16 p r k = Cert.Spec.tot k O T ⟨g * 32 + p.val, by have := p.isLt; omega⟩ r := by
  have hp : p.val < 32 := p.isLt
  unfold part Cert.Spec.tot
  rw [Cert.SpecLemmas.sum_blocks,
    ← Fin.sum_univ_eq_sum_range (fun b => ∑ q : Fin 4096, Cert.Spec.term k (O (cell g b p q r)) (T (cell g b p q r))) 16]
  refine Finset.sum_congr rfl fun b _ => Finset.sum_congr rfl fun q _ => ?_
  have hb : b.val < 16 := b.isLt
  have hq : q.val < 4096 := q.isLt
  have hc : cell g b.val p q r
      = ix3 (⟨g * 32 + p.val, by omega⟩ : Fin 64) (⟨b.val * 4096 + q.val, by omega⟩ : Fin 65536) r := by
    funext a
    apply Fin.ext
    match a with
    | ⟨0, _⟩ => show (g * 32 + p.val) % 64 = g * 32 + p.val; omega
    | ⟨1, _⟩ => show (b.val * 4096 + q.val) % 65536 = b.val * 4096 + q.val; omega
    | ⟨2, _⟩ => rfl
  rw [hc]

/-! ## The output array -/

/-- The eight totals of every row and channel, as an array 64 × 4 × 8. -/
def statsOf (O T : Vec Ideal S64x65536x4 .f32) : Vec Ideal S64x4x8 .f32 :=
  fun j => Cert.Spec.tot (j 2) O T (j 0) (j 1)

theorem statsOf_apply (O T : Vec Ideal S64x65536x4 .f32) (i : S64x4x8.Idx) :
    statsOf O T i = Cert.Spec.tot (i 2) O T (i 0) (i 1) := rfl

/-- A block of the accumulator's shape that agrees, index by index, with an array read through position t's output
    rectangle is what the write-back of position t writes. -/
theorem cut_eq_read (t : Fin cfg0.N) (acc : Vec Ideal S32x4x8 .f32) (G : Vec Ideal S64x4x8 .f32)
    (h : ∀ j : S32x4x8.Idx, acc j = G (((cfg0.win 2).blk t).view.emb j)) :
    (cfg0.win 2).cut (grid0.coords t) acc = ((cfg0.win 2).blk t).view.read (Elt Ideal) G := by
  funext j
  exact h j

theorem tot_congr (O T : S64x65536x4.Idx → EReal) {k k' : Fin 8} {n n' : Fin 64} {c c' : Fin 4}
    (hk : k = k') (hn : n = n') (hc : c = c') : Cert.Spec.tot k O T n c = Cert.Spec.tot k' O T n' c' := by
  subst hk hn hc; rfl

/-- What a row block's last position writes back is its block of the totals. -/
theorem flushed_eq (c : Dev nD) (t : Fin cfg0.N) (hf : (cfg0.win 2).flush t = true) :
    (dats (F := Ideal) m 0 c).flushed 2 t
      = ((cfg0.win 2).blk t).view.read (Elt Ideal)
          (statsOf (m ((c.tc : Thread nD τ).loc main_arg0)) (m ((c.tc : Thread nD τ).loc main_arg1))) := by
  have hN : cfg0.N = 32 := N_0
  have h15 : t.val % 16 = 15 := (flush0_2 t).mp hf
  have ht : t.val < 32 := hN ▸ t.isLt
  obtain ⟨e0, e1, e2⟩ := idx_out t
  show (cfg0.win 2).cut (grid0.coords t) ((dats m 0 c).after 2 t) = _
  rw [after0_2, (outsAt_eq m c t.val t.isLt).2 h15]
  refine cut_eq_read t _ _ fun j => ?_
  refine (acc_closed' m c t.val t.isLt j).trans ?_
  have h16 : t.val % 16 + 1 = 16 := by omega
  rw [h16, statsOf_apply]
  refine (part_full _ _ (t.val / 16) (by omega) (j 0) (j 1) (j 2)).trans ?_
  have hj0 : (j 0).val < 32 := (j 0).isLt
  refine tot_congr _ _ (Fin.ext ?_) (Fin.ext ?_) (Fin.ext ?_)
  · show (j 2).val = win0_2.index t (2 : Fin 3) * 8 + 1 * (j 2).val
    rw [e2]; omega
  · show t.val / 16 * 32 + (j 0).val = win0_2.index t (0 : Fin 3) * 32 + 1 * (j 0).val
    rw [e0]; omega
  · show (j 1).val = win0_2.index t (1 : Fin 3) * 4 + 1 * (j 1).val
    rw [e1]; omega

/-- The output array after the region: the eight totals of the two argument arrays. -/
theorem final_stats (c : Dev nD) :
    (dats (F := Ideal) m 0 c).arrAt 2 cfg0.N
      = statsOf (m ((c.tc : Thread nD τ).loc main_arg0)) (m ((c.tc : Thread nD τ).loc main_arg1)) :=
  (dats m 0 c).arrAt_eq_of_cover 2 _ (flushed_eq m c) cover_out

end Cert.KernelIdeal.HF

end
-- ==== Proof.Tail.lean ====
/-
  The host computation that is applied to the eight per-(row, channel) totals, as one pure function:
  per bin a masked mean (the error sum over max(count, 1) where the count is positive, NaN elsewhere),
  two entrywise NaN-ignoring means of two such arrays, and four NaN-ignoring means over all 64 x 4
  entries. Written operation by operation, in the order and with the argument order of the printed
  host lines; nothing is simplified.
-/
import Idealize.ShloMosaic.PureOps
import Idealize.ShloMosaic.PureOps.Ideal

noncomputable section

namespace Cert.Tail

open Idealize.ShloMosaic

/-- The [64, 4] arrays of per-(row, channel) values, and the scalars. -/
abbrev S2 : Shape := ⟨2, ![64, 4]⟩
abbrev S0 : Shape := ⟨0, ![]⟩

theorem bcast : S0.BroadcastsInDim S2 (![] : Fin 0 → Fin S2.rank) := by decide
theorem redAll : S2.ReducesTo [0, 1] S0 := by decide
theorem numel_pos : 0 < S0.numel := by decide
theorem one_lt : 1 < 32 := by decide

section
variable {F : FTy → Type} [FloatOps F]

/-- A scalar constant spread over the [64, 4] array. -/
def splat (b : BitVec 32) : FVec F S2 .f32 :=
  broadcastInDim S2 ![] bcast (constant (F := F) S0 .f32 b)

/-- The same, the scalar first passed through the conversion to its own type (as the outlined
    three-argument select does with its scalar third argument). -/
def splatConv (b : BitVec 32) : FVec F S2 .f32 :=
  broadcastInDim S2 ![] bcast (id (constant (F := F) S0 .f32 b))

/-- The masked mean of one bin from its count `n` and its sum `s`:
    `s / max(n, 1)` where `n > 0`, NaN elsewhere. -/
def maskedMean (n s : FVec F S2 .f32) : FVec F S2 .f32 :=
  select (cmpf .ogt n (splat (F := F) 0x00000000#32))
    (Host.divf s (maximumf n (splat (F := F) 0x3F800000#32)))
    (splatConv (F := F) 0x7FC00000#32)

/-- The entries that are not NaN, as bits. -/
def notNan (x : FVec F S2 .f32) : IVec S2 1 := noti (cmpf .une x x)

/-- The entrywise NaN-ignoring mean of two arrays: the sum of the non-NaN entries (a NaN entry
    replaced by zero) over their number where there is at least one, NaN where both are NaN. -/
def nanmean2 (x y : FVec F S2 .f32) : FVec F S2 .f32 :=
  select
    (cmpf .ogt (addf (uitofp .f32 (notNan x)) (uitofp .f32 (notNan y))) (splat (F := F) 0x00000000#32))
    (Host.divf
      (addf (select (notNan x) x (splatConv (F := F) 0x00000000#32)) (select (notNan y) y (splatConv (F := F) 0x00000000#32)))
      (maximumf (addf (uitofp .f32 (notNan x)) (uitofp .f32 (notNan y))) (splat (F := F) 0x3F800000#32)))
    (splatConv (F := F) 0x7FC00000#32)

/-- The NaN-ignoring mean over all entries: the sum of the entries with NaN replaced by zero, over
    the number of non-NaN entries (the sum of their indicator converted to a float). -/
def nanmean (x : FVec F S2 .f32) : FVec F S0 .f32 :=
  Host.divf
    (Host.reduceAdd (select (cmpf .une x x) (splat (F := F) 0x00000000#32) x)
      (constant (F := F) S0 .f32 0x00000000#32) redAll numel_pos)
    (Host.reduceAdd (sitofp .f32 (extui 32 (notNan x) one_lt))
      (constant (F := F) S0 .f32 0x00000000#32) redAll numel_pos)

/-- The four masked means: of bin 0 (totals 0, 1), bin 1 (2, 3), bin 2 (4, 5), bin 3 (6, 7). -/
def mO (a : Fin 8 → FVec F S2 .f32) : FVec F S2 .f32 := maskedMean (a 0) (a 1)
def mIn (a : Fin 8 → FVec F S2 .f32) : FVec F S2 .f32 := maskedMean (a 2) (a 3)
def mU (a : Fin 8 → FVec F S2 .f32) : FVec F S2 .f32 := maskedMean (a 4) (a 5)
def mE (a : Fin 8 → FVec F S2 .f32) : FVec F S2 .f32 := maskedMean (a 6) (a 7)
/-- The combination of bins 2 and 1, and the combination of bin 0 with it. -/
def inComb (a : Fin 8 → FVec F S2 .f32) : FVec F S2 .f32 := nanmean2 (mU a) (mIn a)
def wComb (a : Fin 8 → FVec F S2 .f32) : FVec F S2 .f32 := nanmean2 (mO a) (inComb a)

/-- The four results from the eight totals (count and error sum of bins 0..3). -/
def tailF (a : Fin 8 → FVec F S2 .f32) : Fin 4 → FVec F S0 .f32
  | 0 => nanmean (wComb a)
  | 1 => nanmean (inComb a)
  | 2 => nanmean (mO a)
  | 3 => nanmean (mE a)

end

/-- The same at the extended reals. -/
def tail (a : Fin 8 → FVec Ideal S2 .f32) : Fin 4 → FVec Ideal S0 .f32 := tailF (F := Ideal) a

end Cert.Tail

end
-- ==== Proof.KITail.lean ====
/-
  The host lines that follow the region, read back as one pure function of the region's [64, 4, 8] output:
  from any buffer contents, after those lines the four result buffers hold the four components of
  `Cert.Tail.tail` applied to the eight [64, 4] totals (the output's last axis read at 0 .. 7).
  The lines are run in groups (the four masked means; the two combinations; the four means over all
  entries), each group's result stated over arbitrary contents, and the groups are then chained.
-/
import proofs.«101840_j35605278884350_1_alg».proof.Proof.KIBase
import proofs.«101840_j35605278884350_1_alg».proof.Proof.Tail
import Idealize.ShloMosaic.Lib.StableHlo.Run
import Idealize.ShloMosaic.Lib.Pipeline.Value
import Idealize.ShloMosaic.Lib.ValueIdx

set_option maxRecDepth 16384

noncomputable section

namespace Cert.KernelIdeal.HF.T

open Cert.KernelIdeal Cert.KernelIdeal.Gen
open Idealize.ShloMosaic Idealize.ShloMosaic.TcCoe Idealize.ShloMosaic.ValueIdx

/-- Total `k` of the [64, 4, 8] array as a [64, 4] array. -/
def col (k : Fin 8) (G : Vec Ideal S64x4x8 .f32) : FVec Ideal Cert.Tail.S2 .f32 := fun j => G (ix3 (j 0) (j 1) k)

theorem slices (k : Fin 8) : S64x4x8.Slices ![0, 0, k.val] S64x4x1 := by
  fin_cases k <;> decide
theorem casts : S64x4x1.ShapeCasts S64x4 := by decide

/-- The slice at the last coordinate `k`, its unit axis dropped. -/
def sl (k : Fin 8) (G : Vec Ideal S64x4x8 .f32) : FVec Ideal Cert.Tail.S2 .f32 :=
  shapeCast S64x4 (extractStridedSlice S64x4x1 ![0, 0, k.val] G (slices k)) casts

/-- The slice at the last coordinate `k` with its unit axis dropped is total `k`. -/
theorem slice_col (k : Fin 8) (G : Vec Ideal S64x4x8 .f32) : sl k G = col k G := by
  funext j
  unfold sl col
  refine (shapeCast_apply _ casts j (ix3 (j 0) (j 1) (0 : Fin 1)) ?_).trans ?_
  · rw [Shape.rowMajor_val_three, Shape.rowMajor_val_two]
    show ((j 0).val * 4 + (j 1).val) * 1 + 0 = (j 0).val * 4 + (j 1).val
    omega
  · refine extractStridedSlice_apply _ G (slices k) _ _ fun a => ?_
    match a with
    | ⟨0, _⟩ => exact (Nat.zero_add _).symm
    | ⟨1, _⟩ => exact (Nat.zero_add _).symm
    | ⟨2, _⟩ => rfl

/-! The host lines in four groups: up to the four masked means, the first combination, the second, and the
    four means over all entries (one group each). -/
def opsA : List (HloOp τ sig (Elt Ideal)) := hostOps1 ++ (hostOps1_1 ++ (hostOps1_2 ++ (hostOps1_3 ++ (hostOps1_4 ++ (hostOps1_5 ++ (hostOps1_6 ++ (hostOps1_7)))))))
def opsB : List (HloOp τ sig (Elt Ideal)) := hostOps1_8 ++ (hostOps1_9 ++ (hostOps1_10 ++ (hostOps1_11 ++ (hostOps1_12 ++ (hostOps1_13)))))
def opsC : List (HloOp τ sig (Elt Ideal)) := hostOps1_14 ++ (hostOps1_15 ++ (hostOps1_16 ++ (hostOps1_17 ++ (hostOps1_18 ++ (hostOps1_19)))))

local macro "run_ops" : tactic => `(tactic| (simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, opsA, opsB, opsC, List.cons_append, List.nil_append]; after_results_simp; try rfl))

theorem flatten_eq : (tailOps (F := Ideal)).flatten
    = opsA ++ (opsB ++ (opsC ++ (hostOps1_20 ++ (hostOps1_21 ++ (hostOps1_22 ++ hostOps1_23))))) := by
  simp only [tailOps, opsA, opsB, opsC, List.flatten_cons, List.flatten_nil, List.append_nil, List.append_assoc]

section
variable (V : Valuation τ sig (Elt Ideal))

set_option maxHeartbeats 1000000 in
theorem A22 : (StableHlo.after opsA V (Proc.devRef .tc main_v22) : FVec Ideal Cert.Tail.S2 .f32)
    = Cert.Tail.maskedMean (F := Ideal) (sl 0 (V (Proc.devRef .tc main_v0))) (sl 1 (V (Proc.devRef .tc main_v0))) := by
  run_ops
set_option maxHeartbeats 1000000 in
theorem A28 : (StableHlo.after opsA V (Proc.devRef .tc main_v28) : FVec Ideal Cert.Tail.S2 .f32)
    = Cert.Tail.maskedMean (F := Ideal) (sl 2 (V (Proc.devRef .tc main_v0))) (sl 3 (V (Proc.devRef .tc main_v0))) := by
  run_ops
set_option maxHeartbeats 1000000 in
theorem A34 : (StableHlo.after opsA V (Proc.devRef .tc main_v34) : FVec Ideal Cert.Tail.S2 .f32)
    = Cert.Tail.maskedMean (F := Ideal) (sl 4 (V (Proc.devRef .tc main_v0))) (sl 5 (V (Proc.devRef .tc main_v0))) := by
  run_ops
set_option maxHeartbeats 1000000 in
theorem A40 : (StableHlo.after opsA V (Proc.devRef .tc main_v40) : FVec Ideal Cert.Tail.S2 .f32)
    = Cert.Tail.maskedMean (F := Ideal) (sl 6 (V (Proc.devRef .tc main_v0))) (sl 7 (V (Proc.devRef .tc main_v0))) := by
  run_ops

set_option maxHeartbeats 1000000 in
theorem B56 : (StableHlo.after opsB V (Proc.devRef .tc main_v56) : FVec Ideal Cert.Tail.S2 .f32)
    = Cert.Tail.nanmean2 (F := Ideal) (V (Proc.devRef .tc main_v34)) (V (Proc.devRef .tc main_v28)) := by
  run_ops
theorem B22 : StableHlo.after opsB V (Proc.devRef .tc main_v22) = V (Proc.devRef .tc main_v22) := by run_ops
theorem B40 : StableHlo.after opsB V (Proc.devRef .tc main_v40) = V (Proc.devRef .tc main_v40) := by run_ops

set_option maxHeartbeats 1000000 in
theorem C72 : (StableHlo.after opsC V (Proc.devRef .tc main_v72) : FVec Ideal Cert.Tail.S2 .f32)
    = Cert.Tail.nanmean2 (F := Ideal) (V (Proc.devRef .tc main_v22)) (V (Proc.devRef .tc main_v56)) := by
  run_ops
theorem C56 : StableHlo.after opsC V (Proc.devRef .tc main_v56) = V (Proc.devRef .tc main_v56) := by run_ops
theorem C22 : StableHlo.after opsC V (Proc.devRef .tc main_v22) = V (Proc.devRef .tc main_v22) := by run_ops
theorem C40 : StableHlo.after opsC V (Proc.devRef .tc main_v40) = V (Proc.devRef .tc main_v40) := by run_ops

theorem D0_73 : (StableHlo.after hostOps1_20 V (Proc.devRef .tc main_v73) : FVec Ideal Cert.Tail.S0 .f32)
    = Cert.Tail.nanmean (F := Ideal) (V (Proc.devRef .tc main_v72)) := by run_ops
theorem D0_56 : StableHlo.after hostOps1_20 V (Proc.devRef .tc main_v56) = V (Proc.devRef .tc main_v56) := by run_ops
theorem D0_22 : StableHlo.after hostOps1_20 V (Proc.devRef .tc main_v22) = V (Proc.devRef .tc main_v22) := by run_ops
theorem D0_40 : StableHlo.after hostOps1_20 V (Proc.devRef .tc main_v40) = V (Proc.devRef .tc main_v40) := by run_ops

theorem D1_74 : (StableHlo.after hostOps1_21 V (Proc.devRef .tc main_v74) : FVec Ideal Cert.Tail.S0 .f32)
    = Cert.Tail.nanmean (F := Ideal) (V (Proc.devRef .tc main_v56)) := by run_ops
theorem D1_73 : StableHlo.after hostOps1_21 V (Proc.devRef .tc main_v73) = V (Proc.devRef .tc main_v73) := by run_ops
theorem D1_22 : StableHlo.after hostOps1_21 V (Proc.devRef .tc main_v22) = V (Proc.devRef .tc main_v22) := by run_ops
theorem D1_40 : StableHlo.after hostOps1_21 V (Proc.devRef .tc main_v40) = V (Proc.devRef .tc main_v40) := by run_ops

theorem D2_75 : (StableHlo.after hostOps1_22 V (Proc.devRef .tc main_v75) : FVec Ideal Cert.Tail.S0 .f32)
    = Cert.Tail.nanmean (F := Ideal) (V (Proc.devRef .tc main_v22)) := by run_ops
theorem D2_73 : StableHlo.after hostOps1_22 V (Proc.devRef .tc main_v73) = V (Proc.devRef .tc main_v73) := by run_ops
theorem D2_74 : StableHlo.after hostOps1_22 V (Proc.devRef .tc main_v74) = V (Proc.devRef .tc main_v74) := by run_ops
theorem D2_40 : StableHlo.after hostOps1_22 V (Proc.devRef .tc main_v40) = V (Proc.devRef .tc main_v40) := by run_ops

theorem D3_76 : (StableHlo.after hostOps1_23 V (Proc.devRef .tc main_v76) : FVec Ideal Cert.Tail.S0 .f32)
    = Cert.Tail.nanmean (F := Ideal) (V (Proc.devRef .tc main_v40)) := by run_ops
theorem D3_73 : StableHlo.after hostOps1_23 V (Proc.devRef .tc main_v73) = V (Proc.devRef .tc main_v73) := by run_ops
theorem D3_74 : StableHlo.after hostOps1_23 V (Proc.devRef .tc main_v74) = V (Proc.devRef .tc main_v74) := by run_ops
theorem D3_75 : StableHlo.after hostOps1_23 V (Proc.devRef .tc main_v75) = V (Proc.devRef .tc main_v75) := by run_ops

end

/-! ## The four results after the whole tail -/

/-- The first result: the mean over all entries of the combination of bin 0 with the combination of bins 2 and 1. -/
theorem tail_after_73 (W : Valuation τ sig (Elt Ideal)) :
    (StableHlo.after (tailOps (F := Ideal)).flatten W (Proc.devRef .tc main_v73) : FVec Ideal Cert.Tail.S0 .f32)
      = Cert.Tail.tail (fun k => col k (W (Proc.devRef .tc main_v0))) 0 := by
  rw [flatten_eq, StableHlo.after_append, StableHlo.after_append, StableHlo.after_append, StableHlo.after_append,
    StableHlo.after_append, StableHlo.after_append]
  rw [D3_73, D2_73, D1_73, D0_73, C72, B22, B56, A22, A34, A28]
  simp only [slice_col]
  rfl

/-- The second result: the mean over all entries of the combination of bins 2 and 1. -/
theorem tail_after_74 (W : Valuation τ sig (Elt Ideal)) :
    (StableHlo.after (tailOps (F := Ideal)).flatten W (Proc.devRef .tc main_v74) : FVec Ideal Cert.Tail.S0 .f32)
      = Cert.Tail.tail (fun k => col k (W (Proc.devRef .tc main_v0))) 1 := by
  rw [flatten_eq, StableHlo.after_append, StableHlo.after_append, StableHlo.after_append, StableHlo.after_append,
    StableHlo.after_append, StableHlo.after_append]
  rw [D3_74, D2_74, D1_74, D0_56, C56, B56, A34, A28]
  simp only [slice_col]
  rfl

/-- The third result: the mean over all entries of bin 0's masked mean. -/
theorem tail_after_75 (W : Valuation τ sig (Elt Ideal)) :
    (StableHlo.after (tailOps (F := Ideal)).flatten W (Proc.devRef .tc main_v75) : FVec Ideal Cert.Tail.S0 .f32)
      = Cert.Tail.tail (fun k => col k (W (Proc.devRef .tc main_v0))) 2 := by
  rw [flatten_eq, StableHlo.after_append, StableHlo.after_append, StableHlo.after_append, StableHlo.after_append,
    StableHlo.after_append, StableHlo.after_append]
  rw [D3_75, D2_75, D1_22, D0_22, C22, B22, A22]
  simp only [slice_col]
  rfl

/-- The fourth result: the mean over all entries of bin 3's masked mean. -/
theorem tail_after_76 (W : Valuation τ sig (Elt Ideal)) :
    (StableHlo.after (tailOps (F := Ideal)).flatten W (Proc.devRef .tc main_v76) : FVec Ideal Cert.Tail.S0 .f32)
      = Cert.Tail.tail (fun k => col k (W (Proc.devRef .tc main_v0))) 3 := by
  rw [flatten_eq, StableHlo.after_append, StableHlo.after_append, StableHlo.after_append, StableHlo.after_append,
    StableHlo.after_append, StableHlo.after_append]
  rw [D3_76, D2_40, D1_40, D0_40, C40, B40, A40]
  simp only [slice_col]
  rfl

end Cert.KernelIdeal.HF.T
end
-- ==== Proof.KIResult.lean ====
/-
  The run of `KernelIdeal` read to the end: its four results are the shared host tail of the eight columns of the
  output array, which holds the eight totals; the two argument arrays end unchanged.
-/
import proofs.«101840_j35605278884350_1_alg».proof.Proof.KIFinal
import proofs.«101840_j35605278884350_1_alg».proof.Proof.KITail

set_option maxRecDepth 16384

noncomputable section

namespace Cert.KernelIdeal.HF

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The memory the host tail starts from holds the output array at the eight totals. -/
theorem tailStart_v0 (c : Dev nD) :
    Pipeline.withArrays cfg0.spec c (V0 m c) (fun w => (dats (F := Ideal) m 0 c).arrAt w cfg0.N) (Proc.devRef .tc main_v0)
      = statsOf (m ((c.tc : Thread nD τ).loc main_arg0)) (m ((c.tc : Thread nD τ).loc main_arg1)) :=
  (Pipeline.withArrays_arr spec0 launch0.win.arr_inj c _ _ 2).trans (final_stats m c)

theorem res73 (c : Dev nD) :
    (Pipeline.afterTail₀ cfgs (dats (F := Ideal) m) 0 (V0 m) tailOps c main_v73 : FVec Ideal Cert.Tail.S0 .f32)
      = Cert.Tail.tail (fun k => T.col k (statsOf (m ((c.tc : Thread nD τ).loc main_arg0)) (m ((c.tc : Thread nD τ).loc main_arg1)))) 0 := by
  unfold Pipeline.afterTail₀
  refine (T.tail_after_73 _).trans ?_
  rw [tailStart_v0]

theorem res74 (c : Dev nD) :
    (Pipeline.afterTail₀ cfgs (dats (F := Ideal) m) 0 (V0 m) tailOps c main_v74 : FVec Ideal Cert.Tail.S0 .f32)
      = Cert.Tail.tail (fun k => T.col k (statsOf (m ((c.tc : Thread nD τ).loc main_arg0)) (m ((c.tc : Thread nD τ).loc main_arg1)))) 1 := by
  unfold Pipeline.afterTail₀
  refine (T.tail_after_74 _).trans ?_
  rw [tailStart_v0]

theorem res75 (c : Dev nD) :
    (Pipeline.afterTail₀ cfgs (dats (F := Ideal) m) 0 (V0 m) tailOps c main_v75 : FVec Ideal Cert.Tail.S0 .f32)
      = Cert.Tail.tail (fun k => T.col k (statsOf (m ((c.tc : Thread nD τ).loc main_arg0)) (m ((c.tc : Thread nD τ).loc main_arg1)))) 2 := by
  unfold Pipeline.afterTail₀
  refine (T.tail_after_75 _).trans ?_
  rw [tailStart_v0]

theorem res76 (c : Dev nD) :
    (Pipeline.afterTail₀ cfgs (dats (F := Ideal) m) 0 (V0 m) tailOps c main_v76 : FVec Ideal Cert.Tail.S0 .f32)
      = Cert.Tail.tail (fun k => T.col k (statsOf (m ((c.tc : Thread nD τ).loc main_arg0)) (m ((c.tc : Thread nD τ).loc main_arg1)))) 3 := by
  unfold Pipeline.afterTail₀
  refine (T.tail_after_76 _).trans ?_
  rw [tailStart_v0]

/-- A buffer the host tail writes is unscoped and no array of the pipeline. -/
theorem res_mem (b : Ref sig .tc) (hs : b.isScoped = false) (ha : ∀ w : Fin 3, (spec0 w).arr.view.ref ≠ b) :
    b ∈ Pipeline.restRefs sig spec0 := Pipeline.mem_restRefs_of b hs ha

/-- Every weakly fair execution of @main ends with the four results at the host tail of the eight totals' columns
    and the two argument arrays unchanged. -/
theorem run_results : θ_run defs (onTc (τ := τ) (main (F := Ideal))) ⟨m, fun _ => 0, ρ⟩ (fun r => ∀ c : Dev nD,
      r.2.mem ((c.tc : Thread nD τ).loc main_v73) = Cert.Tail.tail (fun k => T.col k (statsOf (m ((c.tc : Thread nD τ).loc main_arg0)) (m ((c.tc : Thread nD τ).loc main_arg1)))) 0
      ∧ r.2.mem ((c.tc : Thread nD τ).loc main_v74) = Cert.Tail.tail (fun k => T.col k (statsOf (m ((c.tc : Thread nD τ).loc main_arg0)) (m ((c.tc : Thread nD τ).loc main_arg1)))) 1
      ∧ r.2.mem ((c.tc : Thread nD τ).loc main_v75) = Cert.Tail.tail (fun k => T.col k (statsOf (m ((c.tc : Thread nD τ).loc main_arg0)) (m ((c.tc : Thread nD τ).loc main_arg1)))) 2
      ∧ r.2.mem ((c.tc : Thread nD τ).loc main_v76) = Cert.Tail.tail (fun k => T.col k (statsOf (m ((c.tc : Thread nD τ).loc main_arg0)) (m ((c.tc : Thread nD τ).loc main_arg1)))) 3
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
    ((h c).2 main_v73 (res_mem main_v73 rfl (by decide))).trans (res73 m c),
    ((h c).2 main_v74 (res_mem main_v74 rfl (by decide))).trans (res74 m c),
    ((h c).2 main_v75 (res_mem main_v75 rfl (by decide))).trans (res75 m c),
    ((h c).2 main_v76 (res_mem main_v76 rfl (by decide))).trans (res76 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩)
    (run_main (F := Ideal) m ρ)

end Cert.KernelIdeal.HF

end
-- ==== Proof.RefRun.lean ====
/-
  The reference program's @main as the list of its 208 host operations, in order, with every call
  (the three outlined selects, nansum, nanmean) replaced by the callee's operations over that
  call's own buffers; and its run: every weakly fair execution terminates with each of the four results
  at the fold of those operations over the launch contents, the two arguments unchanged.
-/
import proofs.«101840_j35605278884350_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the first stretch of @main (65 of them). -/
abbrev ops0 : List (HloOp τ sig (Elt F)) :=
  [ nullary main_cst (constant S_ .f32 0x45EA6000#32),
    unary main_cst main_v0 (broadcastInDim S64x65536x4 ![] bcast_S_S64x65536x4 : (⟨S_, .f32⟩ : BufTy).Contents (Elt F) → (⟨S64x65536x4, .f32⟩ : BufTy).Contents (Elt F)),
    binary main_arg1 main_v0 main_v1 (cmpf .ogt : (⟨S64x65536x4, .f32⟩ : BufTy).Contents (Elt F) → (⟨S64x65536x4, .f32⟩ : BufTy).Contents (Elt F) → (⟨S64x65536x4, .i1⟩ : BufTy).Contents (Elt F)),
    nullary main_cst_0 (constant S_ .f32 0x00000000#32),
    unary main_cst_0 main_v2 (broadcastInDim S64x65536x4 ![] bcast_S_S64x65536x4 : (⟨S_, .f32⟩ : BufTy).Contents (Elt F) → (⟨S64x65536x4, .f32⟩ : BufTy).Contents (Elt F)),
    binary main_arg1 main_v2 main_v3 (cmpf .olt : (⟨S64x65536x4, .f32⟩ : BufTy).Contents (Elt F) → (⟨S64x65536x4, .f32⟩ : BufTy).Contents (Elt F) → (⟨S64x65536x4, .i1⟩ : BufTy).Contents (Elt F)),
    binary main_v1 main_v3 main_v4 (ori : (⟨S64x65536x4, .i1⟩ : BufTy).Contents (Elt F) → (⟨S64x65536x4, .i1⟩ : BufTy).Contents (Elt F) → (⟨S64x65536x4, .i1⟩ : BufTy).Contents (Elt F)),
    nullary main_cst_1 (constant S_ .f32 0x45EA6000#32),
    TRef.unary (.of main_cst_1 : TRef sig ⟨S_, .f32⟩) main_call0.v0 (broadcastInDim S64x65536x4 ![] bcast_S_S64x65536x4),
    TRef.ternary (.of main_v4 : TRef sig ⟨S64x65536x4, .i1⟩) main_call0.v0 (.of main_arg1 : TRef sig ⟨S64x65536x4, .f32⟩) main_call0.v1 select,
    binary main_arg0 main_v5 main_v6 (subf : (⟨S64x65536x4, .f32⟩ : BufTy).Contents (Elt F) → (⟨S64x65536x4, .f32⟩ : BufTy).Contents (Elt F) → (⟨S64x65536x4, .f32⟩ : BufTy).Contents (Elt F)),
    unary main_v6 main_v7 (Host.absf : (⟨S64x65536x4, .f32⟩ : BufTy).Contents (Elt F) → (⟨S64x65536x4, .f32⟩ : BufTy).Contents (Elt F)),
    nullary main_cst_2 (constant S_ .f32 0x45EA6000#32),
    unary main_cst_2 main_v8 (broadcastInDim S64x65536x4 ![] bcast_S_S64x65536x4 : (⟨S_, .f32⟩ : BufTy).Contents (Elt F) → (⟨S64x65536x4, .f32⟩ : BufTy).Contents (Elt F)),
    binary main_v5 main_v8 main_v9 (cmpf .oeq : (⟨S64x65536x4, .f32⟩ : BufTy).Contents (Elt F) → (⟨S64x65536x4, .f32⟩ : BufTy).Contents (Elt F) → (⟨S64x65536x4, .i1⟩ : BufTy).Contents (Elt F)),
    unary main_v9 main_v10 (uitofp .f32 : (⟨S64x65536x4, .i1⟩ : BufTy).Contents (Elt F) → (⟨S64x65536x4, .f32⟩ : BufTy).Contents (Elt F)),
    nullary main_cst_3 (constant S_ .f32 0x00000000#32),
    binary main_v10 main_cst_3 main_v11 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    binary main_v7 main_v10 main_v12 (mulf : (⟨S64x65536x4, .f32⟩ : BufTy).Contents (Elt F) → (⟨S64x65536x4, .f32⟩ : BufTy).Contents (Elt F) → (⟨S64x65536x4, .f32⟩ : BufTy).Contents (Elt F)),
    nullary main_cst_4 (constant S_ .f32 0x00000000#32),
    binary main_v12 main_cst_4 main_v13 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    nullary main_cst_5 (constant S_ .f32 0x00000000#32),
    unary main_cst_5 main_v14 (broadcastInDim S64x4 ![] bcast_S_S64x4 : (⟨S_, .f32⟩ : BufTy).Contents (Elt F) → (⟨S64x4, .f32⟩ : BufTy).Contents (Elt F)),
    binary main_v11 main_v14 main_v15 (cmpf .ogt : (⟨S64x4, .f32⟩ : BufTy).Contents (Elt F) → (⟨S64x4, .f32⟩ : BufTy).Contents (Elt F) → (⟨S64x4, .i1⟩ : BufTy).Contents (Elt F)),
    nullary main_cst_6 (constant S_ .f32 0x3F800000#32),
    unary main_cst_6 main_v16 (broadcastInDim S64x4 ![] bcast_S_S64x4 : (⟨S_, .f32⟩ : BufTy).Contents (Elt F) → (⟨S64x4, .f32⟩ : BufTy).Contents (Elt F)),
    binary main_v11 main_v16 main_v17 (maximumf : (⟨S64x4, .f32⟩ : BufTy).Contents (Elt F) → (⟨S64x4, .f32⟩ : BufTy).Contents (Elt F) → (⟨S64x4, .f32⟩ : BufTy).Contents (Elt F)),
    binary main_v13 main_v17 main_v18 (Host.divf : (⟨S64x4, .f32⟩ : BufTy).Contents (Elt F) → (⟨S64x4, .f32⟩ : BufTy).Contents (Elt F) → (⟨S64x4, .f32⟩ : BufTy).Contents (Elt F)),
    nullary main_cst_7 (constant S_ .f32 0x7FC00000#32),
    TRef.unary (.of main_cst_7 : TRef sig ⟨S_, .f32⟩) main_call1.v0 id,
    TRef.unary main_call1.v0 main_call1.v1 (broadcastInDim S64x4 ![] bcast_S_S64x4),
    TRef.ternary (.of main_v15 : TRef sig ⟨S64x4, .i1⟩) (.of main_v18 : TRef sig ⟨S64x4, .f32⟩) main_call1.v1 main_call1.v2 select,
    nullary main_cst_8 (constant S_ .f32 0x45EA6000#32),
    unary main_cst_8 main_v20 (broadcastInDim S64x65536x4 ![] bcast_S_S64x65536x4 : (⟨S_, .f32⟩ : BufTy).Contents (Elt F) → (⟨S64x65536x4, .f32⟩ : BufTy).Contents (Elt F)),
    binary main_v5 main_v20 main_v21 (cmpf .olt : (⟨S64x65536x4, .f32⟩ : BufTy).Contents (Elt F) → (⟨S64x65536x4, .f32⟩ : BufTy).Contents (Elt F) → (⟨S64x65536x4, .i1⟩ : BufTy).Contents (Elt F)),
    nullary main_cst_9 (constant S_ .f32 0x00000000#32),
    unary main_cst_9 main_v22 (broadcastInDim S64x65536x4 ![] bcast_S_S64x65536x4 : (⟨S_, .f32⟩ : BufTy).Contents (Elt F) → (⟨S64x65536x4, .f32⟩ : BufTy).Contents (Elt F)),
    binary main_v5 main_v22 main_v23 (cmpf .ogt : (⟨S64x65536x4, .f32⟩ : BufTy).Contents (Elt F) → (⟨S64x65536x4, .f32⟩ : BufTy).Contents (Elt F) → (⟨S64x65536x4, .i1⟩ : BufTy).Contents (Elt F)),
    binary main_v21 main_v23 main_v24 (andi : (⟨S64x65536x4, .i1⟩ : BufTy).Contents (Elt F) → (⟨S64x65536x4, .i1⟩ : BufTy).Contents (Elt F) → (⟨S64x65536x4, .i1⟩ : BufTy).Contents (Elt F)),
    unary main_v24 main_v25 (uitofp .f32 : (⟨S64x65536x4, .i1⟩ : BufTy).Contents (Elt F) → (⟨S64x65536x4, .f32⟩ : BufTy).Contents (Elt F)),
    nullary main_cst_10 (constant S_ .f32 0x00000000#32),
    binary main_v25 main_cst_10 main_v26 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    binary main_v7 main_v25 main_v27 (mulf : (⟨S64x65536x4, .f32⟩ : BufTy).Contents (Elt F) → (⟨S64x65536x4, .f32⟩ : BufTy).Contents (Elt F) → (⟨S64x65536x4, .f32⟩ : BufTy).Contents (Elt F)),
    nullary main_cst_11 (constant S_ .f32 0x00000000#32),
    binary main_v27 main_cst_11 main_v28 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    nullary main_cst_12 (constant S_ .f32 0x00000000#32),
    unary main_cst_12 main_v29 (broadcastInDim S64x4 ![] bcast_S_S64x4 : (⟨S_, .f32⟩ : BufTy).Contents (Elt F) → (⟨S64x4, .f32⟩ : BufTy).Contents (Elt F)),
    binary main_v26 main_v29 main_v30 (cmpf .ogt : (⟨S64x4, .f32⟩ : BufTy).Contents (Elt F) → (⟨S64x4, .f32⟩ : BufTy).Contents (Elt F) → (⟨S64x4, .i1⟩ : BufTy).Contents (Elt F)),
    nullary main_cst_13 (constant S_ .f32 0x3F800000#32),
    unary main_cst_13 main_v31 (broadcastInDim S64x4 ![] bcast_S_S64x4 : (⟨S_, .f32⟩ : BufTy).Contents (Elt F) → (⟨S64x4, .f32⟩ : BufTy).Contents (Elt F)),
    binary main_v26 main_v31 main_v32 (maximumf : (⟨S64x4, .f32⟩ : BufTy).Contents (Elt F) → (⟨S64x4, .f32⟩ : BufTy).Contents (Elt F) → (⟨S64x4, .f32⟩ : BufTy).Contents (Elt F)),
    binary main_v28 main_v32 main_v33 (Host.divf : (⟨S64x4, .f32⟩ : BufTy).Contents (Elt F) → (⟨S64x4, .f32⟩ : BufTy).Contents (Elt F) → (⟨S64x4, .f32⟩ : BufTy).Contents (Elt F)),
    nullary main_cst_14 (constant S_ .f32 0x7FC00000#32),
    TRef.unary (.of main_cst_14 : TRef sig ⟨S_, .f32⟩) main_call2.v0 id,
    TRef.unary main_call2.v0 main_call2.v1 (broadcastInDim S64x4 ![] bcast_S_S64x4),
    TRef.ternary (.of main_v30 : TRef sig ⟨S64x4, .i1⟩) (.of main_v33 : TRef sig ⟨S64x4, .f32⟩) main_call2.v1 main_call2.v2 select,
    nullary main_cst_15 (constant S_ .f32 0x00000000#32),
    unary main_cst_15 main_v35 (broadcastInDim S64x65536x4 ![] bcast_S_S64x65536x4 : (⟨S_, .f32⟩ : BufTy).Contents (Elt F) → (⟨S64x65536x4, .f32⟩ : BufTy).Contents (Elt F)),
    binary main_v5 main_v35 main_v36 (cmpf .oeq : (⟨S64x65536x4, .f32⟩ : BufTy).Contents (Elt F) → (⟨S64x65536x4, .f32⟩ : BufTy).Contents (Elt F) → (⟨S64x65536x4, .i1⟩ : BufTy).Contents (Elt F)),
    unary main_v36 main_v37 (uitofp .f32 : (⟨S64x65536x4, .i1⟩ : BufTy).Contents (Elt F) → (⟨S64x65536x4, .f32⟩ : BufTy).Contents (Elt F)),
    nullary main_cst_16 (constant S_ .f32 0x00000000#32),
    binary main_v37 main_cst_16 main_v38 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    binary main_v7 main_v37 main_v39 (mulf : (⟨S64x65536x4, .f32⟩ : BufTy).Contents (Elt F) → (⟨S64x65536x4, .f32⟩ : BufTy).Contents (Elt F) → (⟨S64x65536x4, .f32⟩ : BufTy).Contents (Elt F)),
    nullary main_cst_17 (constant S_ .f32 0x00000000#32),
    binary main_v39 main_cst_17 main_v40 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)) ]

/-- The operations of the second stretch of @main (72 of them). -/
abbrev ops1 : List (HloOp τ sig (Elt F)) :=
  [ nullary main_cst_18 (constant S_ .f32 0x00000000#32),
    unary main_cst_18 main_v41 (broadcastInDim S64x4 ![] bcast_S_S64x4 : (⟨S_, .f32⟩ : BufTy).Contents (Elt F) → (⟨S64x4, .f32⟩ : BufTy).Contents (Elt F)),
    binary main_v38 main_v41 main_v42 (cmpf .ogt : (⟨S64x4, .f32⟩ : BufTy).Contents (Elt F) → (⟨S64x4, .f32⟩ : BufTy).Contents (Elt F) → (⟨S64x4, .i1⟩ : BufTy).Contents (Elt F)),
    nullary main_cst_19 (constant S_ .f32 0x3F800000#32),
    unary main_cst_19 main_v43 (broadcastInDim S64x4 ![] bcast_S_S64x4 : (⟨S_, .f32⟩ : BufTy).Contents (Elt F) → (⟨S64x4, .f32⟩ : BufTy).Contents (Elt F)),
    binary main_v38 main_v43 main_v44 (maximumf : (⟨S64x4, .f32⟩ : BufTy).Contents (Elt F) → (⟨S64x4, .f32⟩ : BufTy).Contents (Elt F) → (⟨S64x4, .f32⟩ : BufTy).Contents (Elt F)),
    binary main_v40 main_v44 main_v45 (Host.divf : (⟨S64x4, .f32⟩ : BufTy).Contents (Elt F) → (⟨S64x4, .f32⟩ : BufTy).Contents (Elt F) → (⟨S64x4, .f32⟩ : BufTy).Contents (Elt F)),
    nullary main_cst_20 (constant S_ .f32 0x7FC00000#32),
    TRef.unary (.of main_cst_20 : TRef sig ⟨S_, .f32⟩) main_call3.v0 id,
    TRef.unary main_call3.v0 main_call3.v1 (broadcastInDim S64x4 ![] bcast_S_S64x4),
    TRef.ternary (.of main_v42 : TRef sig ⟨S64x4, .i1⟩) (.of main_v45 : TRef sig ⟨S64x4, .f32⟩) main_call3.v1 main_call3.v2 select,
    nullary main_cst_21 (constant S_ .f32 0x3DCCCCCD#32),
    nullary main_cst_22 (constant S_ .f32 0x45EA6000#32),
    binary main_cst_21 main_cst_22 main_v47 (mulf : (⟨S_, .f32⟩ : BufTy).Contents (Elt F) → (⟨S_, .f32⟩ : BufTy).Contents (Elt F) → (⟨S_, .f32⟩ : BufTy).Contents (Elt F)),
    unary main_v47 main_v48 (broadcastInDim S64x65536x4 ![] bcast_S_S64x65536x4 : (⟨S_, .f32⟩ : BufTy).Contents (Elt F) → (⟨S64x65536x4, .f32⟩ : BufTy).Contents (Elt F)),
    binary main_v5 main_v48 main_v49 (cmpf .olt : (⟨S64x65536x4, .f32⟩ : BufTy).Contents (Elt F) → (⟨S64x65536x4, .f32⟩ : BufTy).Contents (Elt F) → (⟨S64x65536x4, .i1⟩ : BufTy).Contents (Elt F)),
    nullary main_cst_23 (constant S_ .f32 0x00000000#32),
    unary main_cst_23 main_v50 (broadcastInDim S64x65536x4 ![] bcast_S_S64x65536x4 : (⟨S_, .f32⟩ : BufTy).Contents (Elt F) → (⟨S64x65536x4, .f32⟩ : BufTy).Contents (Elt F)),
    binary main_v5 main_v50 main_v51 (cmpf .ogt : (⟨S64x65536x4, .f32⟩ : BufTy).Contents (Elt F) → (⟨S64x65536x4, .f32⟩ : BufTy).Contents (Elt F) → (⟨S64x65536x4, .i1⟩ : BufTy).Contents (Elt F)),
    binary main_v49 main_v51 main_v52 (andi : (⟨S64x65536x4, .i1⟩ : BufTy).Contents (Elt F) → (⟨S64x65536x4, .i1⟩ : BufTy).Contents (Elt F) → (⟨S64x65536x4, .i1⟩ : BufTy).Contents (Elt F)),
    unary main_v52 main_v53 (uitofp .f32 : (⟨S64x65536x4, .i1⟩ : BufTy).Contents (Elt F) → (⟨S64x65536x4, .f32⟩ : BufTy).Contents (Elt F)),
    nullary main_cst_24 (constant S_ .f32 0x00000000#32),
    binary main_v53 main_cst_24 main_v54 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    binary main_v7 main_v53 main_v55 (mulf : (⟨S64x65536x4, .f32⟩ : BufTy).Contents (Elt F) → (⟨S64x65536x4, .f32⟩ : BufTy).Contents (Elt F) → (⟨S64x65536x4, .f32⟩ : BufTy).Contents (Elt F)),
    nullary main_cst_25 (constant S_ .f32 0x00000000#32),
    binary main_v55 main_cst_25 main_v56 ((fun x v => Host.reduceAdd x v reducesTo_S64x65536x4_S64x4_d1 h_S_) : (⟨S64x65536x4, .f32⟩ : BufTy).Contents (Elt F) → (⟨S_, .f32⟩ : BufTy).Contents (Elt F) → (⟨S64x4, .f32⟩ : BufTy).Contents (Elt F)),
    nullary main_cst_26 (constant S_ .f32 0x00000000#32),
    unary main_cst_26 main_v57 (broadcastInDim S64x4 ![] bcast_S_S64x4 : (⟨S_, .f32⟩ : BufTy).Contents (Elt F) → (⟨S64x4, .f32⟩ : BufTy).Contents (Elt F)),
    binary main_v54 main_v57 main_v58 (cmpf .ogt : (⟨S64x4, .f32⟩ : BufTy).Contents (Elt F) → (⟨S64x4, .f32⟩ : BufTy).Contents (Elt F) → (⟨S64x4, .i1⟩ : BufTy).Contents (Elt F)),
    nullary main_cst_27 (constant S_ .f32 0x3F800000#32),
    unary main_cst_27 main_v59 (broadcastInDim S64x4 ![] bcast_S_S64x4 : (⟨S_, .f32⟩ : BufTy).Contents (Elt F) → (⟨S64x4, .f32⟩ : BufTy).Contents (Elt F)),
    binary main_v54 main_v59 main_v60 (maximumf : (⟨S64x4, .f32⟩ : BufTy).Contents (Elt F) → (⟨S64x4, .f32⟩ : BufTy).Contents (Elt F) → (⟨S64x4, .f32⟩ : BufTy).Contents (Elt F)),
    binary main_v56 main_v60 main_v61 (Host.divf : (⟨S64x4, .f32⟩ : BufTy).Contents (Elt F) → (⟨S64x4, .f32⟩ : BufTy).Contents (Elt F) → (⟨S64x4, .f32⟩ : BufTy).Contents (Elt F)),
    nullary main_cst_28 (constant S_ .f32 0x7FC00000#32),
    TRef.unary (.of main_cst_28 : TRef sig ⟨S_, .f32⟩) main_call4.v0 id,
    TRef.unary main_call4.v0 main_call4.v1 (broadcastInDim S64x4 ![] bcast_S_S64x4),
    TRef.ternary (.of main_v58 : TRef sig ⟨S64x4, .i1⟩) (.of main_v61 : TRef sig ⟨S64x4, .f32⟩) main_call4.v1 main_call4.v2 select,
    binary main_v46 main_v46 main_v63 (cmpf .une : (⟨S64x4, .f32⟩ : BufTy).Contents (Elt F) → (⟨S64x4, .f32⟩ : BufTy).Contents (Elt F) → (⟨S64x4, .i1⟩ : BufTy).Contents (Elt F)),
    unary main_v63 main_v64 (noti : (⟨S64x4, .i1⟩ : BufTy).Contents (Elt F) → (⟨S64x4, .i1⟩ : BufTy).Contents (Elt F)),
    binary main_v34 main_v34 main_v65 (cmpf .une : (⟨S64x4, .f32⟩ : BufTy).Contents (Elt F) → (⟨S64x4, .f32⟩ : BufTy).Contents (Elt F) → (⟨S64x4, .i1⟩ : BufTy).Contents (Elt F)),
    unary main_v65 main_v66 (noti : (⟨S64x4, .i1⟩ : BufTy).Contents (Elt F) → (⟨S64x4, .i1⟩ : BufTy).Contents (Elt F)),
    nullary main_cst_29 (constant S_ .f32 0x00000000#32),
    TRef.unary (.of main_cst_29 : TRef sig ⟨S_, .f32⟩) main_call5.v0 id,
    TRef.unary main_call5.v0 main_call5.v1 (broadcastInDim S64x4 ![] bcast_S_S64x4),
    TRef.ternary (.of main_v64 : TRef sig ⟨S64x4, .i1⟩) (.of main_v46 : TRef sig ⟨S64x4, .f32⟩) main_call5.v1 main_call5.v2 select,
    nullary main_cst_30 (constant S_ .f32 0x00000000#32),
    TRef.unary (.of main_cst_30 : TRef sig ⟨S_, .f32⟩) main_call6.v0 id,
    TRef.unary main_call6.v0 main_call6.v1 (broadcastInDim S64x4 ![] bcast_S_S64x4),
    TRef.ternary (.of main_v66 : TRef sig ⟨S64x4, .i1⟩) (.of main_v34 : TRef sig ⟨S64x4, .f32⟩) main_call6.v1 main_call6.v2 select,
    binary main_v67 main_v68 main_v69 (addf : (⟨S64x4, .f32⟩ : BufTy).Contents (Elt F) → (⟨S64x4, .f32⟩ : BufTy).Contents (Elt F) → (⟨S64x4, .f32⟩ : BufTy).Contents (Elt F)),
    unary main_v64 main_v70 (uitofp .f32 : (⟨S64x4, .i1⟩ : BufTy).Contents (Elt F) → (⟨S64x4, .f32⟩ : BufTy).Contents (Elt F)),
    unary main_v66 main_v71 (uitofp .f32 : (⟨S64x4, .i1⟩ : BufTy).Contents (Elt F) → (⟨S64x4, .f32⟩ : BufTy).Contents (Elt F)),
    binary main_v70 main_v71 main_v72 (addf : (⟨S64x4, .f32⟩ : BufTy).Contents (Elt F) → (⟨S64x4, .f32⟩ : BufTy).Contents (Elt F) → (⟨S64x4, .f32⟩ : BufTy).Contents (Elt F)),
    nullary main_cst_31 (constant S_ .f32 0x00000000#32),
    unary main_cst_31 main_v73 (broadcastInDim S64x4 ![] bcast_S_S64x4 : (⟨S_, .f32⟩ : BufTy).Contents (Elt F) → (⟨S64x4, .f32⟩ : BufTy).Contents (Elt F)),
    binary main_v72 main_v73 main_v74 (cmpf .ogt : (⟨S64x4, .f32⟩ : BufTy).Contents (Elt F) → (⟨S64x4, .f32⟩ : BufTy).Contents (Elt F) → (⟨S64x4, .i1⟩ : BufTy).Contents (Elt F)),
    nullary main_cst_32 (constant S_ .f32 0x3F800000#32),
    unary main_cst_32 main_v75 (broadcastInDim S64x4 ![] bcast_S_S64x4 : (⟨S_, .f32⟩ : BufTy).Contents (Elt F) → (⟨S64x4, .f32⟩ : BufTy).Contents (Elt F)),
    binary main_v72 main_v75 main_v76 (maximumf : (⟨S64x4, .f32⟩ : BufTy).Contents (Elt F) → (⟨S64x4, .f32⟩ : BufTy).Contents (Elt F) → (⟨S64x4, .f32⟩ : BufTy).Contents (Elt F)),
    binary main_v69 main_v76 main_v77 (Host.divf : (⟨S64x4, .f32⟩ : BufTy).Contents (Elt F) → (⟨S64x4, .f32⟩ : BufTy).Contents (Elt F) → (⟨S64x4, .f32⟩ : BufTy).Contents (Elt F)),
    nullary main_cst_33 (constant S_ .f32 0x7FC00000#32),
    TRef.unary (.of main_cst_33 : TRef sig ⟨S_, .f32⟩) main_call7.v0 id,
    TRef.unary main_call7.v0 main_call7.v1 (broadcastInDim S64x4 ![] bcast_S_S64x4),
    TRef.ternary (.of main_v74 : TRef sig ⟨S64x4, .i1⟩) (.of main_v77 : TRef sig ⟨S64x4, .f32⟩) main_call7.v1 main_call7.v2 select,
    binary main_v19 main_v19 main_v79 (cmpf .une : (⟨S64x4, .f32⟩ : BufTy).Contents (Elt F) → (⟨S64x4, .f32⟩ : BufTy).Contents (Elt F) → (⟨S64x4, .i1⟩ : BufTy).Contents (Elt F)),
    unary main_v79 main_v80 (noti : (⟨S64x4, .i1⟩ : BufTy).Contents (Elt F) → (⟨S64x4, .i1⟩ : BufTy).Contents (Elt F)),
    binary main_v78 main_v78 main_v81 (cmpf .une : (⟨S64x4, .f32⟩ : BufTy).Contents (Elt F) → (⟨S64x4, .f32⟩ : BufTy).Contents (Elt F) → (⟨S64x4, .i1⟩ : BufTy).Contents (Elt F)),
    unary main_v81 main_v82 (noti : (⟨S64x4, .i1⟩ : BufTy).Contents (Elt F) → (⟨S64x4, .i1⟩ : BufTy).Contents (Elt F)),
    nullary main_cst_34 (constant S_ .f32 0x00000000#32),
    TRef.unary (.of main_cst_34 : TRef sig ⟨S_, .f32⟩) main_call8.v0 id,
    TRef.unary main_call8.v0 main_call8.v1 (broadcastInDim S64x4 ![] bcast_S_S64x4),
    TRef.ternary (.of main_v80 : TRef sig ⟨S64x4, .i1⟩) (.of main_v19 : TRef sig ⟨S64x4, .f32⟩) main_call8.v1 main_call8.v2 select ]

/-- The operations of the third stretch of @main (71 of them). -/
abbrev ops2 : List (HloOp τ sig (Elt F)) :=
  [ nullary main_cst_35 (constant S_ .f32 0x00000000#32),
    TRef.unary (.of main_cst_35 : TRef sig ⟨S_, .f32⟩) main_call9.v0 id,
    TRef.unary main_call9.v0 main_call9.v1 (broadcastInDim S64x4 ![] bcast_S_S64x4),
    TRef.ternary (.of main_v82 : TRef sig ⟨S64x4, .i1⟩) (.of main_v78 : TRef sig ⟨S64x4, .f32⟩) main_call9.v1 main_call9.v2 select,
    binary main_v83 main_v84 main_v85 (addf : (⟨S64x4, .f32⟩ : BufTy).Contents (Elt F) → (⟨S64x4, .f32⟩ : BufTy).Contents (Elt F) → (⟨S64x4, .f32⟩ : BufTy).Contents (Elt F)),
    unary main_v80 main_v86 (uitofp .f32 : (⟨S64x4, .i1⟩ : BufTy).Contents (Elt F) → (⟨S64x4, .f32⟩ : BufTy).Contents (Elt F)),
    unary main_v82 main_v87 (uitofp .f32 : (⟨S64x4, .i1⟩ : BufTy).Contents (Elt F) → (⟨S64x4, .f32⟩ : BufTy).Contents (Elt F)),
    binary main_v86 main_v87 main_v88 (addf : (⟨S64x4, .f32⟩ : BufTy).Contents (Elt F) → (⟨S64x4, .f32⟩ : BufTy).Contents (Elt F) → (⟨S64x4, .f32⟩ : BufTy).Contents (Elt F)),
    nullary main_cst_36 (constant S_ .f32 0x00000000#32),
    unary main_cst_36 main_v89 (broadcastInDim S64x4 ![] bcast_S_S64x4 : (⟨S_, .f32⟩ : BufTy).Contents (Elt F) → (⟨S64x4, .f32⟩ : BufTy).Contents (Elt F)),
    binary main_v88 main_v89 main_v90 (cmpf .ogt : (⟨S64x4, .f32⟩ : BufTy).Contents (Elt F) → (⟨S64x4, .f32⟩ : BufTy).Contents (Elt F) → (⟨S64x4, .i1⟩ : BufTy).Contents (Elt F)),
    nullary main_cst_37 (constant S_ .f32 0x3F800000#32),
    unary main_cst_37 main_v91 (broadcastInDim S64x4 ![] bcast_S_S64x4 : (⟨S_, .f32⟩ : BufTy).Contents (Elt F) → (⟨S64x4, .f32⟩ : BufTy).Contents (Elt F)),
    binary main_v88 main_v91 main_v92 (maximumf : (⟨S64x4, .f32⟩ : BufTy).Contents (Elt F) → (⟨S64x4, .f32⟩ : BufTy).Contents (Elt F) → (⟨S64x4, .f32⟩ : BufTy).Contents (Elt F)),
    binary main_v85 main_v92 main_v93 (Host.divf : (⟨S64x4, .f32⟩ : BufTy).Contents (Elt F) → (⟨S64x4, .f32⟩ : BufTy).Contents (Elt F) → (⟨S64x4, .f32⟩ : BufTy).Contents (Elt F)),
    nullary main_cst_38 (constant S_ .f32 0x7FC00000#32),
    TRef.unary (.of main_cst_38 : TRef sig ⟨S_, .f32⟩) main_call10.v0 id,
    TRef.unary main_call10.v0 main_call10.v1 (broadcastInDim S64x4 ![] bcast_S_S64x4),
    TRef.ternary (.of main_v90 : TRef sig ⟨S64x4, .i1⟩) (.of main_v93 : TRef sig ⟨S64x4, .f32⟩) main_call10.v1 main_call10.v2 select,
    TRef.binary (.of main_v94 : TRef sig ⟨S64x4, .f32⟩) (.of main_v94 : TRef sig ⟨S64x4, .f32⟩) main_call11.v0 (cmpf .une),
    TRef.unary main_call11.v0 main_call11.v1 noti,
    TRef.unary main_call11.v1 main_call11.v2 (extui 32 · natLt_1_32),
    TRef.unary main_call11.v2 main_call11.v3 (sitofp .f32),
    TRef.nullary main_call11.cst (constant S_ .f32 0x00000000#32),
    TRef.binary main_call11.v3 main_call11.cst main_call11.v4 (fun x v => Host.reduceAdd x v reducesTo_S64x4_S_d0_1 h_S_),
    TRef.binary (.of main_v94 : TRef sig ⟨S64x4, .f32⟩) (.of main_v94 : TRef sig ⟨S64x4, .f32⟩) main_call11.call0.v0 (cmpf .une),
    TRef.nullary main_call11.call0.cst (constant S_ .f32 0x00000000#32),
    TRef.unary main_call11.call0.cst main_call11.call0.call0.v0 (broadcastInDim S64x4 ![] bcast_S_S64x4),
    TRef.ternary main_call11.call0.v0 main_call11.call0.call0.v0 (.of main_v94 : TRef sig ⟨S64x4, .f32⟩) main_call11.call0.call0.v1 select,
    TRef.nullary main_call11.call0.cst_0 (constant S_ .f32 0x00000000#32),
    TRef.binary main_call11.call0.call0.v1 main_call11.call0.cst_0 main_call11.call0.v2 (fun x v => Host.reduceAdd x v reducesTo_S64x4_S_d0_1 h_S_),
    TRef.binary main_call11.call0.v2 main_call11.v4 main_call11.v6 Host.divf,
    TRef.binary (.of main_v78 : TRef sig ⟨S64x4, .f32⟩) (.of main_v78 : TRef sig ⟨S64x4, .f32⟩) main_call12.v0 (cmpf .une),
    TRef.unary main_call12.v0 main_call12.v1 noti,
    TRef.unary main_call12.v1 main_call12.v2 (extui 32 · natLt_1_32),
    TRef.unary main_call12.v2 main_call12.v3 (sitofp .f32),
    TRef.nullary main_call12.cst (constant S_ .f32 0x00000000#32),
    TRef.binary main_call12.v3 main_call12.cst main_call12.v4 (fun x v => Host.reduceAdd x v reducesTo_S64x4_S_d0_1 h_S_),
    TRef.binary (.of main_v78 : TRef sig ⟨S64x4, .f32⟩) (.of main_v78 : TRef sig ⟨S64x4, .f32⟩) main_call12.call0.v0 (cmpf .une),
    TRef.nullary main_call12.call0.cst (constant S_ .f32 0x00000000#32),
    TRef.unary main_call12.call0.cst main_call12.call0.call0.v0 (broadcastInDim S64x4 ![] bcast_S_S64x4),
    TRef.ternary main_call12.call0.v0 main_call12.call0.call0.v0 (.of main_v78 : TRef sig ⟨S64x4, .f32⟩) main_call12.call0.call0.v1 select,
    TRef.nullary main_call12.call0.cst_0 (constant S_ .f32 0x00000000#32),
    TRef.binary main_call12.call0.call0.v1 main_call12.call0.cst_0 main_call12.call0.v2 (fun x v => Host.reduceAdd x v reducesTo_S64x4_S_d0_1 h_S_),
    TRef.binary main_call12.call0.v2 main_call12.v4 main_call12.v6 Host.divf,
    TRef.binary (.of main_v19 : TRef sig ⟨S64x4, .f32⟩) (.of main_v19 : TRef sig ⟨S64x4, .f32⟩) main_call13.v0 (cmpf .une),
    TRef.unary main_call13.v0 main_call13.v1 noti,
    TRef.unary main_call13.v1 main_call13.v2 (extui 32 · natLt_1_32),
    TRef.unary main_call13.v2 main_call13.v3 (sitofp .f32),
    TRef.nullary main_call13.cst (constant S_ .f32 0x00000000#32),
    TRef.binary main_call13.v3 main_call13.cst main_call13.v4 (fun x v => Host.reduceAdd x v reducesTo_S64x4_S_d0_1 h_S_),
    TRef.binary (.of main_v19 : TRef sig ⟨S64x4, .f32⟩) (.of main_v19 : TRef sig ⟨S64x4, .f32⟩) main_call13.call0.v0 (cmpf .une),
    TRef.nullary main_call13.call0.cst (constant S_ .f32 0x00000000#32),
    TRef.unary main_call13.call0.cst main_call13.call0.call0.v0 (broadcastInDim S64x4 ![] bcast_S_S64x4),
    TRef.ternary main_call13.call0.v0 main_call13.call0.call0.v0 (.of main_v19 : TRef sig ⟨S64x4, .f32⟩) main_call13.call0.call0.v1 select,
    TRef.nullary main_call13.call0.cst_0 (constant S_ .f32 0x00000000#32),
    TRef.binary main_call13.call0.call0.v1 main_call13.call0.cst_0 main_call13.call0.v2 (fun x v => Host.reduceAdd x v reducesTo_S64x4_S_d0_1 h_S_),
    TRef.binary main_call13.call0.v2 main_call13.v4 main_call13.v6 Host.divf,
    TRef.binary (.of main_v62 : TRef sig ⟨S64x4, .f32⟩) (.of main_v62 : TRef sig ⟨S64x4, .f32⟩) main_call14.v0 (cmpf .une),
    TRef.unary main_call14.v0 main_call14.v1 noti,
    TRef.unary main_call14.v1 main_call14.v2 (extui 32 · natLt_1_32),
    TRef.unary main_call14.v2 main_call14.v3 (sitofp .f32),
    TRef.nullary main_call14.cst (constant S_ .f32 0x00000000#32),
    TRef.binary main_call14.v3 main_call14.cst main_call14.v4 (fun x v => Host.reduceAdd x v reducesTo_S64x4_S_d0_1 h_S_),
    TRef.binary (.of main_v62 : TRef sig ⟨S64x4, .f32⟩) (.of main_v62 : TRef sig ⟨S64x4, .f32⟩) main_call14.call0.v0 (cmpf .une),
    TRef.nullary main_call14.call0.cst (constant S_ .f32 0x00000000#32),
    TRef.unary main_call14.call0.cst main_call14.call0.call0.v0 (broadcastInDim S64x4 ![] bcast_S_S64x4),
    TRef.ternary main_call14.call0.v0 main_call14.call0.call0.v0 (.of main_v62 : TRef sig ⟨S64x4, .f32⟩) main_call14.call0.call0.v1 select,
    TRef.nullary main_call14.call0.cst_0 (constant S_ .f32 0x00000000#32),
    TRef.binary main_call14.call0.call0.v1 main_call14.call0.cst_0 main_call14.call0.v2 (fun x v => Host.reduceAdd x v reducesTo_S64x4_S_d0_1 h_S_),
    TRef.binary main_call14.call0.v2 main_call14.v4 main_call14.v6 Host.divf ]

/-- All of @main's operations, in order. -/
abbrev ops : List (HloOp τ sig (Elt F)) := ops0 ++ ops1 ++ ops2

set_option maxRecDepth 8192 in
set_option maxHeartbeats 4000000 in
/-- The first stretch of @main is the line of its operations: the calls unfold to their bodies. -/
theorem main_part0_eq (c : Dev nD) : main_part0 (F := F) c = seq ops0 := rfl

set_option maxRecDepth 8192 in
set_option maxHeartbeats 4000000 in
/-- The second stretch of @main is the line of its operations: the calls unfold to their bodies. -/
theorem main_part1_eq (c : Dev nD) : main_part1 (F := F) c = seq ops1 := rfl

set_option maxRecDepth 8192 in
set_option maxHeartbeats 4000000 in
/-- The third stretch of @main is the line of its operations: the calls unfold to their bodies. -/
theorem main_part2_eq (c : Dev nD) : main_part2 (F := F) c = seq ops2 := rfl

/-- @main is the line of all its operations. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., ternary_bufs_sub .., binary_bufs_sub .., unary_bufs_sub .., nullary_bufs_sub .., unary_bufs_sub .., binary_bufs_sub .., unary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., binary_bufs_sub .., nullary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., nullary_bufs_sub .., binary_bufs_sub .., unary_bufs_sub .., binary_bufs_sub .., nullary_bufs_sub .., unary_bufs_sub .., binary_bufs_sub .., binary_bufs_sub .., unary_bufs_sub .., nullary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., nullary_bufs_sub .., unary_bufs_sub .., unary_bufs_sub .., ternary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., unary_bufs_sub .., binary_bufs_sub .., unary_bufs_sub .., nullary_bufs_sub .., unary_bufs_sub .., unary_bufs_sub .., ternary_bufs_sub ..⟩

set_option maxRecDepth 8192 in
theorem ops2_sub : (ops2 : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub .., binary_bufs_sub .., unary_bufs_sub .., unary_bufs_sub .., unary_bufs_sub .., nullary_bufs_sub .., binary_bufs_sub .., binary_bufs_sub .., nullary_bufs_sub .., unary_bufs_sub .., ternary_bufs_sub .., nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h, List.forall_iff_forall_mem.mp ops2_sub op h]

/-- One operation's result buffer is in the list of written buffers. -/
local macro "one_w" : term => `(by simp only [nullary_writes, unary_writes, binary_writes, ternary_writes, Finset.singleton_subset_iff, List.mem_toFinset]; exact List.mem_map_of_mem (by decide))

/-- The buffers the first stretch writes. -/
abbrev ops0_W : List (Ref sig .tc) :=
  [main_cst, main_v0, main_v1, main_cst_0, main_v2, main_v3, main_v4, main_cst_1, main_call0.v0.ref, main_call0.v1.ref, main_v6, main_v7, main_cst_2, main_v8, main_v9, main_v10, main_cst_3, main_v11, main_v12, main_cst_4, main_v13, main_cst_5, main_v14, main_v15, main_cst_6, main_v16, main_v17, main_v18, main_cst_7, main_call1.v0.ref, main_call1.v1.ref, main_call1.v2.ref, main_cst_8, main_v20, main_v21, main_cst_9, main_v22, main_v23, main_v24, main_v25, main_cst_10, main_v26, main_v27, main_cst_11, main_v28, main_cst_12, main_v29, main_v30, main_cst_13, main_v31, main_v32, main_v33, main_cst_14, main_call2.v0.ref, main_call2.v1.ref, main_call2.v2.ref, main_cst_15, main_v35, main_v36, main_v37, main_cst_16, main_v38, main_v39, main_cst_17, main_v40]

set_option maxRecDepth 8192 in
set_option maxHeartbeats 4000000 in
theorem ops0_writes : (ops0 : List (HloOp τ sig (Elt F))).Forall fun op => op.writes ⊆ (ops0_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩

/-- A buffer the first stretch does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

/-- The buffers the second stretch writes. -/
abbrev ops1_W : List (Ref sig .tc) :=
  [main_cst_18, main_v41, main_v42, main_cst_19, main_v43, main_v44, main_v45, main_cst_20, main_call3.v0.ref, main_call3.v1.ref, main_call3.v2.ref, main_cst_21, main_cst_22, main_v47, main_v48, main_v49, main_cst_23, main_v50, main_v51, main_v52, main_v53, main_cst_24, main_v54, main_v55, main_cst_25, main_v56, main_cst_26, main_v57, main_v58, main_cst_27, main_v59, main_v60, main_v61, main_cst_28, main_call4.v0.ref, main_call4.v1.ref, main_call4.v2.ref, main_v63, main_v64, main_v65, main_v66, main_cst_29, main_call5.v0.ref, main_call5.v1.ref, main_call5.v2.ref, main_cst_30, main_call6.v0.ref, main_call6.v1.ref, main_call6.v2.ref, main_v69, main_v70, main_v71, main_v72, main_cst_31, main_v73, main_v74, main_cst_32, main_v75, main_v76, main_v77, main_cst_33, main_call7.v0.ref, main_call7.v1.ref, main_call7.v2.ref, main_v79, main_v80, main_v81, main_v82, main_cst_34, main_call8.v0.ref, main_call8.v1.ref, main_call8.v2.ref]

set_option maxRecDepth 8192 in
set_option maxHeartbeats 4000000 in
theorem ops1_writes : (ops1 : List (HloOp τ sig (Elt F))).Forall fun op => op.writes ⊆ (ops1_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩

/-- A buffer the second stretch does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

/-- The buffers the third stretch writes. -/
abbrev ops2_W : List (Ref sig .tc) :=
  [main_cst_35, main_call9.v0.ref, main_call9.v1.ref, main_call9.v2.ref, main_v85, main_v86, main_v87, main_v88, main_cst_36, main_v89, main_v90, main_cst_37, main_v91, main_v92, main_v93, main_cst_38, main_call10.v0.ref, main_call10.v1.ref, main_call10.v2.ref, main_call11.v0.ref, main_call11.v1.ref, main_call11.v2.ref, main_call11.v3.ref, main_call11.cst.ref, main_call11.v4.ref, main_call11.call0.v0.ref, main_call11.call0.cst.ref, main_call11.call0.call0.v0.ref, main_call11.call0.call0.v1.ref, main_call11.call0.cst_0.ref, main_call11.call0.v2.ref, main_call11.v6.ref, main_call12.v0.ref, main_call12.v1.ref, main_call12.v2.ref, main_call12.v3.ref, main_call12.cst.ref, main_call12.v4.ref, main_call12.call0.v0.ref, main_call12.call0.cst.ref, main_call12.call0.call0.v0.ref, main_call12.call0.call0.v1.ref, main_call12.call0.cst_0.ref, main_call12.call0.v2.ref, main_call12.v6.ref, main_call13.v0.ref, main_call13.v1.ref, main_call13.v2.ref, main_call13.v3.ref, main_call13.cst.ref, main_call13.v4.ref, main_call13.call0.v0.ref, main_call13.call0.cst.ref, main_call13.call0.call0.v0.ref, main_call13.call0.call0.v1.ref, main_call13.call0.cst_0.ref, main_call13.call0.v2.ref, main_call13.v6.ref, main_call14.v0.ref, main_call14.v1.ref, main_call14.v2.ref, main_call14.v3.ref, main_call14.cst.ref, main_call14.v4.ref, main_call14.call0.v0.ref, main_call14.call0.cst.ref, main_call14.call0.call0.v0.ref, main_call14.call0.call0.v1.ref, main_call14.call0.cst_0.ref, main_call14.call0.v2.ref, main_call14.v6.ref]

set_option maxRecDepth 8192 in
set_option maxHeartbeats 4000000 in
theorem ops2_writes : (ops2 : List (HloOp τ sig (Elt F))).Forall fun op => op.writes ⊆ (ops2_W.map (Proc.devRef (τ := τ) .tc)).toFinset := by
  simp only [List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩

/-- A buffer the third stretch does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

/-- The fold over two lines one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line as its three stretches in order. -/
theorem after_ops (V : Valuation τ sig (Elt F)) : after ops V = after ops2 (after ops1 (after ops0 V)) := by
  simp only [ops, after_app]

/-- On the one device, for any float values, from any memory with zero counters: every weakly fair execution of
    @main terminates with each of the four results at the fold of the operations over the launch contents, and the
    two arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v95) = after ops (fun b => m (c, b)) (Proc.devRef .tc main_v95)
      ∧ r.2.mem ((c.tc : Thread nD τ).loc main_v96) = after ops (fun b => m (c, b)) (Proc.devRef .tc main_v96)
      ∧ r.2.mem ((c.tc : Thread nD τ).loc main_v97) = after ops (fun b => m (c, b)) (Proc.devRef .tc main_v97)
      ∧ r.2.mem ((c.tc : Thread nD τ).loc main_v98) = after ops (fun b => m (c, b)) (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v95, h c main_v96, h c main_v97, h c main_v98,
      (h c main_arg0).trans (by
        rw [after_ops, keep2 _ _ (by decide), keep1 _ _ (by decide), keep0 _ _ (by decide)]),
      (h c main_arg1).trans (by
        rw [after_ops, keep2 _ _ (by decide), keep1 _ _ (by decide), keep0 _ _ (by decide)])⟩)
    (run_seq scopedRefs_eq scopedSems_eq defs main (fun _ => ops) main_eq (fun _ => ops_sub) m ρ)

end Cert.ReferenceIdeal.RefRun

end
-- ==== Proof.RefSums.lean ====
/-
  The reference's eight per-(row, channel) totals as pure functions of its two arguments, operation by
  operation as the reference prints them: the target clamped (above 7500 or below 0 it becomes 7500), the
  absolute error against the clamped target, the four bin indicators converted to floats, and for each bin
  the sum over the 65536 times of the indicator (the count) and of the error times the indicator.
  Nothing is simplified. Beside them, the specification's totals as [64, 4] arrays.
-/
import Idealize.ShloMosaic.PureOps
import Idealize.ShloMosaic.PureOps.Ideal
import proofs.«101840_j35605278884350_1_alg».proof.Proof.Spec
import proofs.«101840_j35605278884350_1_alg».proof.Proof.Tail

noncomputable section

namespace Cert.RefSums

open Idealize.ShloMosaic

/-- The [64, 65536, 4] arrays of the arguments; the [64, 4] arrays and the scalars are the tail's. -/
abbrev S3 : Shape := ⟨3, ![64, 65536, 4]⟩
abbrev S2 : Shape := Cert.Tail.S2
abbrev S0 : Shape := Cert.Tail.S0

theorem bcast3 : S0.BroadcastsInDim S3 (![] : Fin 0 → Fin S3.rank) := by decide
theorem redTime : S3.ReducesTo [1] S2 := by decide
theorem numel_pos : 0 < S0.numel := by decide

section
variable {F : FTy → Type} [FloatOps F]

/-- A scalar constant spread over the [64, 65536, 4] array. -/
def splat3 (b : BitVec 32) : FVec F S3 .f32 :=
  broadcastInDim S3 ![] bcast3 (constant (F := F) S0 .f32 b)

/-- The clamped target: 7500 where the target is above 7500 or below 0, the target elsewhere. -/
def clamped (T : FVec F S3 .f32) : FVec F S3 .f32 :=
  select (ori (cmpf .ogt T (splat3 (F := F) 0x45EA6000#32)) (cmpf .olt T (splat3 (F := F) 0x00000000#32)))
    (splat3 (F := F) 0x45EA6000#32) T

/-- The absolute error of the prediction against the clamped target. -/
def absErr (O T : FVec F S3 .f32) : FVec F S3 .f32 :=
  Host.absf (subf O (clamped T))

/-- The four bin indicators of a clamped target array, as floats: equal to 7500; below 7500 and above 0;
    equal to 0; below the product of the words of 0.1 and 7500 and above 0. -/
def mask : Fin 4 → FVec F S3 .f32 → FVec F S3 .f32
  | 0, y => uitofp .f32 (cmpf .oeq y (splat3 (F := F) 0x45EA6000#32))
  | 1, y => uitofp .f32 (andi (cmpf .olt y (splat3 (F := F) 0x45EA6000#32)) (cmpf .ogt y (splat3 (F := F) 0x00000000#32)))
  | 2, y => uitofp .f32 (cmpf .oeq y (splat3 (F := F) 0x00000000#32))
  | 3, y => uitofp .f32 (andi
      (cmpf .olt y (broadcastInDim S3 ![] bcast3
        (mulf (constant (F := F) S0 .f32 0x3DCCCCCD#32) (constant (F := F) S0 .f32 0x45EA6000#32))))
      (cmpf .ogt y (splat3 (F := F) 0x00000000#32)))

/-- The host sum over the 65536 times, from the zero word. -/
def sumTime (X : FVec F S3 .f32) : FVec F S2 .f32 :=
  Host.reduceAdd X (constant (F := F) S0 .f32 0x00000000#32) redTime numel_pos

/-- The eight totals from the two arguments: for bin b, total 2b the sum of the indicator and total 2b + 1 the
    sum of the error times the indicator. -/
def refSumF (k : Fin 8) (O T : FVec F S3 .f32) : FVec F S2 .f32 :=
  match k with
  | 0 => sumTime (mask 0 (clamped T))
  | 1 => sumTime (mulf (absErr O T) (mask 0 (clamped T)))
  | 2 => sumTime (mask 1 (clamped T))
  | 3 => sumTime (mulf (absErr O T) (mask 1 (clamped T)))
  | 4 => sumTime (mask 2 (clamped T))
  | 5 => sumTime (mulf (absErr O T) (mask 2 (clamped T)))
  | 6 => sumTime (mask 3 (clamped T))
  | 7 => sumTime (mulf (absErr O T) (mask 3 (clamped T)))

end

/-- The same at the extended reals. -/
def refSum (k : Fin 8) (O T : FVec Ideal S3 .f32) : FVec Ideal S2 .f32 := refSumF (F := Ideal) k O T

/-- The specification's eight totals as [64, 4] arrays. -/
def totArr (k : Fin 8) (O T : FVec Ideal ⟨3, ![64, 65536, 4]⟩ .f32) : FVec Ideal Cert.Tail.S2 .f32 :=
  fun j => Cert.Spec.tot k O T (j 0) (j 1)

end Cert.RefSums

end
-- ==== Proof.RefRead0.lean ====
/-
  The first stretch of the reference read back: the clamped target, the absolute error, the first six of the
  eight totals and the masked means of bins 0 and 1, each as the pure composition of the launch contents.
-/
import proofs.«101840_j35605278884350_1_alg».proof.Proof.RefRun
import proofs.«101840_j35605278884350_1_alg».proof.Proof.Tail
import proofs.«101840_j35605278884350_1_alg».proof.Proof.RefSums

noncomputable section

namespace Cert.ReferenceIdeal.RefRead0

open Cert.ReferenceIdeal Cert.ReferenceIdeal.Gen Cert.ReferenceIdeal.RefRun Idealize.ShloMosaic Idealize.ShloMosaic.TcCoe Idealize.SL.Sem Idealize.ShloMosaic.StableHlo
open Cert.Tail (maskedMean nanmean2 nanmean notNan splat splatConv tailF mO mIn mU mE inComb wComb)
open Cert.RefSums (refSumF clamped absErr mask sumTime)

variable {F : FTy → Type} [FloatOps F]

set_option maxRecDepth 8192 in
set_option maxHeartbeats 2000000 in
/-- The clamped target. -/
theorem s0_v5 (V : Valuation τ sig (Elt F)) :
    after ops0 V (Proc.devRef .tc main_v5)
      = clamped (V (Proc.devRef .tc main_arg1)) := by
  simp only [ops0]
  after_results_simp
  rfl

set_option maxRecDepth 8192 in
set_option maxHeartbeats 2000000 in
/-- The absolute error. -/
theorem s0_v7 (V : Valuation τ sig (Elt F)) :
    after ops0 V (Proc.devRef .tc main_v7)
      = absErr (V (Proc.devRef .tc main_arg0)) (V (Proc.devRef .tc main_arg1)) := by
  simp only [ops0]
  after_results_simp
  rfl

set_option maxRecDepth 8192 in
set_option maxHeartbeats 2000000 in
/-- Total 0. -/
theorem s0_v11 (V : Valuation τ sig (Elt F)) :
    after ops0 V (Proc.devRef .tc main_v11)
      = refSumF 0 (V (Proc.devRef .tc main_arg0)) (V (Proc.devRef .tc main_arg1)) := by
  simp only [ops0]
  after_results_simp
  rfl

set_option maxRecDepth 8192 in
set_option maxHeartbeats 2000000 in
/-- Total 1. -/
theorem s0_v13 (V : Valuation τ sig (Elt F)) :
    after ops0 V (Proc.devRef .tc main_v13)
      = refSumF 1 (V (Proc.devRef .tc main_arg0)) (V (Proc.devRef .tc main_arg1)) := by
  simp only [ops0]
  after_results_simp
  rfl

set_option maxRecDepth 8192 in
set_option maxHeartbeats 2000000 in
/-- Total 2. -/
theorem s0_v26 (V : Valuation τ sig (Elt F)) :
    after ops0 V (Proc.devRef .tc main_v26)
      = refSumF 2 (V (Proc.devRef .tc main_arg0)) (V (Proc.devRef .tc main_arg1)) := by
  simp only [ops0]
  after_results_simp
  rfl

set_option maxRecDepth 8192 in
set_option maxHeartbeats 2000000 in
/-- Total 3. -/
theorem s0_v28 (V : Valuation τ sig (Elt F)) :
    after ops0 V (Proc.devRef .tc main_v28)
      = refSumF 3 (V (Proc.devRef .tc main_arg0)) (V (Proc.devRef .tc main_arg1)) := by
  simp only [ops0]
  after_results_simp
  rfl

set_option maxRecDepth 8192 in
set_option maxHeartbeats 2000000 in
/-- Total 4. -/
theorem s0_v38 (V : Valuation τ sig (Elt F)) :
    after ops0 V (Proc.devRef .tc main_v38)
      = refSumF 4 (V (Proc.devRef .tc main_arg0)) (V (Proc.devRef .tc main_arg1)) := by
  simp only [ops0]
  after_results_simp
  rfl

set_option maxRecDepth 8192 in
set_option maxHeartbeats 2000000 in
/-- Total 5. -/
theorem s0_v40 (V : Valuation τ sig (Elt F)) :
    after ops0 V (Proc.devRef .tc main_v40)
      = refSumF 5 (V (Proc.devRef .tc main_arg0)) (V (Proc.devRef .tc main_arg1)) := by
  simp only [ops0]
  after_results_simp
  rfl

set_option maxRecDepth 8192 in
set_option maxHeartbeats 2000000 in
/-- The masked mean of bin 0 from its two totals. -/
theorem s0_v19 (V : Valuation τ sig (Elt F)) :
    after ops0 V (Proc.devRef .tc main_v19)
      = maskedMean (after ops0 V (Proc.devRef .tc main_v11)) (after ops0 V (Proc.devRef .tc main_v13)) := by
  simp only [ops0]
  after_results_simp
  rfl

set_option maxRecDepth 8192 in
set_option maxHeartbeats 2000000 in
/-- The masked mean of bin 1 from its two totals. -/
theorem s0_v34 (V : Valuation τ sig (Elt F)) :
    after ops0 V (Proc.devRef .tc main_v34)
      = maskedMean (after ops0 V (Proc.devRef .tc main_v26)) (after ops0 V (Proc.devRef .tc main_v28)) := by
  simp only [ops0]
  after_results_simp
  rfl

end Cert.ReferenceIdeal.RefRead0

end
-- ==== Proof.RefRead1.lean ====
/-
  The second stretch of the reference read back over any contents before it: the masked means of bins 2 and 3,
  the last two totals, the combination of bins 2 and 1, and the pieces of the next combination it already forms.
-/
import proofs.«101840_j35605278884350_1_alg».proof.Proof.RefRun
import proofs.«101840_j35605278884350_1_alg».proof.Proof.Tail
import proofs.«101840_j35605278884350_1_alg».proof.Proof.RefSums

noncomputable section

namespace Cert.ReferenceIdeal.RefRead1

open Cert.ReferenceIdeal Cert.ReferenceIdeal.Gen Cert.ReferenceIdeal.RefRun Idealize.ShloMosaic Idealize.ShloMosaic.TcCoe Idealize.SL.Sem Idealize.ShloMosaic.StableHlo
open Cert.Tail (maskedMean nanmean2 nanmean notNan splat splatConv tailF mO mIn mU mE inComb wComb)
open Cert.RefSums (refSumF clamped absErr mask sumTime)

variable {F : FTy → Type} [FloatOps F]

set_option maxRecDepth 8192 in
set_option maxHeartbeats 2000000 in
/-- The masked mean of bin 2. -/
theorem s1_v46 (W : Valuation τ sig (Elt F)) :
    after ops1 W (Proc.devRef .tc main_v46)
      = maskedMean (W (Proc.devRef .tc main_v38)) (W (Proc.devRef .tc main_v40)) := by
  simp only [ops1]
  after_results_simp
  rfl

set_option maxRecDepth 8192 in
set_option maxHeartbeats 2000000 in
/-- Total 6 from the clamped target. -/
theorem s1_v54 (W : Valuation τ sig (Elt F)) :
    after ops1 W (Proc.devRef .tc main_v54)
      = sumTime (mask 3 (W (Proc.devRef .tc main_v5))) := by
  simp only [ops1]
  after_results_simp
  rfl

set_option maxRecDepth 8192 in
set_option maxHeartbeats 2000000 in
/-- Total 7 from the error and the clamped target. -/
theorem s1_v56 (W : Valuation τ sig (Elt F)) :
    after ops1 W (Proc.devRef .tc main_v56)
      = sumTime (mulf (W (Proc.devRef .tc main_v7)) (mask 3 (W (Proc.devRef .tc main_v5)))) := by
  simp only [ops1]
  after_results_simp
  rfl

set_option maxRecDepth 8192 in
set_option maxHeartbeats 2000000 in
/-- The masked mean of bin 3. -/
theorem s1_v62 (W : Valuation τ sig (Elt F)) :
    after ops1 W (Proc.devRef .tc main_v62)
      = maskedMean (after ops1 W (Proc.devRef .tc main_v54)) (after ops1 W (Proc.devRef .tc main_v56)) := by
  simp only [ops1]
  after_results_simp
  rfl

set_option maxRecDepth 8192 in
set_option maxHeartbeats 2000000 in
/-- The combination of bins 2 and 1. -/
theorem s1_v78 (W : Valuation τ sig (Elt F)) :
    after ops1 W (Proc.devRef .tc main_v78)
      = nanmean2 (after ops1 W (Proc.devRef .tc main_v46)) (W (Proc.devRef .tc main_v34)) := by
  simp only [ops1]
  after_results_simp
  rfl

set_option maxRecDepth 8192 in
set_option maxHeartbeats 2000000 in
/-- Where bin 0's masked mean is a number. -/
theorem s1_v80 (W : Valuation τ sig (Elt F)) :
    after ops1 W (Proc.devRef .tc main_v80)
      = notNan (W (Proc.devRef .tc main_v19)) := by
  simp only [ops1]
  after_results_simp
  rfl

set_option maxRecDepth 8192 in
set_option maxHeartbeats 2000000 in
/-- Where the combination of bins 2 and 1 is a number. -/
theorem s1_v82 (W : Valuation τ sig (Elt F)) :
    after ops1 W (Proc.devRef .tc main_v82)
      = notNan (after ops1 W (Proc.devRef .tc main_v78)) := by
  simp only [ops1]
  after_results_simp
  rfl

set_option maxRecDepth 8192 in
set_option maxHeartbeats 2000000 in
/-- Bin 0's masked mean with zero in place of NaN. -/
theorem s1_v83 (W : Valuation τ sig (Elt F)) :
    after ops1 W (Proc.devRef .tc main_v83)
      = select (notNan (W (Proc.devRef .tc main_v19))) (W (Proc.devRef .tc main_v19)) (splatConv (F := F) 0x00000000#32) := by
  simp only [ops1]
  after_results_simp
  rfl

end Cert.ReferenceIdeal.RefRead1

end
-- ==== Proof.RefRead2.lean ====
/-
  The third stretch of the reference read back over any contents before it: the combination of bin 0 with the
  combination of bins 2 and 1, and the four means over all entries.
-/
import proofs.«101840_j35605278884350_1_alg».proof.Proof.RefRun
import proofs.«101840_j35605278884350_1_alg».proof.Proof.Tail
import proofs.«101840_j35605278884350_1_alg».proof.Proof.RefSums

noncomputable section

namespace Cert.ReferenceIdeal.RefRead2

open Cert.ReferenceIdeal Cert.ReferenceIdeal.Gen Cert.ReferenceIdeal.RefRun Idealize.ShloMosaic Idealize.ShloMosaic.TcCoe Idealize.SL.Sem Idealize.ShloMosaic.StableHlo
open Cert.Tail (maskedMean nanmean2 nanmean notNan splat splatConv tailF mO mIn mU mE inComb wComb)
open Cert.RefSums (refSumF clamped absErr mask sumTime)

variable {F : FTy → Type} [FloatOps F]

set_option maxRecDepth 8192 in
set_option maxHeartbeats 2000000 in
/-- The combination of bin 0 with the combination of bins 2 and 1, from the pieces the second stretch left. -/
theorem s2_v94 (W : Valuation τ sig (Elt F)) :
    after ops2 W (Proc.devRef .tc main_v94)
      = select (cmpf .ogt (addf (uitofp .f32 (W (Proc.devRef .tc main_v80))) (uitofp .f32 (W (Proc.devRef .tc main_v82)))) (splat (F := F) 0x00000000#32))
          (Host.divf (addf (W (Proc.devRef .tc main_v83)) (select (W (Proc.devRef .tc main_v82)) (W (Proc.devRef .tc main_v78)) (splatConv (F := F) 0x00000000#32)))
            (maximumf (addf (uitofp .f32 (W (Proc.devRef .tc main_v80))) (uitofp .f32 (W (Proc.devRef .tc main_v82)))) (splat (F := F) 0x3F800000#32)))
          (splatConv (F := F) 0x7FC00000#32) := by
  simp only [ops2]
  after_results_simp
  rfl

set_option maxRecDepth 8192 in
set_option maxHeartbeats 2000000 in
/-- The first result. -/
theorem s2_v95 (W : Valuation τ sig (Elt F)) :
    after ops2 W (Proc.devRef .tc main_v95)
      = nanmean (after ops2 W (Proc.devRef .tc main_v94)) := by
  simp only [ops2]
  after_results_simp
  rfl

set_option maxRecDepth 8192 in
set_option maxHeartbeats 2000000 in
/-- The second result. -/
theorem s2_v96 (W : Valuation τ sig (Elt F)) :
    after ops2 W (Proc.devRef .tc main_v96)
      = nanmean (W (Proc.devRef .tc main_v78)) := by
  simp only [ops2]
  after_results_simp
  rfl

set_option maxRecDepth 8192 in
set_option maxHeartbeats 2000000 in
/-- The third result. -/
theorem s2_v97 (W : Valuation τ sig (Elt F)) :
    after ops2 W (Proc.devRef .tc main_v97)
      = nanmean (W (Proc.devRef .tc main_v19)) := by
  simp only [ops2]
  after_results_simp
  rfl

set_option maxRecDepth 8192 in
set_option maxHeartbeats 2000000 in
/-- The fourth result. -/
theorem s2_v98 (W : Valuation τ sig (Elt F)) :
    after ops2 W (Proc.devRef .tc main_v98)
      = nanmean (W (Proc.devRef .tc main_v62)) := by
  simp only [ops2]
  after_results_simp
  rfl

end Cert.ReferenceIdeal.RefRead2

end
-- ==== Proof.RefValue.lean ====
/-
  The reference's four results as the shared tail of its eight totals: the three stretches' read-backs joined.
  Every step is a reading of which operation writes which buffer; no arithmetic is used.
-/
import proofs.«101840_j35605278884350_1_alg».proof.Proof.RefRun
import proofs.«101840_j35605278884350_1_alg».proof.Proof.Tail
import proofs.«101840_j35605278884350_1_alg».proof.Proof.RefSums
import proofs.«101840_j35605278884350_1_alg».proof.Proof.RefRead0
import proofs.«101840_j35605278884350_1_alg».proof.Proof.RefRead1
import proofs.«101840_j35605278884350_1_alg».proof.Proof.RefRead2

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo
open Cert.ReferenceIdeal.RefRead0 Cert.ReferenceIdeal.RefRead1 Cert.ReferenceIdeal.RefRead2
open Cert.Tail (maskedMean nanmean2 nanmean notNan splat splatConv tailF mO mIn mU mE inComb wComb)
open Cert.RefSums (refSumF clamped absErr mask sumTime)

variable {F : FTy → Type} [FloatOps F]

/-- The eight totals as the reference computes them from the launch contents of its two arguments. -/
abbrev aF (V : Valuation τ sig (Elt F)) : Fin 8 → FVec F Cert.Tail.S2 .f32 :=
  fun k => refSumF k (V (Proc.devRef .tc main_arg0)) (V (Proc.devRef .tc main_arg1))

theorem v19_eq (V : Valuation τ sig (Elt F)) : after ops0 V (Proc.devRef .tc main_v19) = mO (aF V) := by
  rw [s0_v19, s0_v11, s0_v13]; rfl

theorem v34_eq (V : Valuation τ sig (Elt F)) : after ops0 V (Proc.devRef .tc main_v34) = mIn (aF V) := by
  rw [s0_v34, s0_v26, s0_v28]; rfl

theorem v46_eq (V : Valuation τ sig (Elt F)) : after ops1 (after ops0 V) (Proc.devRef .tc main_v46) = mU (aF V) := by
  rw [s1_v46, s0_v38, s0_v40]; rfl

theorem v62_eq (V : Valuation τ sig (Elt F)) : after ops1 (after ops0 V) (Proc.devRef .tc main_v62) = mE (aF V) := by
  rw [s1_v62, s1_v54, s1_v56, s0_v5, s0_v7]; rfl

theorem v78_eq (V : Valuation τ sig (Elt F)) : after ops1 (after ops0 V) (Proc.devRef .tc main_v78) = inComb (aF V) := by
  rw [s1_v78, v46_eq, v34_eq]; rfl

theorem v19_kept (V : Valuation τ sig (Elt F)) : after ops1 (after ops0 V) (Proc.devRef .tc main_v19) = mO (aF V) := by
  rw [keep1 _ _ (by decide), v19_eq]

theorem v80_eq (V : Valuation τ sig (Elt F)) : after ops1 (after ops0 V) (Proc.devRef .tc main_v80) = notNan (mO (aF V)) := by
  rw [s1_v80, v19_eq]

theorem v82_eq (V : Valuation τ sig (Elt F)) : after ops1 (after ops0 V) (Proc.devRef .tc main_v82) = notNan (inComb (aF V)) := by
  rw [s1_v82, v78_eq]

theorem v83_eq (V : Valuation τ sig (Elt F)) :
    after ops1 (after ops0 V) (Proc.devRef .tc main_v83) = select (notNan (mO (aF V))) (mO (aF V)) (splatConv (F := F) 0x00000000#32) := by
  rw [s1_v83, v19_eq]

theorem v94_eq (V : Valuation τ sig (Elt F)) : after ops2 (after ops1 (after ops0 V)) (Proc.devRef .tc main_v94) = wComb (aF V) := by
  rw [s2_v94, v80_eq, v82_eq, v83_eq, v78_eq]; rfl

/-- The four results, for any float values: the shared tail of the eight totals. -/
theorem res95 (V : Valuation τ sig (Elt F)) : after ops V (Proc.devRef .tc main_v95) = tailF (aF V) 0 := by
  rw [after_ops, s2_v95, v94_eq]; rfl
theorem res96 (V : Valuation τ sig (Elt F)) : after ops V (Proc.devRef .tc main_v96) = tailF (aF V) 1 := by
  rw [after_ops, s2_v96, v78_eq]; rfl
theorem res97 (V : Valuation τ sig (Elt F)) : after ops V (Proc.devRef .tc main_v97) = tailF (aF V) 2 := by
  rw [after_ops, s2_v97, v19_kept]; rfl
theorem res98 (V : Valuation τ sig (Elt F)) : after ops V (Proc.devRef .tc main_v98) = tailF (aF V) 3 := by
  rw [after_ops, s2_v98, v62_eq]; rfl

/-- Result 0 at the extended reals, from the launch memory. -/
theorem results_95 (m : (ℓ : Loc nD τ sig) → Buf (Elt Ideal) ℓ) (c : Dev nD) :
    (after ops (fun b => m (c, b)) (Proc.devRef .tc main_v95) : FVec Ideal Cert.Tail.S0 .f32)
      = Cert.Tail.tail (fun k => Cert.RefSums.refSum k (m ((c.tc : Thread nD τ).loc main_arg0)) (m ((c.tc : Thread nD τ).loc main_arg1))) 0 :=
  res95 (F := Ideal) (fun b => m (c, b))

/-- Result 1 at the extended reals, from the launch memory. -/
theorem results_96 (m : (ℓ : Loc nD τ sig) → Buf (Elt Ideal) ℓ) (c : Dev nD) :
    (after ops (fun b => m (c, b)) (Proc.devRef .tc main_v96) : FVec Ideal Cert.Tail.S0 .f32)
      = Cert.Tail.tail (fun k => Cert.RefSums.refSum k (m ((c.tc : Thread nD τ).loc main_arg0)) (m ((c.tc : Thread nD τ).loc main_arg1))) 1 :=
  res96 (F := Ideal) (fun b => m (c, b))

/-- Result 2 at the extended reals, from the launch memory. -/
theorem results_97 (m : (ℓ : Loc nD τ sig) → Buf (Elt Ideal) ℓ) (c : Dev nD) :
    (after ops (fun b => m (c, b)) (Proc.devRef .tc main_v97) : FVec Ideal Cert.Tail.S0 .f32)
      = Cert.Tail.tail (fun k => Cert.RefSums.refSum k (m ((c.tc : Thread nD τ).loc main_arg0)) (m ((c.tc : Thread nD τ).loc main_arg1))) 2 :=
  res97 (F := Ideal) (fun b => m (c, b))

/-- Result 3 at the extended reals, from the launch memory. -/
theorem results_98 (m : (ℓ : Loc nD τ sig) → Buf (Elt Ideal) ℓ) (c : Dev nD) :
    (after ops (fun b => m (c, b)) (Proc.devRef .tc main_v98) : FVec Ideal Cert.Tail.S0 .f32)
      = Cert.Tail.tail (fun k => Cert.RefSums.refSum k (m ((c.tc : Thread nD τ).loc main_arg0)) (m ((c.tc : Thread nD τ).loc main_arg1))) 3 :=
  res98 (F := Ideal) (fun b => m (c, b))

end Cert.ReferenceIdeal.RefValue

end
-- ==== Proof.RefSumLemmas.lean ====
/-
  A host sum down the middle axis of a [64, 65536, 4] array of extended reals, started from the zero word and read
  at (n, c), is the sum over all 65536 middle coordinates.
-/
import Idealize.ShloMosaic.PureOps.Ideal
import Idealize.ShloMosaic.PureOps.Ideal.Laws
import Idealize.ShloMosaic.Lib.ValueIdx

noncomputable section
namespace Cert.RefSumLemmas
open Idealize.ShloMosaic Idealize.ShloMosaic.ValueIdx

abbrev S3 : Shape := ⟨3, ![64, 65536, 4]⟩
abbrev S2 : Shape := ⟨2, ![64, 4]⟩
abbrev S0 : Shape := ⟨0, ![]⟩

theorem red1 : S3.Reduces [1] S2 := by decide

/-- The index the reduction inserts at (n, c) and middle coordinate k is (n, k, c). -/
theorem lift_eq (n : Fin 64) (c : Fin 4) (k : Fin 65536) : red1.lift (ix2 n c) k = ix3 n k c := by
  funext a
  apply Fin.ext
  match a with
  | ⟨0, _⟩ => rfl
  | ⟨1, _⟩ => rfl
  | ⟨2, _⟩ => rfl

/-- A host sum down the time axis from the zero word, read at (n, c): the sum over all times. -/
theorem axis1_sum (X : FVec Ideal S3 .f32) (h' : S3.ReducesTo [1] S2) (hS : 0 < S0.numel) (n : Fin 64) (c : Fin 4) :
    Host.reduceAdd (F := Ideal) X (constant (F := Ideal) S0 .f32 0x00000000#32) h' hS (ix2 n c) = ∑ t : Fin 65536, X (ix3 n t c) := by
  show Ideal.hostReduceAdd h' X _ (ix2 n c) = _
  rw [Ideal.hostReduceAdd_single h' red1 X _ (ix2 n c)]
  rw [show constant (F := Ideal) S0 .f32 0x00000000#32 (Shape.Idx.first hS) = 0 from Ideal.ofBits_zero_f32, zero_add]
  exact Finset.sum_congr rfl fun k _ => congrArg X (lift_eq n c k)

end Cert.RefSumLemmas
end
-- ==== Proof.RefSumEq.lean ====
/-
  The host program's eight whole-axis sums are the eight totals of the specification: each is a sum down the time
  axis from zero, and at every index the summed array is the specification's term — the clamp, the error and the
  bin indicators are the same scalar operations applied pointwise.
-/
import proofs.«101840_j35605278884350_1_alg».proof.Proof.RefSums
import proofs.«101840_j35605278884350_1_alg».proof.Proof.RefSumLemmas

noncomputable section
namespace Cert.RefSums
open Idealize.ShloMosaic Idealize.ShloMosaic.ValueIdx

set_option maxHeartbeats 1000000 in
theorem refSum_eq (k : Fin 8) (O T : FVec Ideal S3 .f32) : refSum k O T = totArr k O T := by
  funext j
  obtain ⟨n, c, rfl⟩ : ∃ (n : Fin 64) (c : Fin 4), j = ix2 n c := ⟨j 0, j 1, eq_ix2 j⟩
  show refSumF (F := Ideal) k O T (ix2 n c) = Cert.Spec.tot k O T n c
  unfold Cert.Spec.tot
  fin_cases k
  all_goals
    refine (Cert.RefSumLemmas.axis1_sum _ redTime numel_pos n c).trans ?_
    exact Finset.sum_congr rfl fun t _ => rfl

end Cert.RefSums
end
-- ==== Proof.lean ====
/-
  Two programs compute binned mean absolute errors of predictions against clamped targets: a pipelined region that
  accumulates, for every row and channel, the count and the error sum of four target bins over blocks of 4096 times,
  followed by host lines; and a host program that takes the same eight totals by whole-axis sums and applies the same
  host lines. At the extended reals the eight totals agree — a sum over 65536 times is the sum of its 16 runs of
  4096, a bit converted through a signed 32-bit word is the bit, and the region's early bound is the exact product
  the host forms — and the host lines after them are one function of the totals, so the four results agree.
  The three frames: each program runs to the end, faults nowhere, and leaves its two argument arrays as they were.
-/
import proofs.«101840_j35605278884350_1_alg».proof.Defs
import proofs.«101840_j35605278884350_1_alg».proof.Proof.Gen.Kernel
import proofs.«101840_j35605278884350_1_alg».proof.Proof.Gen.KernelIdeal
import proofs.«101840_j35605278884350_1_alg».proof.Proof.Gen.ReferenceIdeal
import proofs.«101840_j35605278884350_1_alg».proof.Proof.Gen.Pre_finite_inputs
import proofs.«101840_j35605278884350_1_alg».proof.Proof.KFrame
import proofs.«101840_j35605278884350_1_alg».proof.Proof.KIResult
import proofs.«101840_j35605278884350_1_alg».proof.Proof.RefValue
import proofs.«101840_j35605278884350_1_alg».proof.Proof.RefSumEq
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.HF.frame (F := Bits) m ρ
theorem frame_ki : Cert.frame_KernelIdeal := fun m ρ _ => Cert.KernelIdeal.HF.frame (F := Ideal) m ρ
theorem frame_ri : Cert.frame_ReferenceIdeal := fun m ρ _ =>
  (θ_run Cert.ReferenceIdeal.defs _ _).mono (fun _ h c => ⟨(h c).2.2.2.2.1, (h c).2.2.2.2.2⟩)
    (Cert.ReferenceIdeal.RefRun.run (F := Ideal) m ρ)

/-- The one constant the idealization names: the early bound is the exact product of the words of 0.1 and 7500. -/
theorem preserves : Cert.preserves_Kernel_KernelIdeal :=
  IdealRules.named_const.statement Cert.KernelIdeal.κ "early_bound" .f32 0x443B8000#32 ((25165824375 / 33554432 : ℝ) : EReal) rfl

/-- The host program's eight sums are the eight columns of the region's output array: both are the eight totals. -/
theorem cols_eq (O T : FVec Ideal Cert.RefSums.S3 .f32) :
    (fun k => Cert.RefSums.refSum k O T) = fun k => Cert.KernelIdeal.HF.T.col k (Cert.KernelIdeal.HF.statsOf O T) := by
  funext k
  rw [Cert.RefSums.refSum_eq]
  funext j
  unfold Cert.RefSums.totArr Cert.KernelIdeal.HF.T.col
  rw [Cert.KernelIdeal.HF.statsOf_apply]

/-- From arguments that agree, both programs end with the same four results: the shared host lines applied to the
    eight totals, which the region accumulates block by block and the host program sums whole. -/
theorem algebraic : Cert.algebraic_KernelIdeal_ReferenceIdeal := by
  intro m ρ m' ρ' _ hagree
  refine ⟨_, _, _, _, Cert.KernelIdeal.HF.run_results m ρ, ?_⟩
  refine (θ_run Cert.ReferenceIdeal.defs _ _).mono (fun _ h c => ?_) (Cert.ReferenceIdeal.RefRun.run (F := Ideal) m' ρ')
  obtain ⟨h95, h96, h97, h98, ha0, ha1⟩ := h c
  refine ⟨h95.trans ?_, h96.trans ?_, h97.trans ?_, h98.trans ?_, ha0, ha1⟩
  · rw [Cert.ReferenceIdeal.RefValue.results_95 m' c, (hagree c).1, (hagree c).2, cols_eq]
  · rw [Cert.ReferenceIdeal.RefValue.results_96 m' c, (hagree c).1, (hagree c).2, cols_eq]
  · rw [Cert.ReferenceIdeal.RefValue.results_97 m' c, (hagree c).1, (hagree c).2, cols_eq]
  · rw [Cert.ReferenceIdeal.RefValue.results_98 m' c, (hagree c).1, (hagree c).2, cols_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
